-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S32x16 : Shape := ⟨2, ![32, 16]⟩
abbrev S16x2 : Shape := ⟨2, ![16, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S32x16 : S_.BroadcastsInDim S32x16 (![] : Fin 0 → Fin S32x16.rank)
  reducesTo_S32x16_S_d0_1 : S32x16.ReducesTo [0, 1] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S16x2 .f32) (main_arg9 : FVec F S2 .f32) (main_v33 : IVec S_ 1) : IVec S_ 1 :=
  let main_v34 : FVec F S16x2 .f32 := Host.absf main_arg8
  let main_cst_12 : FVec F S_ .f32 := constant S_ .f32 0x7F800000#32
  let main_v35 : FVec F S16x2 .f32 := broadcastInDim S16x2 ![] bcast_S_S16x2 main_cst_12
  let main_v36 : IVec S16x2 1 := cmpf .olt main_v34 main_v35
  let main_c_13 : IVec S_ 1 := constantI S_ 1 1#1
  let main_v37 : IVec S_ 1 := (fun x v => Host.reduce IntOp.andi x v reducesTo_S16x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S16 .f32) (main_arg6 : FVec F S32x16 .f32) (main_arg7 : FVec F S16 .f32) (main_arg8 : FVec F S16x2 .f32) (main_arg9 : FVec F S2 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x3200000 32) (main_arg2 : FVec F S128x16 .f32) (main_arg3 : FVec F S16 .f32) (main_arg4 : FVec F S16x16 .f32) (main_arg5 : FVec F S16 .f32) (main_arg6 : FVec F S32x16 .f32) (main_arg7 : FVec F S16 .f32) (main_arg8 : FVec F S16x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S32x16 : Shape := ⟨2, ![32, 16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S10000x128 : Shape := ⟨2, ![10000, 128]⟩
abbrev S10000x16 : Shape := ⟨2, ![10000, 16]⟩
abbrev S3200000x16 : Shape := ⟨2, ![3200000, 16]⟩
abbrev S1x16 : Shape := ⟨2, ![1, 16]⟩
abbrev S10000x1 : Shape := ⟨2, ![10000, 1]⟩
abbrev S3200000x32 : Shape := ⟨2, ![3200000, 32]⟩
abbrev S1x2 : Shape := ⟨2, ![1, 2]⟩
abbrev S3200000x2 : Shape := ⟨2, ![3200000, 2]⟩
abbrev S8000x32 : Shape := ⟨2, ![8000, 32]⟩
abbrev S8000x2 : Shape := ⟨2, ![8000, 2]⟩
abbrev S8000x16 : Shape := ⟨2, ![8000, 16]⟩
abbrev S8000 : Shape := ⟨1, ![8000]⟩
abbrev S8000x1 : Shape := ⟨2, ![8000, 1]⟩

abbrev nBuf : Space → Nat
  | .hbm => 104
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S32x16, .f32⟩
  | .hbm, ⟨7, _⟩ => ⟨S16, .f32⟩
  | .hbm, ⟨8, _⟩ => ⟨S16x2, .f32⟩
  | .hbm, ⟨9, _⟩ => ⟨S2, .f32⟩
  | .hbm, ⟨10, _⟩ => ⟨S1x3200000, .i32⟩
  | .hbm, ⟨11, _⟩ => ⟨S3200000, .i32⟩
  | .hbm, ⟨12, _⟩ => ⟨S1x3200000, .i32⟩
  | .hbm, ⟨13, _⟩ => ⟨S3200000, .i32⟩
  | .hbm, ⟨14, _⟩ => ⟨S_, .f32⟩
  | .hbm, ⟨15, _⟩ => ⟨S3200000, .f32⟩
  | .hbm, ⟨16, _⟩ => ⟨S_, .f32⟩
  | .hbm, ⟨17, _⟩ => ⟨S100000, .f32⟩
  | .hbm, ⟨18, _⟩ => ⟨S3200000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S3200000, .i32⟩
  | .hbm, ⟨28, _⟩ => ⟨S3200000, .i1⟩
  | .hbm, ⟨29, _⟩ => ⟨S_, .i32⟩
  | .hbm, ⟨30, _⟩ => ⟨S3200000, .i32⟩
  | .hbm, ⟨31, _⟩ => ⟨S3200000, .i32⟩
  | .hbm, ⟨32, _⟩ => ⟨S3200000, .i32⟩
  | .hbm, ⟨33, _⟩ => ⟨S3200000x1, .i32⟩
  | .hbm, ⟨34, _⟩ => ⟨S3200000, .f32⟩
  | .hbm, ⟨35, _⟩ => ⟨S_, .i32⟩
  | .hbm, ⟨36, _⟩ => ⟨S3200000, .i32⟩
  | .hbm, ⟨37, _⟩ => ⟨S3200000, .i1⟩
  | .hbm, ⟨38, _⟩ => ⟨S_, .i32⟩
  | .hbm, ⟨39, _⟩ => ⟨S3200000, .i32⟩
  | .hbm, ⟨40, _⟩ => ⟨S3200000, .i32⟩
  | .hbm, ⟨41, _⟩ => ⟨S3200000, .i32⟩
  | .hbm, ⟨42, _⟩ => ⟨S3200000x1, .i32⟩
  | .hbm, ⟨43, _⟩ => ⟨S3200000, .f32⟩
  | .hbm, ⟨44, _⟩ => ⟨S3200000, .f32⟩
  | .hbm, ⟨45, _⟩ => ⟨S3200000x1, .f32⟩
  | .hbm, ⟨46, _⟩ => ⟨S100000x16, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x16, .f32⟩
  | .hbm, ⟨56, _⟩ => ⟨S3200000x16, .f32⟩
  | .hbm, ⟨57, _⟩ => ⟨S3200000x16, .f32⟩
  | .hbm, ⟨58, _⟩ => ⟨S_, .f32⟩
  | .hbm, ⟨59, _⟩ => ⟨S100000x16, .f32⟩
  | .hbm, ⟨60, _⟩ => ⟨S3200000x1, .i32⟩
  | .hbm, ⟨61, _⟩ => ⟨S100000x16, .f32⟩
  | .hbm, ⟨62, _⟩ => ⟨S1x16, .f32⟩
  | .hbm, ⟨63, _⟩ => ⟨S100000x16, .f32⟩
  | .hbm, ⟨64, _⟩ => ⟨S100000x16, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x16, .f32⟩
  | .hbm, ⟨74, _⟩ => ⟨S3200000x16, .f32⟩
  | .hbm, ⟨75, _⟩ => ⟨S3200000x16, .f32⟩
  | .hbm, ⟨76, _⟩ => ⟨S_, .f32⟩
  | .hbm, ⟨77, _⟩ => ⟨S100000x16, .f32⟩
  | .hbm, ⟨78, _⟩ => ⟨S3200000x1, .i32⟩
  | .hbm, ⟨79, _⟩ => ⟨S100000x16, .f32⟩
  | .hbm, ⟨80, _⟩ => ⟨S1x16, .f32⟩
  | .hbm, ⟨81, _⟩ => ⟨S100000x16, .f32⟩
  | .hbm, ⟨82, _⟩ => ⟨S_, .i32⟩
  | .hbm, ⟨83, _⟩ => ⟨S3200000, .i32⟩
  | .hbm, ⟨84, _⟩ => ⟨S3200000, .i1⟩
  | .hbm, ⟨85, _⟩ => ⟨S_, .i32⟩
  | .hbm, ⟨86, _⟩ => ⟨S3200000, .i32⟩
  | .hbm, ⟨87, _⟩ => ⟨S3200000, .i32⟩
  | .hbm, ⟨88, _⟩ => ⟨S3200000, .i32⟩
  | .hbm, ⟨89, _⟩ => ⟨S3200000x1, .i32⟩
  | .hbm, ⟨90, _⟩ => ⟨S3200000x16, .f32⟩
  | .hbm, ⟨91, _⟩ => ⟨S_, .i32⟩
  | .hbm, ⟨92, _⟩ => ⟨S3200000, .i32⟩
  | .hbm, ⟨93, _⟩ => ⟨S3200000, .i1⟩
  | .hbm, ⟨94, _⟩ => ⟨S_, .i32⟩
  | .hbm, ⟨95, _⟩ => ⟨S3200000, .i32⟩
  | .hbm, ⟨96, _⟩ => ⟨S3200000, .i32⟩
  | .hbm, ⟨97, _⟩ => ⟨S3200000, .i32⟩
  | .hbm, ⟨98, _⟩ => ⟨S3200000x1, .i32⟩
  | .hbm, ⟨99, _⟩ => ⟨S3200000x16, .f32⟩
  | .hbm, ⟨100, _⟩ => ⟨S3200000x32, .f32⟩
  | .hbm, ⟨101, _⟩ => ⟨S1x16, .f32⟩
  | .hbm, ⟨102, _⟩ => ⟨S1x2, .f32⟩
  | .hbm, ⟨103, _⟩ => ⟨S3200000x2, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S10000x1, .f32⟩
  | .local _ .vmem, ⟨10, _⟩ => ⟨S10000x1, .f32⟩
  | .local _ .vmem, ⟨11, _⟩ => ⟨S1x16, .f32⟩
  | .local _ .vmem, ⟨12, _⟩ => ⟨S10000x16, .f32⟩
  | .local _ .vmem, ⟨13, _⟩ => ⟨S10000x16, .f32⟩
  | .local _ .vmem, ⟨14, _⟩ => ⟨S10000x16, .f32⟩
  | .local _ .vmem, ⟨15, _⟩ => ⟨S10000x16, .f32⟩
  | .local _ .vmem, ⟨16, _⟩ => ⟨S16x16, .f32⟩
  | .local _ .vmem, ⟨17, _⟩ => ⟨S10000x16, .f32⟩
  | .local _ .vmem, ⟨18, _⟩ => ⟨S10000x16, .f32⟩
  | .local _ .vmem, ⟨19, _⟩ => ⟨S10000x16, .f32⟩
  | .local _ .vmem, ⟨20, _⟩ => ⟨S10000x16, .f32⟩
  | .local _ .vmem, ⟨21, _⟩ => ⟨S10000x16, .f32⟩
  | .local _ .vmem, ⟨22, _⟩ => ⟨S10000x16, .f32⟩
  | .local _ .vmem, ⟨23, _⟩ => ⟨S10000x1, .f32⟩
  | .local _ .vmem, ⟨24, _⟩ => ⟨S10000x1, .f32⟩
  | .local _ .vmem, ⟨25, _⟩ => ⟨S1x16, .f32⟩
  | .local _ .vmem, ⟨26, _⟩ => ⟨S10000x16, .f32⟩
  | .local _ .vmem, ⟨27, _⟩ => ⟨S10000x16, .f32⟩
  | .local _ .vmem, ⟨28, _⟩ => ⟨S8000x32, .f32⟩
  | .local _ .vmem, ⟨29, _⟩ => ⟨S8000x32, .f32⟩
  | .local _ .vmem, ⟨30, _⟩ => ⟨S32x16, .f32⟩
  | .local _ .vmem, ⟨31, _⟩ => ⟨S1x16, .f32⟩
  | .local _ .vmem, ⟨32, _⟩ => ⟨S16x2, .f32⟩
  | .local _ .vmem, ⟨33, _⟩ => ⟨S1x2, .f32⟩
  | .local _ .vmem, ⟨34, _⟩ => ⟨S8000x2, .f32⟩
  | .local _ .vmem, ⟨35, _⟩ => ⟨S8000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![400], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S16x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S8000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S10000x16_S10000x16 : S10000x16.ShapeCasts S10000x16
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x16 : S10000x1.Broadcasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x16_S16x16_0_0 : ∀ a, (![0, 0] : Fin 2 → Nat) a + S16x16.size a ≤ S16x16.size a
  h_S16x16 : 0 < S16x16.numel
  concatenates_S3200000x16_S3200000x16_S3200000x32_d1 : Shape.Concatenates [S3200000x16, S3200000x16] S3200000x32 1
  shapeCasts_S2_S1x2 : S2.ShapeCasts S1x2
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S32x16_S32x16_0_0 : ∀ a, (![0, 0] : Fin 2 → Nat) a + S32x16.size a ≤ S32x16.size a
  h_S32x16 : 0 < S32x16.numel
  broadcasts_S1x16_S8000x16 : S1x16.Broadcasts S8000x16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8000x2 : S1x2.Broadcasts S8000x2
  reduces_S8000x2_S8000 : S8000x2.Reduces [1] S8000
  shapeCasts_S8000_S8000x1 : S8000.ShapeCasts S8000x1
  broadcasts_S8000x1_S8000x2 : S8000x1.Broadcasts S8000x2
  inb_S8000x2_S8000x2_0_0 : ∀ a, (![0, 0] : Fin 2 → Nat) a + S8000x2.size a ≤ S8000x2.size a
  h_S8000x2 : 0 < S8000x2.numel
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x16_S10000x16_1_0_0_1_n_n_wf : DotDims.WF S10000x16 S16x16 S10000x16 [1] [0] [0] [1] [] []
  dot_S8000x32_S32x16_S8000x16_1_0_0_1_n_n_wf : DotDims.WF S8000x32 S32x16 S8000x16 [1] [0] [0] [1] [] []
  dot_S8000x16_S16x2_S8000x2_1_0_0_1_n_n_wf : DotDims.WF S8000x16 S16x2 S8000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x16.size a ≤ S100000x16.size a
  hwx1_4 : ∀ i : grid1.Coords, EltTy.bits .f32 = 32 ∨ (Rect.block (s := S100000x16) S10000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x16.size a ≤ S100000x16.size a
  hwx2_2 : ∀ i : grid2.Coords, EltTy.bits .f32 = 32 ∨ (Rect.block (s := S100000x16) S10000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S100000x16.size a
  hwx3_1 : ∀ i : grid3.Coords, EltTy.bits .f32 = 32 ∨ (Rect.block (s := S100000x16) S10000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x16.size a ≤ S100000x16.size a
  hwx3_4 : ∀ i : grid3.Coords, EltTy.bits .f32 = 32 ∨ (Rect.block (s := S100000x16) S10000x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S3200000x32.size a
  hwx4_0 : ∀ i : grid4.Coords, EltTy.bits .f32 = 32 ∨ (Rect.block (s := S3200000x32) S8000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x16.size a ≤ S32x16.size a
  hwx4_1 : ∀ i : grid4.Coords, EltTy.bits .f32 = 32 ∨ (Rect.block (s := S32x16) S32x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S16x2.size a ≤ S16x2.size a
  hwx4_3 : ∀ i : grid4.Coords, EltTy.bits .f32 = 32 ∨ (Rect.block (s := S16x2) S16x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S8000x2.size a ≤ S3200000x2.size a
  hwx4_5 : ∀ i : grid4.Coords, EltTy.bits .f32 = 32 ∨ (Rect.block (s := S3200000x2) S8000x2.size (cc4_transform_5 i) (hinb4_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S8000x32_S32x16_S8000x16_1_0_0_1_n_n : DotDims S8000x32 S32x16 S8000x16 where
  lhsContracting := [1]
  rhsContracting := [0]
  lhsNonContracting := [0]
  rhsNonContracting := [1]
  lhsBatch := []
  rhsBatch := []
  wf := dot_S8000x32_S32x16_S8000x16_1_0_0_1_n_n_wf
def dot_S8000x16_S16x2_S8000x2_1_0_0_1_n_n : DotDims S8000x16 S16x2 S8000x2 where
  lhsContracting := [1]
  rhsContracting := [0]
  lhsNonContracting := [0]
  rhsNonContracting := [1]
  lhsBatch := []
  rhsBatch := []
  wf := dot_S8000x16_S16x2_S8000x2_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S10000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S10000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S10000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S10000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v73) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S32x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S16x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v75) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v76) S8000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x16 : Shape := ⟨2, ![16, 16]⟩
abbrev S32x16 : Shape := ⟨2, ![32, 16]⟩
abbrev S16x2 : Shape := ⟨2, ![16, 2]⟩
abbrev S2 : Shape := ⟨1, ![2]⟩
abbrev S100000x16 : Shape := ⟨2, ![100000, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S3200000x32 : Shape := ⟨2, ![3200000, 32]⟩
abbrev S3200000x2 : Shape := ⟨2, ![3200000, 2]⟩
abbrev S1x2 : Shape := ⟨2, ![1, 2]⟩

abbrev nBuf : Space → Nat
  | .hbm => 181
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x16, .f32⟩
  | 5 => ⟨S16, .f32⟩
  | 6 => ⟨S32x16, .f32⟩
  | 7 => ⟨S16, .f32⟩
  | 8 => ⟨S16x2, .f32⟩
  | 9 => ⟨S2, .f32⟩
  | 10 => ⟨S100000x16, .f32⟩
  | 11 => ⟨S1x3200000, .i32⟩
  | 12 => ⟨S3200000, .i32⟩
  | 13 => ⟨S1x3200000, .i32⟩
  | 14 => ⟨S3200000, .i32⟩
  | 15 => ⟨S_, .f32⟩
  | 16 => ⟨S3200000, .f32⟩
  | 17 => ⟨S_, .f32⟩
  | 18 => ⟨S100000, .f32⟩
  | 19 => ⟨S3200000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S3200000, .i32⟩
  | 27 => ⟨S3200000, .i1⟩
  | 28 => ⟨S_, .i32⟩
  | 29 => ⟨S3200000, .i32⟩
  | 30 => ⟨S3200000, .i32⟩
  | 31 => ⟨S3200000, .i32⟩
  | 32 => ⟨S3200000x1, .i32⟩
  | 33 => ⟨S3200000, .f32⟩
  | 34 => ⟨S_, .i32⟩
  | 35 => ⟨S3200000, .i32⟩
  | 36 => ⟨S3200000, .i1⟩
  | 37 => ⟨S_, .i32⟩
  | 38 => ⟨S3200000, .i32⟩
  | 39 => ⟨S3200000, .i32⟩
  | 40 => ⟨S3200000, .i32⟩
  | 41 => ⟨S3200000x1, .i32⟩
  | 42 => ⟨S3200000, .f32⟩
  | 43 => ⟨S3200000, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x16, .f32⟩
  | 53 => ⟨S3200000x1, .f32⟩
  | 54 => ⟨S3200000x16, .f32⟩
  | 55 => ⟨S3200000x16, .f32⟩
  | 56 => ⟨S_, .f32⟩
  | 57 => ⟨S100000x16, .f32⟩
  | 58 => ⟨S3200000x1, .i32⟩
  | 59 => ⟨S100000x16, .f32⟩
  | 60 => ⟨S100000, .f32⟩
  | 61 => ⟨S100000x1, .f32⟩
  | 62 => ⟨S100000x16, .f32⟩
  | 63 => ⟨S100000x16, .f32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S100000x16, .f32⟩
  | 72 => ⟨S1x3200000, .i32⟩
  | 73 => ⟨S3200000, .i32⟩
  | 74 => ⟨S1x3200000, .i32⟩
  | 75 => ⟨S3200000, .i32⟩
  | 76 => ⟨S_, .f32⟩
  | 77 => ⟨S3200000, .f32⟩
  | 78 => ⟨S_, .f32⟩
  | 79 => ⟨S100000, .f32⟩
  | 80 => ⟨S3200000x1, .i32⟩
  | 81 => ⟨S100000, .f32⟩
  | 82 => ⟨S_, .f32⟩
  | 83 => ⟨S100000, .f32⟩
  | 84 => ⟨S100000, .f32⟩
  | 85 => ⟨S100000, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000, .f32⟩
  | 95 => ⟨S_, .i32⟩
  | 96 => ⟨S3200000, .i32⟩
  | 97 => ⟨S3200000, .i1⟩
  | 98 => ⟨S_, .i32⟩
  | 99 => ⟨S3200000, .i32⟩
  | 100 => ⟨S3200000, .i32⟩
  | 101 => ⟨S3200000, .i32⟩
  | 102 => ⟨S3200000x1, .i32⟩
  | 103 => ⟨S3200000, .f32⟩
  | 104 => ⟨S3200000, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000x16, .f32⟩
  | 114 => ⟨S3200000x1, .f32⟩
  | 115 => ⟨S3200000x16, .f32⟩
  | 116 => ⟨S3200000x16, .f32⟩
  | 117 => ⟨S_, .f32⟩
  | 118 => ⟨S100000x16, .f32⟩
  | 119 => ⟨S3200000x1, .i32⟩
  | 120 => ⟨S100000x16, .f32⟩
  | 121 => ⟨S100000, .f32⟩
  | 122 => ⟨S100000x1, .f32⟩
  | 123 => ⟨S100000x16, .f32⟩
  | 124 => ⟨S100000x16, .f32⟩
  | 125 => ⟨S100000x16, .f32⟩
  | 126 => ⟨S1x16, .f32⟩
  | 127 => ⟨S100000x16, .f32⟩
  | _ => ⟨S100000x128, .f32⟩

abbrev hbmTy0_1 (i : Nat) : BufTy := match i % 128 with
  | 0 => ⟨S100000x16, .f32⟩
  | 1 => ⟨S_, .f32⟩
  | 2 => ⟨S100000x16, .f32⟩
  | 3 => ⟨S100000x16, .f32⟩
  | 4 => ⟨S1x3200000, .i32⟩
  | 5 => ⟨S3200000, .i32⟩
  | 6 => ⟨S1x3200000, .i32⟩
  | 7 => ⟨S3200000, .i32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x16, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x16, .f32⟩
  | 26 => ⟨S3200000x32, .f32⟩
  | 27 => ⟨S3200000x16, .f32⟩
  | 28 => ⟨S1x16, .f32⟩
  | 29 => ⟨S3200000x16, .f32⟩
  | 30 => ⟨S3200000x16, .f32⟩
  | 31 => ⟨S_, .f32⟩
  | 32 => ⟨S3200000x16, .f32⟩
  | 33 => ⟨S3200000x16, .f32⟩
  | 34 => ⟨S3200000x2, .f32⟩
  | 35 => ⟨S1x2, .f32⟩
  | 36 => ⟨S3200000x2, .f32⟩
  | 37 => ⟨S3200000x2, .f32⟩
  | 38 => ⟨S_, .f32⟩
  | 39 => ⟨S3200000, .f32⟩
  | 40 => ⟨S_, .f32⟩
  | 41 => ⟨S3200000, .f32⟩
  | 42 => ⟨S3200000, .f32⟩
  | 43 => ⟨S3200000x1, .f32⟩
  | 44 => ⟨S3200000x2, .f32⟩
  | 45 => ⟨S3200000x2, .f32⟩
  | 46 => ⟨S3200000x2, .f32⟩
  | 47 => ⟨S_, .f32⟩
  | 48 => ⟨S3200000, .f32⟩
  | 49 => ⟨S3200000x1, .f32⟩
  | 50 => ⟨S3200000x1, .f32⟩
  | 51 => ⟨S3200000x2, .f32⟩
  | 52 => ⟨S3200000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_15 : Ref sig .tc := ⟨.hbm, 105, rfl⟩
abbrev main_v76 : Ref sig .tc := ⟨.hbm, 106, rfl⟩
abbrev main_v77 : Ref sig .tc := ⟨.hbm, 107, rfl⟩
abbrev main_c_16 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_call1_cst : Ref sig .tc := ⟨.hbm, 129, rfl⟩
abbrev main_call1_v0 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_c_18 : Ref sig .tc := ⟨.hbm, 136, rfl⟩
abbrev main_v102 : Ref sig .tc := ⟨.hbm, 137, rfl⟩
abbrev main_v103 : Ref sig .tc := ⟨.hbm, 138, rfl⟩
abbrev main_c_19 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_c_20 : Ref sig .tc := ⟨.hbm, 145, rfl⟩
abbrev main_v109 : Ref sig .tc := ⟨.hbm, 146, rfl⟩
abbrev main_v110 : Ref sig .tc := ⟨.hbm, 147, rfl⟩
abbrev main_c_21 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_call2_cst : Ref sig .tc := ⟨.hbm, 159, rfl⟩
abbrev main_call2_v0 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_call3_cst : Ref sig .tc := ⟨.hbm, 166, rfl⟩
abbrev main_call3_v0 : Ref sig .tc := ⟨.hbm, 167, rfl⟩
abbrev main_call3_cst_0 : Ref sig .tc := ⟨.hbm, 168, rfl⟩
abbrev main_call3_v1 : Ref sig .tc := ⟨.hbm, 169, rfl⟩
abbrev main_call3_v2 : Ref sig .tc := ⟨.hbm, 170, rfl⟩
abbrev main_call3_v3 : Ref sig .tc := ⟨.hbm, 171, rfl⟩
abbrev main_call3_v4 : Ref sig .tc := ⟨.hbm, 172, rfl⟩
abbrev main_call3_v5 : Ref sig .tc := ⟨.hbm, 173, rfl⟩
abbrev main_call3_v6 : Ref sig .tc := ⟨.hbm, 174, rfl⟩
abbrev main_call3_cst_1 : Ref sig .tc := ⟨.hbm, 175, rfl⟩
abbrev main_call3_v7 : Ref sig .tc := ⟨.hbm, 176, rfl⟩
abbrev main_call3_v8 : Ref sig .tc := ⟨.hbm, 177, rfl⟩
abbrev main_call3_v9 : Ref sig .tc := ⟨.hbm, 178, rfl⟩
abbrev main_call3_v10 : Ref sig .tc := ⟨.hbm, 179, rfl⟩
abbrev main_v126 : Ref sig .tc := ⟨.hbm, 180, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  concatenates_S3200000x16_S3200000x16_S3200000x32_d1 : Shape.Concatenates [S3200000x16, S3200000x16] S3200000x32 1
  bcast_S1x16_S3200000x16_0_1 : S1x16.BroadcastsInDim S3200000x16 (![0, 1] : Fin 2 → Fin S3200000x16.rank)
  bcast_S_S3200000x16 : S_.BroadcastsInDim S3200000x16 (![] : Fin 0 → Fin S3200000x16.rank)
  bcast_S2_S1x2_1 : S2.BroadcastsInDim S1x2 (![1] : Fin 1 → Fin S1x2.rank)
  bcast_S1x2_S3200000x2_0_1 : S1x2.BroadcastsInDim S3200000x2 (![0, 1] : Fin 2 → Fin S3200000x2.rank)
  reducesTo_S3200000x2_S3200000_d1 : S3200000x2.ReducesTo [1] S3200000
  h_S_ : 0 < S_.numel
  bcast_S3200000x1_S3200000x2_0_1 : S3200000x1.BroadcastsInDim S3200000x2 (![0, 1] : Fin 2 → Fin S3200000x2.rank)
  dot_S100000x128_S128x16_S100000x16_1_0_0_1_n_n_wf : DotDims.WF S100000x128 S128x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x16_S100000x16_1_0_0_1_n_n_wf : DotDims.WF S100000x16 S16x16 S100000x16 [1] [0] [0] [1] [] []
  dot_S3200000x32_S32x16_S3200000x16_1_0_0_1_n_n_wf : DotDims.WF S3200000x32 S32x16 S3200000x16 [1] [0] [0] [1] [] []
  dot_S3200000x16_S16x2_S3200000x2_1_0_0_1_n_n_wf : DotDims.WF S3200000x16 S16x2 S3200000x2 [1] [0] [0] [1] [] []

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S3200000x32_S32x16_S3200000x16_1_0_0_1_n_n : DotDims S3200000x32 S32x16 S3200000x16 where
  lhsContracting := [1]
  rhsContracting := [0]
  lhsNonContracting := [0]
  rhsNonContracting := [1]
  lhsBatch := []
  rhsBatch := []
  wf := dot_S3200000x32_S32x16_S3200000x16_1_0_0_1_n_n_wf
def dot_S3200000x16_S16x2_S3200000x2_1_0_0_1_n_n : DotDims S3200000x16 S16x2 S3200000x2 where
  lhsContracting := [1]
  rhsContracting := [0]
  lhsNonContracting := [0]
  rhsNonContracting := [1]
  lhsBatch := []
  rhsBatch := []
  wf := dot_S3200000x16_S16x2_S3200000x2_1_0_0_1_n_n_wf

class Facts : Prop extends Facts₀ where

variable [Facts]
-- ==== Proof.KernelRun.lean ====
/-
  The idealized kernel's run with its result named.

  Every weakly fair execution of @main terminates without a fault; at the end the result buffer holds what the last
  segment boundary's contents `Gen.W9` have there — the fold through @main's four stretches of host operations and five
  kernel regions, each region's arrays at what its write-backs leave — and the argument arrays are as launched.
-/
import proofs.«145413_j67551245631648_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main over its nine segments, the last thread state read against the final state at the result buffer
    and at each argument. -/
theorem run_result : θ_run defs (onTc (τ := τ) (main (F := F))) ⟨m, fun _ => 0, ρ⟩ (fun r => ∀ c : Dev nD,
      r.2.mem ((c.tc : Thread nD τ).loc main_v76) = W9 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v76 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Hand

end
-- ==== Proof.Spec.lean ====
/-
  The three computations the kernels perform on row blocks, stated once for an array of any number of rows.

  * `mm A B`: the matrix product, entry (p, q) = Σ_k A(p, k) · B(k, q).
  * `comb agg h d b`: one graph-convolution combine, entry (p, q) = max((agg(p, q) + h(p, q) · d(p, 0)) + b(0, q), 0):
    the aggregated neighbours, the node's own row scaled by its normalisation, the bias, then the rectifier.
  * `mlp ef w1 b1 w2 b2`: per edge, a hidden layer max(ef · w1 + b1, 0), the logits hidden · w2 + b2, and the
    logarithm of their softmax along the row: (x - M) - log Σ_k exp(x_k - M), M the row's largest entry (taken from -∞).

  Every entry of each result depends only on the same row of the row-indexed operands: the `_rows` lemmas say so, and
  they are what lets a block of rows computed alone be a block of the whole result.
-/
import Idealize.ShloMosaic.Lib.ValueIdx
import Idealize.ShloMosaic.PureOps.Ideal

noncomputable section

namespace Cert.Spec

open Idealize.ShloMosaic Idealize.ShloMosaic.ValueIdx

/-- The extended real that the word of -∞ denotes. -/
abbrev negInf : EReal := Ideal.ofBits .f32 0xFF800000#32

/-- Matrix product: entry (p, q) is the sum over the shared axis. -/
def mm {a b c : ℕ} (A : (⟨2, ![a, b]⟩ : Shape).Idx → EReal) (B : (⟨2, ![b, c]⟩ : Shape).Idx → EReal) :
    (⟨2, ![a, c]⟩ : Shape).Idx → EReal :=
  fun j => ∑ k : Fin b, A (ix2 (j 0) k) * B (ix2 k (j 1))

/-- The combine of a graph convolution followed by the rectifier. -/
def comb {a b : ℕ} (agg h : (⟨2, ![a, b]⟩ : Shape).Idx → EReal) (d : (⟨2, ![a, 1]⟩ : Shape).Idx → EReal)
    (bias : (⟨2, ![1, b]⟩ : Shape).Idx → EReal) : (⟨2, ![a, b]⟩ : Shape).Idx → EReal :=
  fun j => max ((agg j + h j * d (ix2 (j 0) (0 : Fin 1))) + bias (ix2 (0 : Fin 1) (j 1))) 0

/-- A row's largest entry, folded from -∞. -/
def rowMax {a b : ℕ} (x : (⟨2, ![a, b]⟩ : Shape).Idx → EReal) (p : Fin a) : EReal :=
  (Finset.univ : Finset (Fin b)).fold max negInf (fun k => x (ix2 p k))

/-- The logarithm of the softmax along each row. -/
def logSoftmax {a b : ℕ} (x : (⟨2, ![a, b]⟩ : Shape).Idx → EReal) : (⟨2, ![a, b]⟩ : Shape).Idx → EReal :=
  fun j => (x j - max negInf (rowMax x (j 0)))
    - Ideal.log (∑ k : Fin b, Ideal.exp (x (ix2 (j 0) k) - max negInf (rowMax x (j 0))))

/-- A dense layer with bias and rectifier. -/
def hidden {a b c : ℕ} (x : (⟨2, ![a, b]⟩ : Shape).Idx → EReal) (w : (⟨2, ![b, c]⟩ : Shape).Idx → EReal)
    (bias : (⟨2, ![1, c]⟩ : Shape).Idx → EReal) : (⟨2, ![a, c]⟩ : Shape).Idx → EReal :=
  fun j => max (mm x w j + bias (ix2 (0 : Fin 1) (j 1))) 0

/-- A dense layer with bias. -/
def affine {a b c : ℕ} (x : (⟨2, ![a, b]⟩ : Shape).Idx → EReal) (w : (⟨2, ![b, c]⟩ : Shape).Idx → EReal)
    (bias : (⟨2, ![1, c]⟩ : Shape).Idx → EReal) : (⟨2, ![a, c]⟩ : Shape).Idx → EReal :=
  fun j => mm x w j + bias (ix2 (0 : Fin 1) (j 1))

/-- The edge classifier: hidden layer, logits, log-softmax. -/
def mlp {a b c d : ℕ} (ef : (⟨2, ![a, b]⟩ : Shape).Idx → EReal) (w1 : (⟨2, ![b, c]⟩ : Shape).Idx → EReal)
    (b1 : (⟨2, ![1, c]⟩ : Shape).Idx → EReal) (w2 : (⟨2, ![c, d]⟩ : Shape).Idx → EReal)
    (b2 : (⟨2, ![1, d]⟩ : Shape).Idx → EReal) : (⟨2, ![a, d]⟩ : Shape).Idx → EReal :=
  logSoftmax (affine (hidden ef w1 b1) w2 b2)

/-! ## Each row of a result depends on the same row of the operands -/

theorem mm_rows {a a' b c : ℕ} (A : (⟨2, ![a, b]⟩ : Shape).Idx → EReal) (A' : (⟨2, ![a', b]⟩ : Shape).Idx → EReal)
    (B : (⟨2, ![b, c]⟩ : Shape).Idx → EReal) (p : Fin a) (p' : Fin a') (q : Fin c)
    (h : ∀ k, A (ix2 p k) = A' (ix2 p' k)) : mm A B (ix2 p q) = mm A' B (ix2 p' q) := by
  unfold mm
  exact Finset.sum_congr rfl fun k _ => by rw [show (ix2 p q) 0 = p from rfl, show (ix2 p' q) 0 = p' from rfl, h k]; rfl

theorem comb_rows {a a' b : ℕ} (agg h : (⟨2, ![a, b]⟩ : Shape).Idx → EReal) (d : (⟨2, ![a, 1]⟩ : Shape).Idx → EReal)
    (agg' h' : (⟨2, ![a', b]⟩ : Shape).Idx → EReal) (d' : (⟨2, ![a', 1]⟩ : Shape).Idx → EReal)
    (bias : (⟨2, ![1, b]⟩ : Shape).Idx → EReal) (p : Fin a) (p' : Fin a') (q : Fin b)
    (e1 : agg (ix2 p q) = agg' (ix2 p' q)) (e2 : h (ix2 p q) = h' (ix2 p' q))
    (e3 : d (ix2 p (0 : Fin 1)) = d' (ix2 p' (0 : Fin 1))) :
    comb agg h d bias (ix2 p q) = comb agg' h' d' bias (ix2 p' q) := by
  unfold comb
  rw [show (ix2 p q) 0 = p from rfl, show (ix2 p' q) 0 = p' from rfl, e1, e2, e3]
  rfl

theorem hidden_rows {a a' b c : ℕ} (x : (⟨2, ![a, b]⟩ : Shape).Idx → EReal) (x' : (⟨2, ![a', b]⟩ : Shape).Idx → EReal)
    (w : (⟨2, ![b, c]⟩ : Shape).Idx → EReal) (bias : (⟨2, ![1, c]⟩ : Shape).Idx → EReal) (p : Fin a) (p' : Fin a') (q : Fin c)
    (h : ∀ k, x (ix2 p k) = x' (ix2 p' k)) : hidden x w bias (ix2 p q) = hidden x' w bias (ix2 p' q) := by
  unfold hidden
  rw [mm_rows x x' w p p' q h]
  rfl

theorem affine_rows {a a' b c : ℕ} (x : (⟨2, ![a, b]⟩ : Shape).Idx → EReal) (x' : (⟨2, ![a', b]⟩ : Shape).Idx → EReal)
    (w : (⟨2, ![b, c]⟩ : Shape).Idx → EReal) (bias : (⟨2, ![1, c]⟩ : Shape).Idx → EReal) (p : Fin a) (p' : Fin a') (q : Fin c)
    (h : ∀ k, x (ix2 p k) = x' (ix2 p' k)) : affine x w bias (ix2 p q) = affine x' w bias (ix2 p' q) := by
  unfold affine
  rw [mm_rows x x' w p p' q h]
  rfl

theorem logSoftmax_rows {a a' b : ℕ} (x : (⟨2, ![a, b]⟩ : Shape).Idx → EReal) (x' : (⟨2, ![a', b]⟩ : Shape).Idx → EReal)
    (p : Fin a) (p' : Fin a') (q : Fin b) (h : ∀ k, x (ix2 p k) = x' (ix2 p' k)) :
    logSoftmax x (ix2 p q) = logSoftmax x' (ix2 p' q) := by
  have hm : rowMax x p = rowMax x' p' := by
    unfold rowMax
    exact congrArg (fun f => Finset.fold max negInf f (Finset.univ : Finset (Fin b))) (funext h)
  unfold logSoftmax
  rw [show (ix2 p q) 0 = p from rfl, show (ix2 p' q) 0 = p' from rfl, hm, h q]
  exact congrArg (fun s => x' (ix2 p' q) - max negInf (rowMax x' p') - Ideal.log s)
    (Finset.sum_congr rfl fun k _ => by rw [h k])

theorem mlp_rows {a a' b c d : ℕ} (ef : (⟨2, ![a, b]⟩ : Shape).Idx → EReal) (ef' : (⟨2, ![a', b]⟩ : Shape).Idx → EReal)
    (w1 : (⟨2, ![b, c]⟩ : Shape).Idx → EReal) (b1 : (⟨2, ![1, c]⟩ : Shape).Idx → EReal)
    (w2 : (⟨2, ![c, d]⟩ : Shape).Idx → EReal) (b2 : (⟨2, ![1, d]⟩ : Shape).Idx → EReal)
    (p : Fin a) (p' : Fin a') (q : Fin d) (h : ∀ k, ef (ix2 p k) = ef' (ix2 p' k)) :
    mlp ef w1 b1 w2 b2 (ix2 p q) = mlp ef' w1 b1 w2 b2 (ix2 p' q) := by
  unfold mlp
  exact logSoftmax_rows _ _ p p' q fun k =>
    affine_rows _ _ w2 b2 p p' k fun k' => hidden_rows ef ef' w1 b1 p p' k' h

end Cert.Spec

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«145413_j67551245631648_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.KernelPay.lean ====
/-
  What each kernel body leaves in its output block, as the specification's function of its input blocks, at the
  ideal values (floats are extended reals; narrowing to bf16 and widening back change nothing).

  * the two matrix-product bodies leave the product `mm` of their two blocks;
  * the two combine bodies leave `comb`: neighbours' sum plus the scaled own row plus the bias, then the rectifier;
  * the edge classifier body leaves `mlp`: hidden layer, logits, and the logarithm of the softmax along each row.

  Each equality is of whole blocks: at an index `(p, q)` every operation is read at that index.
-/
import proofs.«145413_j67551245631648_2_alg».proof.Proof.Gen.KernelIdeal.Frame
import proofs.«145413_j67551245631648_2_alg».proof.Proof.Spec
import proofs.«145413_j67551245631648_2_alg».proof.Proof.LibRowOps
import proofs.«145413_j67551245631648_2_alg».proof.Proof.LibColumn
import proofs.«145413_j67551245631648_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Pay

open Idealize.ShloMosaic Idealize.ShloMosaic.ValueIdx
open Cert.KernelIdeal

/-- The offset of a load or store of a whole block is zero on both axes. -/
theorem hz : (![0, 0] : Fin 2 → Nat) = fun _ => 0 := funext fun a => by fin_cases a <;> rfl

/-! ## The matrix-product bodies -/

/-- The first product body leaves the product of its two blocks. -/
theorem out0_2_eq (x0 : Vec Ideal S10000x128 .f32) (x1 : Vec Ideal S128x16 .f32) :
    Gen.out0_2 (F := Ideal) x0 x1 = Cert.Spec.mm x0 x1 := by
  unfold Gen.out0_2
  rw [View.canon_unit_zero hz]
  simp only [View.ld_unit_zero (S := S10000x128) hz, View.ld_unit_zero (S := S128x16) hz]
  unfold Gen.k0_pay1
  funext j
  obtain ⟨p, q, rfl⟩ : ∃ (p : Fin 10000) (q : Fin 16), j = ix2 p q := ⟨j 0, j 1, eq_ix2 j⟩
  exact Cert.LibMatmulRows.matmul_rows_apply dot_S10000x128_S128x16_S10000x16_1_0_0_1_n_n rfl rfl rfl rfl rfl rfl _ _ p q

/-- The second product body leaves the product of its two blocks. -/
theorem out2_2_eq (x0 : Vec Ideal S10000x16 .f32) (x1 : Vec Ideal S16x16 .f32) :
    Gen.out2_2 (F := Ideal) x0 x1 = Cert.Spec.mm x0 x1 := by
  unfold Gen.out2_2
  rw [View.canon_unit_zero hz]
  simp only [View.ld_unit_zero (S := S10000x16) hz, View.ld_unit_zero (S := S16x16) hz]
  unfold Gen.k2_pay1
  funext j
  obtain ⟨p, q, rfl⟩ : ∃ (p : Fin 10000) (q : Fin 16), j = ix2 p q := ⟨j 0, j 1, eq_ix2 j⟩
  simp only [shapeCast_self]
  exact Cert.LibMatmulRows.matmul_rows_apply dot_S10000x16_S16x16_S10000x16_1_0_0_1_n_n rfl rfl rfl rfl rfl rfl _ _ p q

/-! ## The combine bodies -/

/-- The first combine body leaves the combine of its four blocks. -/
theorem out1_4_eq (x0 x1 : Vec Ideal S10000x16 .f32) (x2 : Vec Ideal S10000x1 .f32) (x3 : Vec Ideal S1x16 .f32) :
    Gen.out1_4 (F := Ideal) x0 x1 x2 x3 = Cert.Spec.comb x0 x1 x2 x3 := by
  unfold Gen.out1_4
  rw [View.canon_unit_zero hz]
  simp only [View.ld_unit_zero (S := S10000x16) hz, View.ld_unit_zero (S := S10000x1) hz, View.ld_unit_zero (S := S1x16) hz]
  unfold Gen.k1_pay1
  funext j
  obtain ⟨p, q, rfl⟩ : ∃ (p : Fin 10000) (q : Fin 16), j = ix2 p q := ⟨j 0, j 1, eq_ix2 j⟩
  simp only [shapeCast_self]
  rw [maximumf_apply, addf_apply, addf_apply, mulf_apply, broadcast_apply,
    Cert.LibColumn.broadcastTo_a1_ab_apply, broadcastTo_1b_ab_apply]
  show max (x0 (ix2 p q) + x1 (ix2 p q) * x2 (ix2 p (0 : Fin 1)) + x3 (ix2 (0 : Fin 1) q)) (Ideal.ofBits .f32 0x00000000#32) = _
  rw [Ideal.ofBits_zero_f32]
  rfl

/-- The second combine body leaves the combine of its four blocks. -/
theorem out3_4_eq (x0 x1 : Vec Ideal S10000x16 .f32) (x2 : Vec Ideal S10000x1 .f32) (x3 : Vec Ideal S1x16 .f32) :
    Gen.out3_4 (F := Ideal) x0 x1 x2 x3 = Cert.Spec.comb x0 x1 x2 x3 := by
  unfold Gen.out3_4
  rw [View.canon_unit_zero hz]
  simp only [View.ld_unit_zero (S := S10000x16) hz, View.ld_unit_zero (S := S10000x1) hz, View.ld_unit_zero (S := S1x16) hz]
  unfold Gen.k3_pay1
  funext j
  obtain ⟨p, q, rfl⟩ : ∃ (p : Fin 10000) (q : Fin 16), j = ix2 p q := ⟨j 0, j 1, eq_ix2 j⟩
  simp only [shapeCast_self]
  rw [maximumf_apply, addf_apply, addf_apply, mulf_apply, broadcast_apply,
    Cert.LibColumn.broadcastTo_a1_ab_apply, broadcastTo_1b_ab_apply]
  show max (x0 (ix2 p q) + x1 (ix2 p q) * x2 (ix2 p (0 : Fin 1)) + x3 (ix2 (0 : Fin 1) q)) (Ideal.ofBits .f32 0x00000000#32) = _
  rw [Ideal.ofBits_zero_f32]
  rfl

/-! ## The edge classifier body -/

section Layers

variable {a b c : ℕ}

/-- A dense layer with bias as a kernel computes it: the product of the narrowed operands into zero, plus the bias row
    repeated down the rows. -/
theorem affine_eq (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (hbits : FTy.bf16.bits < FTy.f32.bits) (hb : (⟨2, ![1, c]⟩ : Shape).Broadcasts ⟨2, ![a, c]⟩)
    (x : FVec Ideal ⟨2, ![a, b]⟩ .f32) (w : FVec Ideal ⟨2, ![b, c]⟩ .f32) (bias : FVec Ideal ⟨2, ![1, c]⟩ .f32) :
    addf (matmul d none (truncf .bf16 x hbits) (truncf .bf16 w hbits) (constant (F := Ideal) ⟨2, ![a, c]⟩ .f32 0x00000000#32))
        (broadcastTo ⟨2, ![a, c]⟩ bias hb)
      = Cert.Spec.affine x w bias := by
  funext j
  obtain ⟨p, q, rfl⟩ : ∃ (p : Fin a) (q : Fin c), j = ix2 p q := ⟨j 0, j 1, eq_ix2 j⟩
  rw [addf_apply, broadcastTo_1b_ab_apply]
  show FloatOps.matmul d none (truncf .bf16 x hbits) (truncf .bf16 w hbits) (constant (F := Ideal) ⟨2, ![a, c]⟩ .f32 0x00000000#32) (ix2 p q)
      + bias (ix2 (0 : Fin 1) q) = _
  rw [Cert.LibMatmulRows.matmul_rows_apply d hlc hrc hln hrn hlb hrb _ _ p q]
  rfl

/-- The same layer followed by the rectifier. -/
theorem hidden_eq (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (hbits : FTy.bf16.bits < FTy.f32.bits) (hb : (⟨2, ![1, c]⟩ : Shape).Broadcasts ⟨2, ![a, c]⟩)
    (x : FVec Ideal ⟨2, ![a, b]⟩ .f32) (w : FVec Ideal ⟨2, ![b, c]⟩ .f32) (bias : FVec Ideal ⟨2, ![1, c]⟩ .f32) :
    maximumf (addf (matmul d none (truncf .bf16 x hbits) (truncf .bf16 w hbits) (constant (F := Ideal) ⟨2, ![a, c]⟩ .f32 0x00000000#32))
        (broadcastTo ⟨2, ![a, c]⟩ bias hb)) (broadcast ⟨2, ![a, c]⟩ (Scalar.ofBits (F := Ideal) .f32 0x00000000#32))
      = Cert.Spec.hidden x w bias := by
  rw [affine_eq d hlc hrc hln hrn hlb hrb hbits hb x w bias]
  funext j
  rw [maximumf_apply, broadcast_apply]
  show max (Cert.Spec.affine x w bias j) (Ideal.ofBits .f32 0x00000000#32) = _
  rw [Ideal.ofBits_zero_f32]
  rfl

/-- The logarithm of the softmax along each row as a kernel computes it: the row's largest entry (a lane maximum from
    -∞, then the maximum with -∞) taken off every entry, and the logarithm of the row's sum of exponentials taken off
    that. -/
theorem logSoftmax_eq (hr : (⟨2, ![a, b]⟩ : Shape).Reduces [1] ⟨1, ![a]⟩)
    (hsc : (⟨1, ![a]⟩ : Shape).ShapeCasts ⟨2, ![a, 1]⟩) (hb : (⟨2, ![a, 1]⟩ : Shape).Broadcasts ⟨2, ![a, b]⟩)
    (x : FVec Ideal ⟨2, ![a, b]⟩ .f32) :
    subf
        (subf x (broadcastTo ⟨2, ![a, b]⟩ (shapeCast ⟨2, ![a, 1]⟩
          (maximumf (broadcast ⟨1, ![a]⟩ (Scalar.ofBits (F := Ideal) .f32 0xFF800000#32))
            (multiReduction (F := Ideal) .maximumf [1] ⟨1, ![a]⟩ x 0xFF800000#32 hr (.inl rfl) rfl)) hsc) hb))
        (broadcastTo ⟨2, ![a, b]⟩ (log (shapeCast ⟨2, ![a, 1]⟩
          (multiReduction (F := Ideal) .add [1] ⟨1, ![a]⟩
            (exp (subf x (broadcastTo ⟨2, ![a, b]⟩ (shapeCast ⟨2, ![a, 1]⟩
              (maximumf (broadcast ⟨1, ![a]⟩ (Scalar.ofBits (F := Ideal) .f32 0xFF800000#32))
                (multiReduction (F := Ideal) .maximumf [1] ⟨1, ![a]⟩ x 0xFF800000#32 hr (.inl rfl) rfl)) hsc) hb)))
            0x00000000#32 hr (.inl rfl) rfl) hsc)) hb)
      = Cert.Spec.logSoftmax x := by
  -- the row's largest entry
  have hM : ∀ p : Fin a, maximumf (broadcast ⟨1, ![a]⟩ (Scalar.ofBits (F := Ideal) .f32 0xFF800000#32))
      (multiReduction (F := Ideal) .maximumf [1] ⟨1, ![a]⟩ x 0xFF800000#32 hr (.inl rfl) rfl) (ix1 p)
        = max Cert.Spec.negInf (Cert.Spec.rowMax x p) := by
    intro p
    rw [maximumf_apply, broadcast_apply]
    have hf : (x ∘ hr.lift (ix1 p)) = fun k : Fin b => x (ix2 p k) :=
      funext fun k => congrArg x (Cert.LibRowOps.lift_row hr p k)
    exact congrArg (max Cert.Spec.negInf)
      ((Ideal.multiReduction_maximumf_single x 0xFF800000#32 hr (.inl rfl) rfl (ix1 p)).trans
        (congrArg (fun f => Finset.fold max Cert.Spec.negInf f (Finset.univ : Finset (Fin b))) hf))
  -- every entry less its row's largest
  have hS : subf x (broadcastTo ⟨2, ![a, b]⟩ (shapeCast ⟨2, ![a, 1]⟩
        (maximumf (broadcast ⟨1, ![a]⟩ (Scalar.ofBits (F := Ideal) .f32 0xFF800000#32))
          (multiReduction (F := Ideal) .maximumf [1] ⟨1, ![a]⟩ x 0xFF800000#32 hr (.inl rfl) rfl)) hsc) hb)
      = fun j => x j - max Cert.Spec.negInf (Cert.Spec.rowMax x (j 0)) := by
    funext j
    obtain ⟨p, q, rfl⟩ : ∃ (p : Fin a) (q : Fin b), j = ix2 p q := ⟨j 0, j 1, eq_ix2 j⟩
    rw [subf_apply, Cert.LibColumn.broadcastTo_a1_ab_apply, Cert.LibColumn.shapeCast_a_a1_apply, hM]
    rfl
  rw [hS]
  funext j
  obtain ⟨p, q, rfl⟩ : ∃ (p : Fin a) (q : Fin b), j = ix2 p q := ⟨j 0, j 1, eq_ix2 j⟩
  rw [subf_apply, Cert.LibColumn.broadcastTo_a1_ab_apply]
  show _ - Ideal.log (shapeCast ⟨2, ![a, 1]⟩ (multiReduction (F := Ideal) .add [1] ⟨1, ![a]⟩
      (exp fun j => x j - max Cert.Spec.negInf (Cert.Spec.rowMax x (j 0))) 0x00000000#32 hr (.inl rfl) rfl) hsc (ix2 p (0 : Fin 1))) = _
  rw [Cert.LibColumn.shapeCast_a_a1_apply]
  exact congrArg (fun s => x (ix2 p q) - max Cert.Spec.negInf (Cert.Spec.rowMax x p) - Ideal.log s)
    (Cert.LibRowOps.multiReduction_row_apply (exp fun j => x j - max Cert.Spec.negInf (Cert.Spec.rowMax x (j 0)))
      0x00000000#32 hr (.inl rfl) rfl p)

end Layers

/-- The edge classifier body leaves the logarithm of the softmax of the two-layer perceptron of its blocks. -/
theorem out4_5_eq (x0 : Vec Ideal S8000x32 .f32) (x1 : Vec Ideal S32x16 .f32) (x2 : Vec Ideal S1x16 .f32)
    (x3 : Vec Ideal S16x2 .f32) (x4 : Vec Ideal S1x2 .f32) :
    Gen.out4_5 (F := Ideal) x0 x1 x2 x3 x4 = Cert.Spec.mlp x0 x1 x2 x3 x4 := by
  unfold Gen.out4_5
  rw [View.canon_unit_zero hz]
  simp only [View.ld_unit_zero (S := S8000x32) hz, View.ld_unit_zero (S := S32x16) hz, View.ld_unit_zero (S := S1x16) hz,
    View.ld_unit_zero (S := S16x2) hz, View.ld_unit_zero (S := S1x2) hz]
  unfold Gen.k4_pay1
  simp only [shapeCast_self]
  rw [hidden_eq dot_S8000x32_S32x16_S8000x16_1_0_0_1_n_n rfl rfl rfl rfl rfl rfl]
  rw [affine_eq dot_S8000x16_S16x2_S8000x2_1_0_0_1_n_n rfl rfl rfl rfl rfl rfl]
  exact logSoftmax_eq _ _ _ _

end Cert.KernelIdeal.Pay

end
-- ==== Proof.Regions.lean ====
/-
  Each kernel region's result array as one function of the arrays the region is entered with.

  A region's grid point `t` works on rows `tm·t … tm·t + tm - 1` of the row-blocked operands and on the whole of the small
  ones; what it writes back is therefore the same rows of the specification's function of the whole arrays, because every
  row of that function depends only on the same row of the row-blocked operands. The blocks of all points tile the
  result array, so the array ends holding that function everywhere.
-/
import proofs.«145413_j67551245631648_2_alg».proof.Proof.Gen.KernelIdeal.Frame
import proofs.«145413_j67551245631648_2_alg».proof.Proof.Spec
import proofs.«145413_j67551245631648_2_alg».proof.Proof.KernelPay
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## Region 0: a matrix product on blocks of 10000 rows -/

/-- The index maps of region 0's windows, decided over its grid: a row-blocked window's block index is the grid
    point, a whole-array window's is zero. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ t.val < 10 :=
  (by decide +kernel : ∀ t : Fin grid0.N, _)

/-- Window 0's block at point `t` is rows `10000·t …` of its array. -/
theorem iblk0_0_apply (c : Dev nD) (t : Fin cfg0.N) (x : S10000x128.Idx) (i : S100000x128.Idx)
    (h0 : (i 0).val = t.val * 10000 + (x 0).val) (h1 : (i 1).val = (x 1).val) :
    (iblk0 V c 0 t : Vec Ideal S10000x128 .f32) x = (V c main_arg0 : S100000x128.Idx → Elt Ideal .f32) i := by
  obtain ⟨e0a, e0b, e1a, e1b, e2a, e2b, ht⟩ := idx0 t
  unfold iblk0
  rw [View.read_apply]
  show V c main_arg0 _ = V c main_arg0 _
  congr 1
  funext a
  apply Fin.ext
  match a with
  | ⟨0, _⟩ => show win0_0.index t 0 * 10000 + 1 * (x 0).val = (i 0).val; omega
  | ⟨1, _⟩ => show win0_0.index t 1 * 128 + 1 * (x 1).val = (i 1).val; omega

/-- Window 1's block at every point is its whole array. -/
theorem iblk0_1_eq (c : Dev nD) (t : Fin cfg0.N) :
    (iblk0 V c 1 t : Vec Ideal S128x16 .f32) = (V c main_arg2 : S128x16.Idx → Elt Ideal .f32) := by
  obtain ⟨e0a, e0b, e1a, e1b, e2a, e2b, ht⟩ := idx0 t
  funext x
  unfold iblk0
  rw [View.read_apply]
  show V c main_arg2 _ = V c main_arg2 _
  congr 1
  funext a
  apply Fin.ext
  match a with
  | ⟨0, _⟩ => show win0_1.index t 0 * 128 + 1 * (x 0).val = (x 0).val; omega
  | ⟨1, _⟩ => show win0_1.index t 1 * 16 + 1 * (x 1).val = (x 1).val; omega

/-- What point `t` writes back is block `t` of the specification's function of the arrays as the region finds them:
    each row of the result depends only on the same row of the row-blocked operands. -/
theorem flushed0 (c : Dev nD) (t : Fin cfg0.N) (hf : (cfg0.win 2).flush t = true) :
    (dat0 V c).flushed 2 t = ((cfg0.win 2).blk t).view.read (Elt Ideal)
      (Cert.Spec.mm (V c main_arg0 : S100000x128.Idx → Elt Ideal .f32) (V c main_arg2 : S128x16.Idx → Elt Ideal .f32)) := by
  show (cfg0.win 2).cut (grid0.coords t) ((dat0 V c).after 2 t) = _
  rw [after0_2]
  refine (Cert.KernelIdeal.Pay.out0_2_eq (iblk0 V c 0 t) (iblk0 V c 1 t)).trans ?_
  rw [iblk0_1_eq V c t]
  obtain ⟨e0a, e0b, e1a, e1b, e2a, e2b, ht⟩ := idx0 t
  funext j
  obtain ⟨p, q, rfl⟩ : ∃ (p : Fin 10000) (q : Fin 16), j = ix2 p q := ⟨j 0, j 1, eq_ix2 j⟩
  have hp := p.isLt
  rw [View.read_apply]
  have he : ((cfg0.win 2).blk t).view.emb (ix2 p q) = ix2 (⟨t.val * 10000 + p.val, by omega⟩ : Fin 100000) q := by
    funext a
    apply Fin.ext
    match a with
    | ⟨0, _⟩ => show win0_2.index t 0 * 10000 + 1 * p.val = t.val * 10000 + p.val; omega
    | ⟨1, _⟩ => show win0_2.index t 1 * 16 + 1 * q.val = q.val; omega
  rw [he]
  exact Cert.Spec.mm_rows _ _ _ p _ q fun k => iblk0_0_apply V c t (ix2 p k) (ix2 _ k) rfl rfl

/-- Every row of the result array lies in the block of the point `row / 10000`. -/
theorem cover0 (i : S100000x16.Idx) : ∃ t : Fin cfg0.N, (cfg0.win 2).flush t = true ∧ i ∈ ((cfg0.win 2).blk t).view.set := by
  have hi : (i 0).val < 100000 := (i 0).isLt
  have hq : (i 1).val < 16 := (i 1).isLt
  have hN : cfg0.N = 10 := N_0
  let t : Fin cfg0.N := ⟨(i 0).val / 10000, by rw [hN]; omega⟩
  obtain ⟨e0a, e0b, e1a, e1b, e2a, e2b, ht⟩ := idx0 t
  have htv : t.val = (i 0).val / 10000 := rfl
  refine ⟨t, flush0_2 t, ?_⟩
  show i ∈ ((View.whole main_v29).slice (win0_2.rect t)).set
  rw [View.set_slice_whole, Rect.mem_set_unit]
  intro a
  match a with
  | ⟨0, _⟩ => show win0_2.index t 0 * 10000 ≤ (i 0).val ∧ (i 0).val < win0_2.index t 0 * 10000 + 10000; omega
  | ⟨1, _⟩ => show win0_2.index t 1 * 16 ≤ (i 1).val ∧ (i 1).val < win0_2.index t 1 * 16 + 16; omega

/-- So region 0's result array ends holding the specification's function of the arrays it was entered with. -/
theorem final0 (c : Dev nD) : (dat0 V c).arrAt 2 cfg0.N
    = (Cert.Spec.mm (V c main_arg0 : S100000x128.Idx → Elt Ideal .f32) (V c main_arg2 : S128x16.Idx → Elt Ideal .f32)) :=
  (dat0 V c).arrAt_eq_of_cover 2 _ (flushed0 V c) (cover0)

/-! ## Region 1: a combine on blocks of 10000 rows -/

/-- The index maps of region 1's windows, decided over its grid: a row-blocked window's block index is the grid
    point, a whole-array window's is zero. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0
    ∧ t.val < 10 :=
  (by decide +kernel : ∀ t : Fin grid1.N, _)

/-- Window 0's block at point `t` is rows `10000·t …` of its array. -/
theorem iblk1_0_apply (c : Dev nD) (t : Fin cfg1.N) (x : S10000x16.Idx) (i : S100000x16.Idx)
    (h0 : (i 0).val = t.val * 10000 + (x 0).val) (h1 : (i 1).val = (x 1).val) :
    (iblk1 V c 0 t : Vec Ideal S10000x16 .f32) x = (V c main_v41 : S100000x16.Idx → Elt Ideal .f32) i := by
  obtain ⟨e0a, e0b, e1a, e1b, e2a, e2b, e3a, e3b, e4a, e4b, ht⟩ := idx1 t
  unfold iblk1
  rw [View.read_apply]
  show V c main_v41 _ = V c main_v41 _
  congr 1
  funext a
  apply Fin.ext
  match a with
  | ⟨0, _⟩ => show win1_0.index t 0 * 10000 + 1 * (x 0).val = (i 0).val; omega
  | ⟨1, _⟩ => show win1_0.index t 1 * 16 + 1 * (x 1).val = (i 1).val; omega

/-- Window 1's block at point `t` is rows `10000·t …` of its array. -/
theorem iblk1_1_apply (c : Dev nD) (t : Fin cfg1.N) (x : S10000x16.Idx) (i : S100000x16.Idx)
    (h0 : (i 0).val = t.val * 10000 + (x 0).val) (h1 : (i 1).val = (x 1).val) :
    (iblk1 V c 1 t : Vec Ideal S10000x16 .f32) x = (V c main_v29 : S100000x16.Idx → Elt Ideal .f32) i := by
  obtain ⟨e0a, e0b, e1a, e1b, e2a, e2b, e3a, e3b, e4a, e4b, ht⟩ := idx1 t
  unfold iblk1
  rw [View.read_apply]
  show V c main_v29 _ = V c main_v29 _
  congr 1
  funext a
  apply Fin.ext
  match a with
  | ⟨0, _⟩ => show win1_1.index t 0 * 10000 + 1 * (x 0).val = (i 0).val; omega
  | ⟨1, _⟩ => show win1_1.index t 1 * 16 + 1 * (x 1).val = (i 1).val; omega

/-- Window 2's block at point `t` is rows `10000·t …` of its array. -/
theorem iblk1_2_apply (c : Dev nD) (t : Fin cfg1.N) (x : S10000x1.Idx) (i : S100000x1.Idx)
    (h0 : (i 0).val = t.val * 10000 + (x 0).val) (h1 : (i 1).val = (x 1).val) :
    (iblk1 V c 2 t : Vec Ideal S10000x1 .f32) x = (V c main_v12 : S100000x1.Idx → Elt Ideal .f32) i := by
  obtain ⟨e0a, e0b, e1a, e1b, e2a, e2b, e3a, e3b, e4a, e4b, ht⟩ := idx1 t
  unfold iblk1
  rw [View.read_apply]
  show V c main_v12 _ = V c main_v12 _
  congr 1
  funext a
  apply Fin.ext
  match a with
  | ⟨0, _⟩ => show win1_2.index t 0 * 10000 + 1 * (x 0).val = (i 0).val; omega
  | ⟨1, _⟩ => show win1_2.index t 1 * 1 + 1 * (x 1).val = (i 1).val; omega

/-- Window 3's block at every point is its whole array. -/
theorem iblk1_3_eq (c : Dev nD) (t : Fin cfg1.N) :
    (iblk1 V c 3 t : Vec Ideal S1x16 .f32) = (V c main_v42 : S1x16.Idx → Elt Ideal .f32) := by
  obtain ⟨e0a, e0b, e1a, e1b, e2a, e2b, e3a, e3b, e4a, e4b, ht⟩ := idx1 t
  funext x
  unfold iblk1
  rw [View.read_apply]
  show V c main_v42 _ = V c main_v42 _
  congr 1
  funext a
  apply Fin.ext
  match a with
  | ⟨0, _⟩ => show win1_3.index t 0 * 1 + 1 * (x 0).val = (x 0).val; omega
  | ⟨1, _⟩ => show win1_3.index t 1 * 16 + 1 * (x 1).val = (x 1).val; omega

/-- What point `t` writes back is block `t` of the specification's function of the arrays as the region finds them:
    each row of the result depends only on the same row of the row-blocked operands. -/
theorem flushed1 (c : Dev nD) (t : Fin cfg1.N) (hf : (cfg1.win 4).flush t = true) :
    (dat1 V c).flushed 4 t = ((cfg1.win 4).blk t).view.read (Elt Ideal)
      (Cert.Spec.comb (V c main_v41 : S100000x16.Idx → Elt Ideal .f32) (V c main_v29 : S100000x16.Idx → Elt Ideal .f32) (V c main_v12 : S100000x1.Idx → Elt Ideal .f32) (V c main_v42 : S1x16.Idx → Elt Ideal .f32)) := by
  show (cfg1.win 4).cut (grid1.coords t) ((dat1 V c).after 4 t) = _
  rw [after1_4]
  refine (Cert.KernelIdeal.Pay.out1_4_eq (iblk1 V c 0 t) (iblk1 V c 1 t) (iblk1 V c 2 t) (iblk1 V c 3 t)).trans ?_
  rw [iblk1_3_eq V c t]
  obtain ⟨e0a, e0b, e1a, e1b, e2a, e2b, e3a, e3b, e4a, e4b, ht⟩ := idx1 t
  funext j
  obtain ⟨p, q, rfl⟩ : ∃ (p : Fin 10000) (q : Fin 16), j = ix2 p q := ⟨j 0, j 1, eq_ix2 j⟩
  have hp := p.isLt
  rw [View.read_apply]
  have he : ((cfg1.win 4).blk t).view.emb (ix2 p q) = ix2 (⟨t.val * 10000 + p.val, by omega⟩ : Fin 100000) q := by
    funext a
    apply Fin.ext
    match a with
    | ⟨0, _⟩ => show win1_4.index t 0 * 10000 + 1 * p.val = t.val * 10000 + p.val; omega
    | ⟨1, _⟩ => show win1_4.index t 1 * 16 + 1 * q.val = q.val; omega
  rw [he]
  exact Cert.Spec.comb_rows _ _ _ _ _ _ _ p _ q (iblk1_0_apply V c t (ix2 p q) (ix2 _ q) rfl rfl)
    (iblk1_1_apply V c t (ix2 p q) (ix2 _ q) rfl rfl) (iblk1_2_apply V c t (ix2 p (0 : Fin 1)) (ix2 _ (0 : Fin 1)) rfl rfl)

/-- Every row of the result array lies in the block of the point `row / 10000`. -/
theorem cover1 (i : S100000x16.Idx) : ∃ t : Fin cfg1.N, (cfg1.win 4).flush t = true ∧ i ∈ ((cfg1.win 4).blk t).view.set := by
  have hi : (i 0).val < 100000 := (i 0).isLt
  have hq : (i 1).val < 16 := (i 1).isLt
  have hN : cfg1.N = 10 := N_1
  let t : Fin cfg1.N := ⟨(i 0).val / 10000, by rw [hN]; omega⟩
  obtain ⟨e0a, e0b, e1a, e1b, e2a, e2b, e3a, e3b, e4a, e4b, ht⟩ := idx1 t
  have htv : t.val = (i 0).val / 10000 := rfl
  refine ⟨t, flush1_4 t, ?_⟩
  show i ∈ ((View.whole main_v43).slice (win1_4.rect t)).set
  rw [View.set_slice_whole, Rect.mem_set_unit]
  intro a
  match a with
  | ⟨0, _⟩ => show win1_4.index t 0 * 10000 ≤ (i 0).val ∧ (i 0).val < win1_4.index t 0 * 10000 + 10000; omega
  | ⟨1, _⟩ => show win1_4.index t 1 * 16 ≤ (i 1).val ∧ (i 1).val < win1_4.index t 1 * 16 + 16; omega

/-- So region 1's result array ends holding the specification's function of the arrays it was entered with. -/
theorem final1 (c : Dev nD) : (dat1 V c).arrAt 4 cfg1.N
    = (Cert.Spec.comb (V c main_v41 : S100000x16.Idx → Elt Ideal .f32) (V c main_v29 : S100000x16.Idx → Elt Ideal .f32) (V c main_v12 : S100000x1.Idx → Elt Ideal .f32) (V c main_v42 : S1x16.Idx → Elt Ideal .f32)) :=
  (dat1 V c).arrAt_eq_of_cover 4 _ (flushed1 V c) (cover1)

/-! ## Region 2: a matrix product on blocks of 10000 rows -/

/-- The index maps of region 2's windows, decided over its grid: a row-blocked window's block index is the grid
    point, a whole-array window's is zero. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0
    ∧ t.val < 10 :=
  (by decide +kernel : ∀ t : Fin grid2.N, _)

/-- Window 0's block at point `t` is rows `10000·t …` of its array. -/
theorem iblk2_0_apply (c : Dev nD) (t : Fin cfg2.N) (x : S10000x16.Idx) (i : S100000x16.Idx)
    (h0 : (i 0).val = t.val * 10000 + (x 0).val) (h1 : (i 1).val = (x 1).val) :
    (iblk2 V c 0 t : Vec Ideal S10000x16 .f32) x = (V c main_v43 : S100000x16.Idx → Elt Ideal .f32) i := by
  obtain ⟨e0a, e0b, e1a, e1b, e2a, e2b, ht⟩ := idx2 t
  unfold iblk2
  rw [View.read_apply]
  show V c main_v43 _ = V c main_v43 _
  congr 1
  funext a
  apply Fin.ext
  match a with
  | ⟨0, _⟩ => show win2_0.index t 0 * 10000 + 1 * (x 0).val = (i 0).val; omega
  | ⟨1, _⟩ => show win2_0.index t 1 * 16 + 1 * (x 1).val = (i 1).val; omega

/-- Window 1's block at every point is its whole array. -/
theorem iblk2_1_eq (c : Dev nD) (t : Fin cfg2.N) :
    (iblk2 V c 1 t : Vec Ideal S16x16 .f32) = (V c main_arg4 : S16x16.Idx → Elt Ideal .f32) := by
  obtain ⟨e0a, e0b, e1a, e1b, e2a, e2b, ht⟩ := idx2 t
  funext x
  unfold iblk2
  rw [View.read_apply]
  show V c main_arg4 _ = V c main_arg4 _
  congr 1
  funext a
  apply Fin.ext
  match a with
  | ⟨0, _⟩ => show win2_1.index t 0 * 16 + 1 * (x 0).val = (x 0).val; omega
  | ⟨1, _⟩ => show win2_1.index t 1 * 16 + 1 * (x 1).val = (x 1).val; omega

/-- What point `t` writes back is block `t` of the specification's function of the arrays as the region finds them:
    each row of the result depends only on the same row of the row-blocked operands. -/
theorem flushed2 (c : Dev nD) (t : Fin cfg2.N) (hf : (cfg2.win 2).flush t = true) :
    (dat2 V c).flushed 2 t = ((cfg2.win 2).blk t).view.read (Elt Ideal)
      (Cert.Spec.mm (V c main_v43 : S100000x16.Idx → Elt Ideal .f32) (V c main_arg4 : S16x16.Idx → Elt Ideal .f32)) := by
  show (cfg2.win 2).cut (grid2.coords t) ((dat2 V c).after 2 t) = _
  rw [after2_2]
  refine (Cert.KernelIdeal.Pay.out2_2_eq (iblk2 V c 0 t) (iblk2 V c 1 t)).trans ?_
  rw [iblk2_1_eq V c t]
  obtain ⟨e0a, e0b, e1a, e1b, e2a, e2b, ht⟩ := idx2 t
  funext j
  obtain ⟨p, q, rfl⟩ : ∃ (p : Fin 10000) (q : Fin 16), j = ix2 p q := ⟨j 0, j 1, eq_ix2 j⟩
  have hp := p.isLt
  rw [View.read_apply]
  have he : ((cfg2.win 2).blk t).view.emb (ix2 p q) = ix2 (⟨t.val * 10000 + p.val, by omega⟩ : Fin 100000) q := by
    funext a
    apply Fin.ext
    match a with
    | ⟨0, _⟩ => show win2_2.index t 0 * 10000 + 1 * p.val = t.val * 10000 + p.val; omega
    | ⟨1, _⟩ => show win2_2.index t 1 * 16 + 1 * q.val = q.val; omega
  rw [he]
  exact Cert.Spec.mm_rows _ _ _ p _ q fun k => iblk2_0_apply V c t (ix2 p k) (ix2 _ k) rfl rfl

/-- Every row of the result array lies in the block of the point `row / 10000`. -/
theorem cover2 (i : S100000x16.Idx) : ∃ t : Fin cfg2.N, (cfg2.win 2).flush t = true ∧ i ∈ ((cfg2.win 2).blk t).view.set := by
  have hi : (i 0).val < 100000 := (i 0).isLt
  have hq : (i 1).val < 16 := (i 1).isLt
  have hN : cfg2.N = 10 := N_2
  let t : Fin cfg2.N := ⟨(i 0).val / 10000, by rw [hN]; omega⟩
  obtain ⟨e0a, e0b, e1a, e1b, e2a, e2b, ht⟩ := idx2 t
  have htv : t.val = (i 0).val / 10000 := rfl
  refine ⟨t, flush2_2 t, ?_⟩
  show i ∈ ((View.whole main_v44).slice (win2_2.rect t)).set
  rw [View.set_slice_whole, Rect.mem_set_unit]
  intro a
  match a with
  | ⟨0, _⟩ => show win2_2.index t 0 * 10000 ≤ (i 0).val ∧ (i 0).val < win2_2.index t 0 * 10000 + 10000; omega
  | ⟨1, _⟩ => show win2_2.index t 1 * 16 ≤ (i 1).val ∧ (i 1).val < win2_2.index t 1 * 16 + 16; omega

/-- So region 2's result array ends holding the specification's function of the arrays it was entered with. -/
theorem final2 (c : Dev nD) : (dat2 V c).arrAt 2 cfg2.N
    = (Cert.Spec.mm (V c main_v43 : S100000x16.Idx → Elt Ideal .f32) (V c main_arg4 : S16x16.Idx → Elt Ideal .f32)) :=
  (dat2 V c).arrAt_eq_of_cover 2 _ (flushed2 V c) (cover2)

/-! ## Region 3: a combine on blocks of 10000 rows -/

/-- The index maps of region 3's windows, decided over its grid: a row-blocked window's block index is the grid
    point, a whole-array window's is zero. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0
    ∧ t.val < 10 :=
  (by decide +kernel : ∀ t : Fin grid3.N, _)

/-- Window 0's block at point `t` is rows `10000·t …` of its array. -/
theorem iblk3_0_apply (c : Dev nD) (t : Fin cfg3.N) (x : S10000x16.Idx) (i : S100000x16.Idx)
    (h0 : (i 0).val = t.val * 10000 + (x 0).val) (h1 : (i 1).val = (x 1).val) :
    (iblk3 V c 0 t : Vec Ideal S10000x16 .f32) x = (V c main_v56 : S100000x16.Idx → Elt Ideal .f32) i := by
  obtain ⟨e0a, e0b, e1a, e1b, e2a, e2b, e3a, e3b, e4a, e4b, ht⟩ := idx3 t
  unfold iblk3
  rw [View.read_apply]
  show V c main_v56 _ = V c main_v56 _
  congr 1
  funext a
  apply Fin.ext
  match a with
  | ⟨0, _⟩ => show win3_0.index t 0 * 10000 + 1 * (x 0).val = (i 0).val; omega
  | ⟨1, _⟩ => show win3_0.index t 1 * 16 + 1 * (x 1).val = (i 1).val; omega

/-- Window 1's block at point `t` is rows `10000·t …` of its array. -/
theorem iblk3_1_apply (c : Dev nD) (t : Fin cfg3.N) (x : S10000x16.Idx) (i : S100000x16.Idx)
    (h0 : (i 0).val = t.val * 10000 + (x 0).val) (h1 : (i 1).val = (x 1).val) :
    (iblk3 V c 1 t : Vec Ideal S10000x16 .f32) x = (V c main_v44 : S100000x16.Idx → Elt Ideal .f32) i := by
  obtain ⟨e0a, e0b, e1a, e1b, e2a, e2b, e3a, e3b, e4a, e4b, ht⟩ := idx3 t
  unfold iblk3
  rw [View.read_apply]
  show V c main_v44 _ = V c main_v44 _
  congr 1
  funext a
  apply Fin.ext
  match a with
  | ⟨0, _⟩ => show win3_1.index t 0 * 10000 + 1 * (x 0).val = (i 0).val; omega
  | ⟨1, _⟩ => show win3_1.index t 1 * 16 + 1 * (x 1).val = (i 1).val; omega

/-- Window 2's block at point `t` is rows `10000·t …` of its array. -/
theorem iblk3_2_apply (c : Dev nD) (t : Fin cfg3.N) (x : S10000x1.Idx) (i : S100000x1.Idx)
    (h0 : (i 0).val = t.val * 10000 + (x 0).val) (h1 : (i 1).val = (x 1).val) :
    (iblk3 V c 2 t : Vec Ideal S10000x1 .f32) x = (V c main_v12 : S100000x1.Idx → Elt Ideal .f32) i := by
  obtain ⟨e0a, e0b, e1a, e1b, e2a, e2b, e3a, e3b, e4a, e4b, ht⟩ := idx3 t
  unfold iblk3
  rw [View.read_apply]
  show V c main_v12 _ = V c main_v12 _
  congr 1
  funext a
  apply Fin.ext
  match a with
  | ⟨0, _⟩ => show win3_2.index t 0 * 10000 + 1 * (x 0).val = (i 0).val; omega
  | ⟨1, _⟩ => show win3_2.index t 1 * 1 + 1 * (x 1).val = (i 1).val; omega

/-- Window 3's block at every point is its whole array. -/
theorem iblk3_3_eq (c : Dev nD) (t : Fin cfg3.N) :
    (iblk3 V c 3 t : Vec Ideal S1x16 .f32) = (V c main_v57 : S1x16.Idx → Elt Ideal .f32) := by
  obtain ⟨e0a, e0b, e1a, e1b, e2a, e2b, e3a, e3b, e4a, e4b, ht⟩ := idx3 t
  funext x
  unfold iblk3
  rw [View.read_apply]
  show V c main_v57 _ = V c main_v57 _
  congr 1
  funext a
  apply Fin.ext
  match a with
  | ⟨0, _⟩ => show win3_3.index t 0 * 1 + 1 * (x 0).val = (x 0).val; omega
  | ⟨1, _⟩ => show win3_3.index t 1 * 16 + 1 * (x 1).val = (x 1).val; omega

/-- What point `t` writes back is block `t` of the specification's function of the arrays as the region finds them:
    each row of the result depends only on the same row of the row-blocked operands. -/
theorem flushed3 (c : Dev nD) (t : Fin cfg3.N) (hf : (cfg3.win 4).flush t = true) :
    (dat3 V c).flushed 4 t = ((cfg3.win 4).blk t).view.read (Elt Ideal)
      (Cert.Spec.comb (V c main_v56 : S100000x16.Idx → Elt Ideal .f32) (V c main_v44 : S100000x16.Idx → Elt Ideal .f32) (V c main_v12 : S100000x1.Idx → Elt Ideal .f32) (V c main_v57 : S1x16.Idx → Elt Ideal .f32)) := by
  show (cfg3.win 4).cut (grid3.coords t) ((dat3 V c).after 4 t) = _
  rw [after3_4]
  refine (Cert.KernelIdeal.Pay.out3_4_eq (iblk3 V c 0 t) (iblk3 V c 1 t) (iblk3 V c 2 t) (iblk3 V c 3 t)).trans ?_
  rw [iblk3_3_eq V c t]
  obtain ⟨e0a, e0b, e1a, e1b, e2a, e2b, e3a, e3b, e4a, e4b, ht⟩ := idx3 t
  funext j
  obtain ⟨p, q, rfl⟩ : ∃ (p : Fin 10000) (q : Fin 16), j = ix2 p q := ⟨j 0, j 1, eq_ix2 j⟩
  have hp := p.isLt
  rw [View.read_apply]
  have he : ((cfg3.win 4).blk t).view.emb (ix2 p q) = ix2 (⟨t.val * 10000 + p.val, by omega⟩ : Fin 100000) q := by
    funext a
    apply Fin.ext
    match a with
    | ⟨0, _⟩ => show win3_4.index t 0 * 10000 + 1 * p.val = t.val * 10000 + p.val; omega
    | ⟨1, _⟩ => show win3_4.index t 1 * 16 + 1 * q.val = q.val; omega
  rw [he]
  exact Cert.Spec.comb_rows _ _ _ _ _ _ _ p _ q (iblk3_0_apply V c t (ix2 p q) (ix2 _ q) rfl rfl)
    (iblk3_1_apply V c t (ix2 p q) (ix2 _ q) rfl rfl) (iblk3_2_apply V c t (ix2 p (0 : Fin 1)) (ix2 _ (0 : Fin 1)) rfl rfl)

/-- Every row of the result array lies in the block of the point `row / 10000`. -/
theorem cover3 (i : S100000x16.Idx) : ∃ t : Fin cfg3.N, (cfg3.win 4).flush t = true ∧ i ∈ ((cfg3.win 4).blk t).view.set := by
  have hi : (i 0).val < 100000 := (i 0).isLt
  have hq : (i 1).val < 16 := (i 1).isLt
  have hN : cfg3.N = 10 := N_3
  let t : Fin cfg3.N := ⟨(i 0).val / 10000, by rw [hN]; omega⟩
  obtain ⟨e0a, e0b, e1a, e1b, e2a, e2b, e3a, e3b, e4a, e4b, ht⟩ := idx3 t
  have htv : t.val = (i 0).val / 10000 := rfl
  refine ⟨t, flush3_4 t, ?_⟩
  show i ∈ ((View.whole main_v58).slice (win3_4.rect t)).set
  rw [View.set_slice_whole, Rect.mem_set_unit]
  intro a
  match a with
  | ⟨0, _⟩ => show win3_4.index t 0 * 10000 ≤ (i 0).val ∧ (i 0).val < win3_4.index t 0 * 10000 + 10000; omega
  | ⟨1, _⟩ => show win3_4.index t 1 * 16 ≤ (i 1).val ∧ (i 1).val < win3_4.index t 1 * 16 + 16; omega

/-- So region 3's result array ends holding the specification's function of the arrays it was entered with. -/
theorem final3 (c : Dev nD) : (dat3 V c).arrAt 4 cfg3.N
    = (Cert.Spec.comb (V c main_v56 : S100000x16.Idx → Elt Ideal .f32) (V c main_v44 : S100000x16.Idx → Elt Ideal .f32) (V c main_v12 : S100000x1.Idx → Elt Ideal .f32) (V c main_v57 : S1x16.Idx → Elt Ideal .f32)) :=
  (dat3 V c).arrAt_eq_of_cover 4 _ (flushed3 V c) (cover3)

/-! ## Region 4: the edge classifier on blocks of 8000 rows -/

/-- The index maps of region 4's windows, decided over its grid: a row-blocked window's block index is the grid
    point, a whole-array window's is zero. -/
theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0
    ∧ t.val < 400 :=
  (by decide +kernel : ∀ t : Fin grid4.N, _)

/-- Window 0's block at point `t` is rows `8000·t …` of its array. -/
theorem iblk4_0_apply (c : Dev nD) (t : Fin cfg4.N) (x : S8000x32.Idx) (i : S3200000x32.Idx)
    (h0 : (i 0).val = t.val * 8000 + (x 0).val) (h1 : (i 1).val = (x 1).val) :
    (iblk4 V c 0 t : Vec Ideal S8000x32 .f32) x = (V c main_v73 : S3200000x32.Idx → Elt Ideal .f32) i := by
  obtain ⟨e0a, e0b, e1a, e1b, e2a, e2b, e3a, e3b, e4a, e4b, e5a, e5b, ht⟩ := idx4 t
  unfold iblk4
  rw [View.read_apply]
  show V c main_v73 _ = V c main_v73 _
  congr 1
  funext a
  apply Fin.ext
  match a with
  | ⟨0, _⟩ => show win4_0.index t 0 * 8000 + 1 * (x 0).val = (i 0).val; omega
  | ⟨1, _⟩ => show win4_0.index t 1 * 32 + 1 * (x 1).val = (i 1).val; omega

/-- Window 1's block at every point is its whole array. -/
theorem iblk4_1_eq (c : Dev nD) (t : Fin cfg4.N) :
    (iblk4 V c 1 t : Vec Ideal S32x16 .f32) = (V c main_arg6 : S32x16.Idx → Elt Ideal .f32) := by
  obtain ⟨e0a, e0b, e1a, e1b, e2a, e2b, e3a, e3b, e4a, e4b, e5a, e5b, ht⟩ := idx4 t
  funext x
  unfold iblk4
  rw [View.read_apply]
  show V c main_arg6 _ = V c main_arg6 _
  congr 1
  funext a
  apply Fin.ext
  match a with
  | ⟨0, _⟩ => show win4_1.index t 0 * 32 + 1 * (x 0).val = (x 0).val; omega
  | ⟨1, _⟩ => show win4_1.index t 1 * 16 + 1 * (x 1).val = (x 1).val; omega

/-- Window 2's block at every point is its whole array. -/
theorem iblk4_2_eq (c : Dev nD) (t : Fin cfg4.N) :
    (iblk4 V c 2 t : Vec Ideal S1x16 .f32) = (V c main_v74 : S1x16.Idx → Elt Ideal .f32) := by
  obtain ⟨e0a, e0b, e1a, e1b, e2a, e2b, e3a, e3b, e4a, e4b, e5a, e5b, ht⟩ := idx4 t
  funext x
  unfold iblk4
  rw [View.read_apply]
  show V c main_v74 _ = V c main_v74 _
  congr 1
  funext a
  apply Fin.ext
  match a with
  | ⟨0, _⟩ => show win4_2.index t 0 * 1 + 1 * (x 0).val = (x 0).val; omega
  | ⟨1, _⟩ => show win4_2.index t 1 * 16 + 1 * (x 1).val = (x 1).val; omega

/-- Window 3's block at every point is its whole array. -/
theorem iblk4_3_eq (c : Dev nD) (t : Fin cfg4.N) :
    (iblk4 V c 3 t : Vec Ideal S16x2 .f32) = (V c main_arg8 : S16x2.Idx → Elt Ideal .f32) := by
  obtain ⟨e0a, e0b, e1a, e1b, e2a, e2b, e3a, e3b, e4a, e4b, e5a, e5b, ht⟩ := idx4 t
  funext x
  unfold iblk4
  rw [View.read_apply]
  show V c main_arg8 _ = V c main_arg8 _
  congr 1
  funext a
  apply Fin.ext
  match a with
  | ⟨0, _⟩ => show win4_3.index t 0 * 16 + 1 * (x 0).val = (x 0).val; omega
  | ⟨1, _⟩ => show win4_3.index t 1 * 2 + 1 * (x 1).val = (x 1).val; omega

/-- Window 4's block at every point is its whole array. -/
theorem iblk4_4_eq (c : Dev nD) (t : Fin cfg4.N) :
    (iblk4 V c 4 t : Vec Ideal S1x2 .f32) = (V c main_v75 : S1x2.Idx → Elt Ideal .f32) := by
  obtain ⟨e0a, e0b, e1a, e1b, e2a, e2b, e3a, e3b, e4a, e4b, e5a, e5b, ht⟩ := idx4 t
  funext x
  unfold iblk4
  rw [View.read_apply]
  show V c main_v75 _ = V c main_v75 _
  congr 1
  funext a
  apply Fin.ext
  match a with
  | ⟨0, _⟩ => show win4_4.index t 0 * 1 + 1 * (x 0).val = (x 0).val; omega
  | ⟨1, _⟩ => show win4_4.index t 1 * 2 + 1 * (x 1).val = (x 1).val; omega

/-- What point `t` writes back is block `t` of the specification's function of the arrays as the region finds them:
    each row of the result depends only on the same row of the row-blocked operands. -/
theorem flushed4 (c : Dev nD) (t : Fin cfg4.N) (hf : (cfg4.win 5).flush t = true) :
    (dat4 V c).flushed 5 t = ((cfg4.win 5).blk t).view.read (Elt Ideal)
      (Cert.Spec.mlp (V c main_v73 : S3200000x32.Idx → Elt Ideal .f32) (V c main_arg6 : S32x16.Idx → Elt Ideal .f32) (V c main_v74 : S1x16.Idx → Elt Ideal .f32) (V c main_arg8 : S16x2.Idx → Elt Ideal .f32) (V c main_v75 : S1x2.Idx → Elt Ideal .f32)) := by
  show (cfg4.win 5).cut (grid4.coords t) ((dat4 V c).after 5 t) = _
  rw [after4_5]
  refine (Cert.KernelIdeal.Pay.out4_5_eq (iblk4 V c 0 t) (iblk4 V c 1 t) (iblk4 V c 2 t) (iblk4 V c 3 t) (iblk4 V c 4 t)).trans ?_
  rw [iblk4_1_eq V c t, iblk4_2_eq V c t, iblk4_3_eq V c t, iblk4_4_eq V c t]
  obtain ⟨e0a, e0b, e1a, e1b, e2a, e2b, e3a, e3b, e4a, e4b, e5a, e5b, ht⟩ := idx4 t
  funext j
  obtain ⟨p, q, rfl⟩ : ∃ (p : Fin 8000) (q : Fin 2), j = ix2 p q := ⟨j 0, j 1, eq_ix2 j⟩
  have hp := p.isLt
  rw [View.read_apply]
  have he : ((cfg4.win 5).blk t).view.emb (ix2 p q) = ix2 (⟨t.val * 8000 + p.val, by omega⟩ : Fin 3200000) q := by
    funext a
    apply Fin.ext
    match a with
    | ⟨0, _⟩ => show win4_5.index t 0 * 8000 + 1 * p.val = t.val * 8000 + p.val; omega
    | ⟨1, _⟩ => show win4_5.index t 1 * 2 + 1 * q.val = q.val; omega
  rw [he]
  exact Cert.Spec.mlp_rows _ _ _ _ _ _ p _ q fun k => iblk4_0_apply V c t (ix2 p k) (ix2 _ k) rfl rfl

/-- Every row of the result array lies in the block of the point `row / 8000`. -/
theorem cover4 (i : S3200000x2.Idx) : ∃ t : Fin cfg4.N, (cfg4.win 5).flush t = true ∧ i ∈ ((cfg4.win 5).blk t).view.set := by
  have hi : (i 0).val < 3200000 := (i 0).isLt
  have hq : (i 1).val < 2 := (i 1).isLt
  have hN : cfg4.N = 400 := N_4
  let t : Fin cfg4.N := ⟨(i 0).val / 8000, by rw [hN]; omega⟩
  obtain ⟨e0a, e0b, e1a, e1b, e2a, e2b, e3a, e3b, e4a, e4b, e5a, e5b, ht⟩ := idx4 t
  have htv : t.val = (i 0).val / 8000 := rfl
  refine ⟨t, flush4_5 t, ?_⟩
  show i ∈ ((View.whole main_v76).slice (win4_5.rect t)).set
  rw [View.set_slice_whole, Rect.mem_set_unit]
  intro a
  match a with
  | ⟨0, _⟩ => show win4_5.index t 0 * 8000 ≤ (i 0).val ∧ (i 0).val < win4_5.index t 0 * 8000 + 8000; omega
  | ⟨1, _⟩ => show win4_5.index t 1 * 2 ≤ (i 1).val ∧ (i 1).val < win4_5.index t 1 * 2 + 2; omega

/-- So region 4's result array ends holding the specification's function of the arrays it was entered with. -/
theorem final4 (c : Dev nD) : (dat4 V c).arrAt 5 cfg4.N
    = (Cert.Spec.mlp (V c main_v73 : S3200000x32.Idx → Elt Ideal .f32) (V c main_arg6 : S32x16.Idx → Elt Ideal .f32) (V c main_v74 : S1x16.Idx → Elt Ideal .f32) (V c main_arg8 : S16x2.Idx → Elt Ideal .f32) (V c main_v75 : S1x2.Idx → Elt Ideal .f32)) :=
  (dat4 V c).arrAt_eq_of_cover 5 _ (flushed4 V c) (cover4)

end Cert.KernelIdeal.Hand

end
-- ==== Proof.Stages.lean ====
/-
  The host operations between the kernel regions, as functions of what they read.

  From the edge list: the source and target node of every edge (`rowOf`, `colOf`), an index wrapped into range the
  way an array lookup wraps a negative one (`wrapIdx`), every node's normalisation `deg^(-1/2)` with `deg` the number of
  edges arriving at the node plus one (`dinv`), its square as a column (`dinv2`), and the per-edge weight
  `dinv[row] · dinv[col]` as a column (`norm`). From a node table: the weighted rows of the edges' sources added up at
  their targets (`aggr`), and the two endpoint rows of every edge side by side (`edgeFeat`). Then each stretch of host
  operations of @main, run from any buffer contents, leaves these functions of what it read in the buffers it writes,
  and every other buffer as it was.
-/
import proofs.«145413_j67551245631648_2_alg».proof.Proof.Gen.KernelIdeal.Frame
import Idealize.ShloMosaic.Lib.StableHlo.Run
import Idealize.ShloMosaic.PureOps.Ideal
import proofs.«145413_j67551245631648_2_alg».proof.Proof.Spec

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable {F : FTy → Type} [FloatOps F]

/-- The source node of every edge. -/
def rowOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge. -/
def colOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node index with a negative one wrapped by the number of nodes, as a column of start indices. -/
def wrapIdx (r : (⟨S3200000, .i32⟩ : BufTy).Contents (Elt F)) : (⟨S3200000x1, .i32⟩ : BufTy).Contents (Elt F) :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-- Every node's `deg^(-1/2)`, the degree counting the edges that arrive at the node and one more. -/
def dinv (e : (⟨S2x3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 (colOf e))
      (broadcastInDim S3200000 ![] bcast_S_S3200000 (constant (F := F) S_ .f32 0x3F800000#32)))
    (broadcastInDim S100000 ![] bcast_S_S100000 (constant (F := F) S_ .f32 0x3F800000#32)))

/-- The square of the normalisation, as a column. -/
def dinv2 (e : (⟨S2x3200000, .i32⟩ : BufTy).Contents (Elt F)) : (⟨S100000x1, .f32⟩ : BufTy).Contents (Elt F) :=
  shapeCast _ (mulf (dinv e) (dinv e)) shapeCasts_S100000_S100000x1

/-- The weight of every edge, as a column. -/
def norm (e : (⟨S2x3200000, .i32⟩ : BufTy).Contents (Elt F)) : (⟨S3200000x1, .f32⟩ : BufTy).Contents (Elt F) :=
  shapeCast _ (mulf
    (Host.gather gather_S100000_S3200000x1_S3200000_n_0_n_n_0_1_1 (dinv e) (wrapIdx (rowOf e)))
    (Host.gather gather_S100000_S3200000x1_S3200000_n_0_n_n_0_1_1 (dinv e) (wrapIdx (colOf e)))) shapeCasts_S3200000_S3200000x1

/-- The rows of the edges' sources, weighted, added up at the edges' targets. -/
def aggr (r cl : (⟨S3200000, .i32⟩ : BufTy).Contents (Elt F)) (w : (⟨S3200000x1, .f32⟩ : BufTy).Contents (Elt F)) (h : (⟨S100000x16, .f32⟩ : BufTy).Contents (Elt F)) : (⟨S100000x16, .f32⟩ : BufTy).Contents (Elt F) :=
  Host.scatterAdd scatter_S100000x16_S3200000x1_S3200000x16_1_0_0_1
    (broadcastInDim S100000x16 ![] bcast_S_S100000x16 (constant (F := F) S_ .f32 0x00000000#32))
    (broadcastInDim S3200000x1 ![0] bcast_S3200000_S3200000x1_0 cl)
    (mulf (Host.gather gather_S100000x16_S3200000x1_S3200000x16_1_0_n_n_0_1_116 h (wrapIdx r))
      (broadcastInDim S3200000x16 ![0, 1] bcast_S3200000x1_S3200000x16_0_1 w))

/-- The two endpoint rows of every edge, side by side. -/
def edgeFeat (r cl : (⟨S3200000, .i32⟩ : BufTy).Contents (Elt F)) (h : (⟨S100000x16, .f32⟩ : BufTy).Contents (Elt F)) : (⟨S3200000x32, .f32⟩ : BufTy).Contents (Elt F) :=
  concatenate S3200000x32 1
    [⟨S3200000x16, Host.gather gather_S100000x16_S3200000x1_S3200000x16_1_0_n_n_0_1_116 h (wrapIdx r)⟩,
     ⟨S3200000x16, Host.gather gather_S100000x16_S3200000x1_S3200000x16_1_0_n_n_0_1_116 h (wrapIdx cl)⟩]
    concatenates_S3200000x16_S3200000x16_S3200000x32_d1

variable (W : Valuation τ sig (Elt F))

/-! ## The first stretch: everything that depends on the edge list alone -/

theorem host0_v1 : after hostOps0 W (Proc.devRef .tc main_v1) = rowOf (W (Proc.devRef .tc main_arg1)) := by
  after_results_simp <;> rfl
theorem host0_v3 : after hostOps0 W (Proc.devRef .tc main_v3) = colOf (W (Proc.devRef .tc main_arg1)) := by
  after_results_simp <;> rfl
theorem host0_v12 : after hostOps0 W (Proc.devRef .tc main_v12) = dinv2 (W (Proc.devRef .tc main_arg1)) := by
  after_results_simp <;> rfl
theorem host0_v28 : after hostOps0 W (Proc.devRef .tc main_v28) = norm (W (Proc.devRef .tc main_arg1)) := by
  after_results_simp <;> rfl
theorem host0_arg0 : after hostOps0 W (Proc.devRef .tc main_arg0) = (W (Proc.devRef .tc main_arg0)) := by
  after_results_simp <;> rfl
theorem host0_arg2 : after hostOps0 W (Proc.devRef .tc main_arg2) = (W (Proc.devRef .tc main_arg2)) := by
  after_results_simp <;> rfl
theorem host0_arg3 : after hostOps0 W (Proc.devRef .tc main_arg3) = (W (Proc.devRef .tc main_arg3)) := by
  after_results_simp <;> rfl
theorem host0_arg4 : after hostOps0 W (Proc.devRef .tc main_arg4) = (W (Proc.devRef .tc main_arg4)) := by
  after_results_simp <;> rfl
theorem host0_arg5 : after hostOps0 W (Proc.devRef .tc main_arg5) = (W (Proc.devRef .tc main_arg5)) := by
  after_results_simp <;> rfl
theorem host0_arg6 : after hostOps0 W (Proc.devRef .tc main_arg6) = (W (Proc.devRef .tc main_arg6)) := by
  after_results_simp <;> rfl
theorem host0_arg7 : after hostOps0 W (Proc.devRef .tc main_arg7) = (W (Proc.devRef .tc main_arg7)) := by
  after_results_simp <;> rfl
theorem host0_arg8 : after hostOps0 W (Proc.devRef .tc main_arg8) = (W (Proc.devRef .tc main_arg8)) := by
  after_results_simp <;> rfl
theorem host0_arg9 : after hostOps0 W (Proc.devRef .tc main_arg9) = (W (Proc.devRef .tc main_arg9)) := by
  after_results_simp <;> rfl

/-! ## The stretch before the first combine -/

theorem host1_v41 : after hostOps1 W (Proc.devRef .tc main_v41) = aggr (W (Proc.devRef .tc main_v1)) (W (Proc.devRef .tc main_v3)) (W (Proc.devRef .tc main_v28)) (W (Proc.devRef .tc main_v29)) := by
  after_results_simp <;> rfl
theorem host1_v42 : after hostOps1 W (Proc.devRef .tc main_v42) = shapeCast _ (W (Proc.devRef .tc main_arg3)) shapeCasts_S16_S1x16 := by
  after_results_simp <;> rfl
theorem host1_v29 : after hostOps1 W (Proc.devRef .tc main_v29) = (W (Proc.devRef .tc main_v29)) := by
  after_results_simp <;> rfl
theorem host1_v12 : after hostOps1 W (Proc.devRef .tc main_v12) = (W (Proc.devRef .tc main_v12)) := by
  after_results_simp <;> rfl
theorem host1_v1 : after hostOps1 W (Proc.devRef .tc main_v1) = (W (Proc.devRef .tc main_v1)) := by
  after_results_simp <;> rfl
theorem host1_v3 : after hostOps1 W (Proc.devRef .tc main_v3) = (W (Proc.devRef .tc main_v3)) := by
  after_results_simp <;> rfl
theorem host1_v28 : after hostOps1 W (Proc.devRef .tc main_v28) = (W (Proc.devRef .tc main_v28)) := by
  after_results_simp <;> rfl
theorem host1_arg4 : after hostOps1 W (Proc.devRef .tc main_arg4) = (W (Proc.devRef .tc main_arg4)) := by
  after_results_simp <;> rfl
theorem host1_arg5 : after hostOps1 W (Proc.devRef .tc main_arg5) = (W (Proc.devRef .tc main_arg5)) := by
  after_results_simp <;> rfl
theorem host1_arg6 : after hostOps1 W (Proc.devRef .tc main_arg6) = (W (Proc.devRef .tc main_arg6)) := by
  after_results_simp <;> rfl
theorem host1_arg7 : after hostOps1 W (Proc.devRef .tc main_arg7) = (W (Proc.devRef .tc main_arg7)) := by
  after_results_simp <;> rfl
theorem host1_arg8 : after hostOps1 W (Proc.devRef .tc main_arg8) = (W (Proc.devRef .tc main_arg8)) := by
  after_results_simp <;> rfl
theorem host1_arg9 : after hostOps1 W (Proc.devRef .tc main_arg9) = (W (Proc.devRef .tc main_arg9)) := by
  after_results_simp <;> rfl

/-! ## The stretch before the second combine -/

theorem host3_v56 : after hostOps3 W (Proc.devRef .tc main_v56) = aggr (W (Proc.devRef .tc main_v1)) (W (Proc.devRef .tc main_v3)) (W (Proc.devRef .tc main_v28)) (W (Proc.devRef .tc main_v44)) := by
  after_results_simp <;> rfl
theorem host3_v57 : after hostOps3 W (Proc.devRef .tc main_v57) = shapeCast _ (W (Proc.devRef .tc main_arg5)) shapeCasts_S16_S1x16 := by
  after_results_simp <;> rfl
theorem host3_v44 : after hostOps3 W (Proc.devRef .tc main_v44) = (W (Proc.devRef .tc main_v44)) := by
  after_results_simp <;> rfl
theorem host3_v12 : after hostOps3 W (Proc.devRef .tc main_v12) = (W (Proc.devRef .tc main_v12)) := by
  after_results_simp <;> rfl
theorem host3_v1 : after hostOps3 W (Proc.devRef .tc main_v1) = (W (Proc.devRef .tc main_v1)) := by
  after_results_simp <;> rfl
theorem host3_v3 : after hostOps3 W (Proc.devRef .tc main_v3) = (W (Proc.devRef .tc main_v3)) := by
  after_results_simp <;> rfl
theorem host3_arg6 : after hostOps3 W (Proc.devRef .tc main_arg6) = (W (Proc.devRef .tc main_arg6)) := by
  after_results_simp <;> rfl
theorem host3_arg7 : after hostOps3 W (Proc.devRef .tc main_arg7) = (W (Proc.devRef .tc main_arg7)) := by
  after_results_simp <;> rfl
theorem host3_arg8 : after hostOps3 W (Proc.devRef .tc main_arg8) = (W (Proc.devRef .tc main_arg8)) := by
  after_results_simp <;> rfl
theorem host3_arg9 : after hostOps3 W (Proc.devRef .tc main_arg9) = (W (Proc.devRef .tc main_arg9)) := by
  after_results_simp <;> rfl

/-! ## The stretch before the edge classifier -/

theorem host4_v73 : after hostOps4 W (Proc.devRef .tc main_v73) = edgeFeat (W (Proc.devRef .tc main_v1)) (W (Proc.devRef .tc main_v3)) (W (Proc.devRef .tc main_v58)) := by
  after_results_simp <;> rfl
theorem host4_v74 : after hostOps4 W (Proc.devRef .tc main_v74) = shapeCast _ (W (Proc.devRef .tc main_arg7)) shapeCasts_S16_S1x16 := by
  after_results_simp <;> rfl
theorem host4_v75 : after hostOps4 W (Proc.devRef .tc main_v75) = shapeCast _ (W (Proc.devRef .tc main_arg9)) shapeCasts_S2_S1x2 := by
  after_results_simp <;> rfl
theorem host4_arg6 : after hostOps4 W (Proc.devRef .tc main_arg6) = (W (Proc.devRef .tc main_arg6)) := by
  after_results_simp <;> rfl
theorem host4_arg8 : after hostOps4 W (Proc.devRef .tc main_arg8) = (W (Proc.devRef .tc main_arg8)) := by
  after_results_simp <;> rfl

/-! ## The whole computation, at the ideal values -/

/-- One graph convolution after its linear map `hw = h · W`: aggregate, add the node's own scaled row and the bias,
    rectify. -/
def conv (e : (⟨S2x3200000, .i32⟩ : BufTy).Contents (Elt Ideal)) (hw : (⟨S100000x16, .f32⟩ : BufTy).Contents (Elt Ideal))
    (b : (⟨S16, .f32⟩ : BufTy).Contents (Elt Ideal)) : (⟨S100000x16, .f32⟩ : BufTy).Contents (Elt Ideal) :=
  Cert.Spec.comb (aggr (rowOf e) (colOf e) (norm e) hw) hw (dinv2 e) (shapeCast _ b shapeCasts_S16_S1x16)

/-- The network: two graph convolutions, then the edge classifier on the two endpoint rows of every edge. -/
def value (x : (⟨S100000x128, .f32⟩ : BufTy).Contents (Elt Ideal)) (e : (⟨S2x3200000, .i32⟩ : BufTy).Contents (Elt Ideal))
    (w1 : (⟨S128x16, .f32⟩ : BufTy).Contents (Elt Ideal)) (b1 : (⟨S16, .f32⟩ : BufTy).Contents (Elt Ideal))
    (w2 : (⟨S16x16, .f32⟩ : BufTy).Contents (Elt Ideal)) (b2 : (⟨S16, .f32⟩ : BufTy).Contents (Elt Ideal))
    (f1w : (⟨S32x16, .f32⟩ : BufTy).Contents (Elt Ideal)) (f1b : (⟨S16, .f32⟩ : BufTy).Contents (Elt Ideal))
    (f2w : (⟨S16x2, .f32⟩ : BufTy).Contents (Elt Ideal)) (f2b : (⟨S2, .f32⟩ : BufTy).Contents (Elt Ideal)) :
    (⟨S3200000x2, .f32⟩ : BufTy).Contents (Elt Ideal) :=
  Cert.Spec.mlp (edgeFeat (rowOf e) (colOf e) (conv e (Cert.Spec.mm (conv e (Cert.Spec.mm x w1) b1) w2) b2))
    f1w (shapeCast _ f1b shapeCasts_S16_S1x16) f2w (shapeCast _ f2b shapeCasts_S2_S1x2)

end Cert.KernelIdeal.Hand

end
-- ==== Proof.KernelValue.lean ====
/-
  What the idealized kernel's result buffer holds at the end: the network of `Hand.value` applied to the launch contents
  of the arguments.

  The contents at each of @main's segment boundaries are followed from the launch: a stretch of host operations leaves
  its functions of what it read (Stages), a kernel region leaves the specification's function of the arrays it was
  entered with (Regions), and a buffer that a segment does not write is carried along unchanged.
-/
import proofs.«145413_j67551245631648_2_alg».proof.Proof.KernelRun
import proofs.«145413_j67551245631648_2_alg».proof.Proof.Regions
import proofs.«145413_j67551245631648_2_alg».proof.Proof.Stages

set_option maxRecDepth 16384

noncomputable section

open Idealize.ShloMosaic Idealize.ShloMosaic.TcCoe Idealize.SL.Sem Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-! ## After the first stretch -/

theorem w1_v1 : W1 m ρ c (Proc.devRef .tc main_v1) = rowOf (m ((c : Thread nD τ).loc main_arg1)) := host0_v1 (W0 m ρ c)
theorem w1_v3 : W1 m ρ c (Proc.devRef .tc main_v3) = colOf (m ((c : Thread nD τ).loc main_arg1)) := host0_v3 (W0 m ρ c)
theorem w1_v12 : W1 m ρ c (Proc.devRef .tc main_v12) = dinv2 (m ((c : Thread nD τ).loc main_arg1)) := host0_v12 (W0 m ρ c)
theorem w1_v28 : W1 m ρ c (Proc.devRef .tc main_v28) = norm (m ((c : Thread nD τ).loc main_arg1)) := host0_v28 (W0 m ρ c)
theorem w1_a0 : W1 m ρ c (Proc.devRef .tc main_arg0) = m ((c : Thread nD τ).loc main_arg0) := host0_arg0 (W0 m ρ c)
theorem w1_a2 : W1 m ρ c (Proc.devRef .tc main_arg2) = m ((c : Thread nD τ).loc main_arg2) := host0_arg2 (W0 m ρ c)
theorem w1_a3 : W1 m ρ c (Proc.devRef .tc main_arg3) = m ((c : Thread nD τ).loc main_arg3) := host0_arg3 (W0 m ρ c)
theorem w1_a4 : W1 m ρ c (Proc.devRef .tc main_arg4) = m ((c : Thread nD τ).loc main_arg4) := host0_arg4 (W0 m ρ c)
theorem w1_a5 : W1 m ρ c (Proc.devRef .tc main_arg5) = m ((c : Thread nD τ).loc main_arg5) := host0_arg5 (W0 m ρ c)
theorem w1_a6 : W1 m ρ c (Proc.devRef .tc main_arg6) = m ((c : Thread nD τ).loc main_arg6) := host0_arg6 (W0 m ρ c)
theorem w1_a7 : W1 m ρ c (Proc.devRef .tc main_arg7) = m ((c : Thread nD τ).loc main_arg7) := host0_arg7 (W0 m ρ c)
theorem w1_a8 : W1 m ρ c (Proc.devRef .tc main_arg8) = m ((c : Thread nD τ).loc main_arg8) := host0_arg8 (W0 m ρ c)
theorem w1_a9 : W1 m ρ c (Proc.devRef .tc main_arg9) = m ((c : Thread nD τ).loc main_arg9) := host0_arg9 (W0 m ρ c)

/-! ## After the first product -/

theorem w2_v29 : W2 m ρ c (Proc.devRef .tc main_v29) = (Cert.Spec.mm (m ((c : Thread nD τ).loc main_arg0) : S100000x128.Idx → Elt Ideal .f32) (m ((c : Thread nD τ).loc main_arg2) : S128x16.Idx → Elt Ideal .f32)) :=
  (W2_arr m ρ c 2).trans ((final0 (V1 m ρ) c).trans (congrArg₂ Cert.Spec.mm (w1_a0 m ρ c) (w1_a2 m ρ c)))
theorem w2_v1 : W2 m ρ c (Proc.devRef .tc main_v1) = rowOf (m ((c : Thread nD τ).loc main_arg1)) :=
  (W2_of_ne m ρ c main_v1 (by decide)).trans (w1_v1 m ρ c)
theorem w2_v3 : W2 m ρ c (Proc.devRef .tc main_v3) = colOf (m ((c : Thread nD τ).loc main_arg1)) :=
  (W2_of_ne m ρ c main_v3 (by decide)).trans (w1_v3 m ρ c)
theorem w2_v12 : W2 m ρ c (Proc.devRef .tc main_v12) = dinv2 (m ((c : Thread nD τ).loc main_arg1)) :=
  (W2_of_ne m ρ c main_v12 (by decide)).trans (w1_v12 m ρ c)
theorem w2_v28 : W2 m ρ c (Proc.devRef .tc main_v28) = norm (m ((c : Thread nD τ).loc main_arg1)) :=
  (W2_of_ne m ρ c main_v28 (by decide)).trans (w1_v28 m ρ c)
theorem w2_a3 : W2 m ρ c (Proc.devRef .tc main_arg3) = m ((c : Thread nD τ).loc main_arg3) :=
  (W2_of_ne m ρ c main_arg3 (by decide)).trans (w1_a3 m ρ c)
theorem w2_a4 : W2 m ρ c (Proc.devRef .tc main_arg4) = m ((c : Thread nD τ).loc main_arg4) :=
  (W2_of_ne m ρ c main_arg4 (by decide)).trans (w1_a4 m ρ c)
theorem w2_a5 : W2 m ρ c (Proc.devRef .tc main_arg5) = m ((c : Thread nD τ).loc main_arg5) :=
  (W2_of_ne m ρ c main_arg5 (by decide)).trans (w1_a5 m ρ c)
theorem w2_a6 : W2 m ρ c (Proc.devRef .tc main_arg6) = m ((c : Thread nD τ).loc main_arg6) :=
  (W2_of_ne m ρ c main_arg6 (by decide)).trans (w1_a6 m ρ c)
theorem w2_a7 : W2 m ρ c (Proc.devRef .tc main_arg7) = m ((c : Thread nD τ).loc main_arg7) :=
  (W2_of_ne m ρ c main_arg7 (by decide)).trans (w1_a7 m ρ c)
theorem w2_a8 : W2 m ρ c (Proc.devRef .tc main_arg8) = m ((c : Thread nD τ).loc main_arg8) :=
  (W2_of_ne m ρ c main_arg8 (by decide)).trans (w1_a8 m ρ c)
theorem w2_a9 : W2 m ρ c (Proc.devRef .tc main_arg9) = m ((c : Thread nD τ).loc main_arg9) :=
  (W2_of_ne m ρ c main_arg9 (by decide)).trans (w1_a9 m ρ c)

/-! ## After the second stretch -/

theorem w3_v41 : W3 m ρ c (Proc.devRef .tc main_v41) = aggr (rowOf (m ((c : Thread nD τ).loc main_arg1))) (colOf (m ((c : Thread nD τ).loc main_arg1))) (norm (m ((c : Thread nD τ).loc main_arg1))) (Cert.Spec.mm (m ((c : Thread nD τ).loc main_arg0) : S100000x128.Idx → Elt Ideal .f32) (m ((c : Thread nD τ).loc main_arg2) : S128x16.Idx → Elt Ideal .f32)) := by
  refine (host1_v41 (W2 m ρ c)).trans ?_
  rw [w2_v1 m ρ c, w2_v3 m ρ c, w2_v28 m ρ c, w2_v29 m ρ c]
theorem w3_v42 : W3 m ρ c (Proc.devRef .tc main_v42) = shapeCast _ (m ((c : Thread nD τ).loc main_arg3)) shapeCasts_S16_S1x16 := by
  refine (host1_v42 (W2 m ρ c)).trans ?_
  rw [w2_a3 m ρ c]
theorem w3_v29 : W3 m ρ c (Proc.devRef .tc main_v29) = (Cert.Spec.mm (m ((c : Thread nD τ).loc main_arg0) : S100000x128.Idx → Elt Ideal .f32) (m ((c : Thread nD τ).loc main_arg2) : S128x16.Idx → Elt Ideal .f32)) :=
  (host1_v29 (W2 m ρ c)).trans (w2_v29 m ρ c)
theorem w3_v12 : W3 m ρ c (Proc.devRef .tc main_v12) = dinv2 (m ((c : Thread nD τ).loc main_arg1)) :=
  (host1_v12 (W2 m ρ c)).trans (w2_v12 m ρ c)
theorem w3_v1 : W3 m ρ c (Proc.devRef .tc main_v1) = rowOf (m ((c : Thread nD τ).loc main_arg1)) :=
  (host1_v1 (W2 m ρ c)).trans (w2_v1 m ρ c)
theorem w3_v3 : W3 m ρ c (Proc.devRef .tc main_v3) = colOf (m ((c : Thread nD τ).loc main_arg1)) :=
  (host1_v3 (W2 m ρ c)).trans (w2_v3 m ρ c)
theorem w3_v28 : W3 m ρ c (Proc.devRef .tc main_v28) = norm (m ((c : Thread nD τ).loc main_arg1)) :=
  (host1_v28 (W2 m ρ c)).trans (w2_v28 m ρ c)
theorem w3_a4 : W3 m ρ c (Proc.devRef .tc main_arg4) = m ((c : Thread nD τ).loc main_arg4) :=
  (host1_arg4 (W2 m ρ c)).trans (w2_a4 m ρ c)
theorem w3_a5 : W3 m ρ c (Proc.devRef .tc main_arg5) = m ((c : Thread nD τ).loc main_arg5) :=
  (host1_arg5 (W2 m ρ c)).trans (w2_a5 m ρ c)
theorem w3_a6 : W3 m ρ c (Proc.devRef .tc main_arg6) = m ((c : Thread nD τ).loc main_arg6) :=
  (host1_arg6 (W2 m ρ c)).trans (w2_a6 m ρ c)
theorem w3_a7 : W3 m ρ c (Proc.devRef .tc main_arg7) = m ((c : Thread nD τ).loc main_arg7) :=
  (host1_arg7 (W2 m ρ c)).trans (w2_a7 m ρ c)
theorem w3_a8 : W3 m ρ c (Proc.devRef .tc main_arg8) = m ((c : Thread nD τ).loc main_arg8) :=
  (host1_arg8 (W2 m ρ c)).trans (w2_a8 m ρ c)
theorem w3_a9 : W3 m ρ c (Proc.devRef .tc main_arg9) = m ((c : Thread nD τ).loc main_arg9) :=
  (host1_arg9 (W2 m ρ c)).trans (w2_a9 m ρ c)

/-! ## After the first combine -/

theorem w4_v43 : W4 m ρ c (Proc.devRef .tc main_v43) = (conv (m ((c : Thread nD τ).loc main_arg1)) (Cert.Spec.mm (m ((c : Thread nD τ).loc main_arg0) : S100000x128.Idx → Elt Ideal .f32) (m ((c : Thread nD τ).loc main_arg2) : S128x16.Idx → Elt Ideal .f32)) (m ((c : Thread nD τ).loc main_arg3))) := by
  refine (W4_arr m ρ c 4).trans ((final1 (V3 m ρ) c).trans ?_)
  show Cert.Spec.comb (W3 m ρ c (Proc.devRef .tc main_v41) : S100000x16.Idx → Elt Ideal .f32) (W3 m ρ c (Proc.devRef .tc main_v29) : S100000x16.Idx → Elt Ideal .f32)
    (W3 m ρ c (Proc.devRef .tc main_v12) : S100000x1.Idx → Elt Ideal .f32) (W3 m ρ c (Proc.devRef .tc main_v42) : S1x16.Idx → Elt Ideal .f32) = _
  rw [w3_v41 m ρ c, w3_v29 m ρ c, w3_v12 m ρ c, w3_v42 m ρ c]
  rfl
theorem w4_v12 : W4 m ρ c (Proc.devRef .tc main_v12) = dinv2 (m ((c : Thread nD τ).loc main_arg1)) :=
  ((W4_arr m ρ c 2).trans (((dat1 (V3 m ρ) c).arrAt_in 2 rfl _).trans (A_eq1 (V3 m ρ) c 2))).trans (w3_v12 m ρ c)
theorem w4_v1 : W4 m ρ c (Proc.devRef .tc main_v1) = rowOf (m ((c : Thread nD τ).loc main_arg1)) :=
  (W4_of_ne m ρ c main_v1 (by decide)).trans (w3_v1 m ρ c)
theorem w4_v3 : W4 m ρ c (Proc.devRef .tc main_v3) = colOf (m ((c : Thread nD τ).loc main_arg1)) :=
  (W4_of_ne m ρ c main_v3 (by decide)).trans (w3_v3 m ρ c)
theorem w4_v28 : W4 m ρ c (Proc.devRef .tc main_v28) = norm (m ((c : Thread nD τ).loc main_arg1)) :=
  (W4_of_ne m ρ c main_v28 (by decide)).trans (w3_v28 m ρ c)
theorem w4_a4 : W4 m ρ c (Proc.devRef .tc main_arg4) = m ((c : Thread nD τ).loc main_arg4) :=
  (W4_of_ne m ρ c main_arg4 (by decide)).trans (w3_a4 m ρ c)
theorem w4_a5 : W4 m ρ c (Proc.devRef .tc main_arg5) = m ((c : Thread nD τ).loc main_arg5) :=
  (W4_of_ne m ρ c main_arg5 (by decide)).trans (w3_a5 m ρ c)
theorem w4_a6 : W4 m ρ c (Proc.devRef .tc main_arg6) = m ((c : Thread nD τ).loc main_arg6) :=
  (W4_of_ne m ρ c main_arg6 (by decide)).trans (w3_a6 m ρ c)
theorem w4_a7 : W4 m ρ c (Proc.devRef .tc main_arg7) = m ((c : Thread nD τ).loc main_arg7) :=
  (W4_of_ne m ρ c main_arg7 (by decide)).trans (w3_a7 m ρ c)
theorem w4_a8 : W4 m ρ c (Proc.devRef .tc main_arg8) = m ((c : Thread nD τ).loc main_arg8) :=
  (W4_of_ne m ρ c main_arg8 (by decide)).trans (w3_a8 m ρ c)
theorem w4_a9 : W4 m ρ c (Proc.devRef .tc main_arg9) = m ((c : Thread nD τ).loc main_arg9) :=
  (W4_of_ne m ρ c main_arg9 (by decide)).trans (w3_a9 m ρ c)

/-! ## After the second product -/

theorem w5_v44 : W5 m ρ c (Proc.devRef .tc main_v44) = (Cert.Spec.mm (conv (m ((c : Thread nD τ).loc main_arg1)) (Cert.Spec.mm (m ((c : Thread nD τ).loc main_arg0) : S100000x128.Idx → Elt Ideal .f32) (m ((c : Thread nD τ).loc main_arg2) : S128x16.Idx → Elt Ideal .f32)) (m ((c : Thread nD τ).loc main_arg3)) : S100000x16.Idx → Elt Ideal .f32) (m ((c : Thread nD τ).loc main_arg4) : S16x16.Idx → Elt Ideal .f32)) :=
  (W5_arr m ρ c 2).trans ((final2 (V4 m ρ) c).trans (congrArg₂ Cert.Spec.mm (w4_v43 m ρ c) (w4_a4 m ρ c)))
theorem w5_v1 : W5 m ρ c (Proc.devRef .tc main_v1) = rowOf (m ((c : Thread nD τ).loc main_arg1)) :=
  (W5_of_ne m ρ c main_v1 (by decide)).trans (w4_v1 m ρ c)
theorem w5_v3 : W5 m ρ c (Proc.devRef .tc main_v3) = colOf (m ((c : Thread nD τ).loc main_arg1)) :=
  (W5_of_ne m ρ c main_v3 (by decide)).trans (w4_v3 m ρ c)
theorem w5_v12 : W5 m ρ c (Proc.devRef .tc main_v12) = dinv2 (m ((c : Thread nD τ).loc main_arg1)) :=
  (W5_of_ne m ρ c main_v12 (by decide)).trans (w4_v12 m ρ c)
theorem w5_v28 : W5 m ρ c (Proc.devRef .tc main_v28) = norm (m ((c : Thread nD τ).loc main_arg1)) :=
  (W5_of_ne m ρ c main_v28 (by decide)).trans (w4_v28 m ρ c)
theorem w5_a5 : W5 m ρ c (Proc.devRef .tc main_arg5) = m ((c : Thread nD τ).loc main_arg5) :=
  (W5_of_ne m ρ c main_arg5 (by decide)).trans (w4_a5 m ρ c)
theorem w5_a6 : W5 m ρ c (Proc.devRef .tc main_arg6) = m ((c : Thread nD τ).loc main_arg6) :=
  (W5_of_ne m ρ c main_arg6 (by decide)).trans (w4_a6 m ρ c)
theorem w5_a7 : W5 m ρ c (Proc.devRef .tc main_arg7) = m ((c : Thread nD τ).loc main_arg7) :=
  (W5_of_ne m ρ c main_arg7 (by decide)).trans (w4_a7 m ρ c)
theorem w5_a8 : W5 m ρ c (Proc.devRef .tc main_arg8) = m ((c : Thread nD τ).loc main_arg8) :=
  (W5_of_ne m ρ c main_arg8 (by decide)).trans (w4_a8 m ρ c)
theorem w5_a9 : W5 m ρ c (Proc.devRef .tc main_arg9) = m ((c : Thread nD τ).loc main_arg9) :=
  (W5_of_ne m ρ c main_arg9 (by decide)).trans (w4_a9 m ρ c)

/-! ## After the third stretch -/

theorem w6_v56 : W6 m ρ c (Proc.devRef .tc main_v56) = aggr (rowOf (m ((c : Thread nD τ).loc main_arg1))) (colOf (m ((c : Thread nD τ).loc main_arg1))) (norm (m ((c : Thread nD τ).loc main_arg1))) (Cert.Spec.mm (conv (m ((c : Thread nD τ).loc main_arg1)) (Cert.Spec.mm (m ((c : Thread nD τ).loc main_arg0) : S100000x128.Idx → Elt Ideal .f32) (m ((c : Thread nD τ).loc main_arg2) : S128x16.Idx → Elt Ideal .f32)) (m ((c : Thread nD τ).loc main_arg3)) : S100000x16.Idx → Elt Ideal .f32) (m ((c : Thread nD τ).loc main_arg4) : S16x16.Idx → Elt Ideal .f32)) := by
  refine (host3_v56 (W5 m ρ c)).trans ?_
  rw [w5_v1 m ρ c, w5_v3 m ρ c, w5_v28 m ρ c, w5_v44 m ρ c]
theorem w6_v57 : W6 m ρ c (Proc.devRef .tc main_v57) = shapeCast _ (m ((c : Thread nD τ).loc main_arg5)) shapeCasts_S16_S1x16 := by
  refine (host3_v57 (W5 m ρ c)).trans ?_
  rw [w5_a5 m ρ c]
theorem w6_v44 : W6 m ρ c (Proc.devRef .tc main_v44) = (Cert.Spec.mm (conv (m ((c : Thread nD τ).loc main_arg1)) (Cert.Spec.mm (m ((c : Thread nD τ).loc main_arg0) : S100000x128.Idx → Elt Ideal .f32) (m ((c : Thread nD τ).loc main_arg2) : S128x16.Idx → Elt Ideal .f32)) (m ((c : Thread nD τ).loc main_arg3)) : S100000x16.Idx → Elt Ideal .f32) (m ((c : Thread nD τ).loc main_arg4) : S16x16.Idx → Elt Ideal .f32)) :=
  (host3_v44 (W5 m ρ c)).trans (w5_v44 m ρ c)
theorem w6_v12 : W6 m ρ c (Proc.devRef .tc main_v12) = dinv2 (m ((c : Thread nD τ).loc main_arg1)) :=
  (host3_v12 (W5 m ρ c)).trans (w5_v12 m ρ c)
theorem w6_v1 : W6 m ρ c (Proc.devRef .tc main_v1) = rowOf (m ((c : Thread nD τ).loc main_arg1)) :=
  (host3_v1 (W5 m ρ c)).trans (w5_v1 m ρ c)
theorem w6_v3 : W6 m ρ c (Proc.devRef .tc main_v3) = colOf (m ((c : Thread nD τ).loc main_arg1)) :=
  (host3_v3 (W5 m ρ c)).trans (w5_v3 m ρ c)
theorem w6_a6 : W6 m ρ c (Proc.devRef .tc main_arg6) = m ((c : Thread nD τ).loc main_arg6) :=
  (host3_arg6 (W5 m ρ c)).trans (w5_a6 m ρ c)
theorem w6_a7 : W6 m ρ c (Proc.devRef .tc main_arg7) = m ((c : Thread nD τ).loc main_arg7) :=
  (host3_arg7 (W5 m ρ c)).trans (w5_a7 m ρ c)
theorem w6_a8 : W6 m ρ c (Proc.devRef .tc main_arg8) = m ((c : Thread nD τ).loc main_arg8) :=
  (host3_arg8 (W5 m ρ c)).trans (w5_a8 m ρ c)
theorem w6_a9 : W6 m ρ c (Proc.devRef .tc main_arg9) = m ((c : Thread nD τ).loc main_arg9) :=
  (host3_arg9 (W5 m ρ c)).trans (w5_a9 m ρ c)

/-! ## After the second combine -/

theorem w7_v58 : W7 m ρ c (Proc.devRef .tc main_v58) = (conv (m ((c : Thread nD τ).loc main_arg1)) (Cert.Spec.mm (conv (m ((c : Thread nD τ).loc main_arg1)) (Cert.Spec.mm (m ((c : Thread nD τ).loc main_arg0) : S100000x128.Idx → Elt Ideal .f32) (m ((c : Thread nD τ).loc main_arg2) : S128x16.Idx → Elt Ideal .f32)) (m ((c : Thread nD τ).loc main_arg3)) : S100000x16.Idx → Elt Ideal .f32) (m ((c : Thread nD τ).loc main_arg4) : S16x16.Idx → Elt Ideal .f32)) (m ((c : Thread nD τ).loc main_arg5))) := by
  refine (W7_arr m ρ c 4).trans ((final3 (V6 m ρ) c).trans ?_)
  show Cert.Spec.comb (W6 m ρ c (Proc.devRef .tc main_v56) : S100000x16.Idx → Elt Ideal .f32) (W6 m ρ c (Proc.devRef .tc main_v44) : S100000x16.Idx → Elt Ideal .f32)
    (W6 m ρ c (Proc.devRef .tc main_v12) : S100000x1.Idx → Elt Ideal .f32) (W6 m ρ c (Proc.devRef .tc main_v57) : S1x16.Idx → Elt Ideal .f32) = _
  rw [w6_v56 m ρ c, w6_v44 m ρ c, w6_v12 m ρ c, w6_v57 m ρ c]
  rfl
theorem w7_v1 : W7 m ρ c (Proc.devRef .tc main_v1) = rowOf (m ((c : Thread nD τ).loc main_arg1)) :=
  (W7_of_ne m ρ c main_v1 (by decide)).trans (w6_v1 m ρ c)
theorem w7_v3 : W7 m ρ c (Proc.devRef .tc main_v3) = colOf (m ((c : Thread nD τ).loc main_arg1)) :=
  (W7_of_ne m ρ c main_v3 (by decide)).trans (w6_v3 m ρ c)
theorem w7_a6 : W7 m ρ c (Proc.devRef .tc main_arg6) = m ((c : Thread nD τ).loc main_arg6) :=
  (W7_of_ne m ρ c main_arg6 (by decide)).trans (w6_a6 m ρ c)
theorem w7_a7 : W7 m ρ c (Proc.devRef .tc main_arg7) = m ((c : Thread nD τ).loc main_arg7) :=
  (W7_of_ne m ρ c main_arg7 (by decide)).trans (w6_a7 m ρ c)
theorem w7_a8 : W7 m ρ c (Proc.devRef .tc main_arg8) = m ((c : Thread nD τ).loc main_arg8) :=
  (W7_of_ne m ρ c main_arg8 (by decide)).trans (w6_a8 m ρ c)
theorem w7_a9 : W7 m ρ c (Proc.devRef .tc main_arg9) = m ((c : Thread nD τ).loc main_arg9) :=
  (W7_of_ne m ρ c main_arg9 (by decide)).trans (w6_a9 m ρ c)

/-! ## After the last stretch, and the result -/

theorem w8_v73 : W8 m ρ c (Proc.devRef .tc main_v73) = edgeFeat (rowOf (m ((c : Thread nD τ).loc main_arg1))) (colOf (m ((c : Thread nD τ).loc main_arg1))) (conv (m ((c : Thread nD τ).loc main_arg1)) (Cert.Spec.mm (conv (m ((c : Thread nD τ).loc main_arg1)) (Cert.Spec.mm (m ((c : Thread nD τ).loc main_arg0) : S100000x128.Idx → Elt Ideal .f32) (m ((c : Thread nD τ).loc main_arg2) : S128x16.Idx → Elt Ideal .f32)) (m ((c : Thread nD τ).loc main_arg3)) : S100000x16.Idx → Elt Ideal .f32) (m ((c : Thread nD τ).loc main_arg4) : S16x16.Idx → Elt Ideal .f32)) (m ((c : Thread nD τ).loc main_arg5))) := by
  refine (host4_v73 (W7 m ρ c)).trans ?_
  rw [w7_v1 m ρ c, w7_v3 m ρ c, w7_v58 m ρ c]
theorem w8_v74 : W8 m ρ c (Proc.devRef .tc main_v74) = shapeCast _ (m ((c : Thread nD τ).loc main_arg7)) shapeCasts_S16_S1x16 := by
  refine (host4_v74 (W7 m ρ c)).trans ?_
  rw [w7_a7 m ρ c]
theorem w8_v75 : W8 m ρ c (Proc.devRef .tc main_v75) = shapeCast _ (m ((c : Thread nD τ).loc main_arg9)) shapeCasts_S2_S1x2 := by
  refine (host4_v75 (W7 m ρ c)).trans ?_
  rw [w7_a9 m ρ c]
theorem w8_a6 : W8 m ρ c (Proc.devRef .tc main_arg6) = m ((c : Thread nD τ).loc main_arg6) :=
  (host4_arg6 (W7 m ρ c)).trans (w7_a6 m ρ c)
theorem w8_a8 : W8 m ρ c (Proc.devRef .tc main_arg8) = m ((c : Thread nD τ).loc main_arg8) :=
  (host4_arg8 (W7 m ρ c)).trans (w7_a8 m ρ c)

/-- The result buffer at the end holds the network's value of the arguments as launched. -/
theorem w9_v76 : W9 m ρ c (Proc.devRef .tc main_v76)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W9_arr m ρ c 5).trans ((final4 (V8 m ρ) c).trans ?_)
  show Cert.Spec.mlp (W8 m ρ c (Proc.devRef .tc main_v73) : S3200000x32.Idx → Elt Ideal .f32) (W8 m ρ c (Proc.devRef .tc main_arg6) : S32x16.Idx → Elt Ideal .f32)
    (W8 m ρ c (Proc.devRef .tc main_v74) : S1x16.Idx → Elt Ideal .f32) (W8 m ρ c (Proc.devRef .tc main_arg8) : S16x2.Idx → Elt Ideal .f32)
    (W8 m ρ c (Proc.devRef .tc main_v75) : S1x2.Idx → Elt Ideal .f32) = _
  rw [w8_v73 m ρ c, w8_a6 m ρ c, w8_v74 m ρ c, w8_a8 m ρ c, w8_v75 m ρ c]
  rfl

/-- The idealized kernel's run: it terminates without a fault, the result at the network's value of the arguments,
    the arguments unchanged. -/
theorem run : θ_run defs (onTc (τ := τ) (main (F := Ideal))) ⟨m, fun _ => 0, ρ⟩ (fun r => ∀ c : Dev nD,
      r.2.mem ((c.tc : Thread nD τ).loc main_v76) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (w9_v76 m ρ c), (h c).2⟩) (run_result m ρ)

end Cert.KernelIdeal.Hand

end
-- ==== Proof.RefDefs.lean ====
/-
  The reference program's stages, as functions of what they read.

  The reference recomputes, for each graph convolution, the edges' endpoints, the degrees and the normalisation from the
  edge list; the functions below are those computations spelt as the reference spells them: the endpoints (`rowOf`,
  `colOf`), an index wrapped into range (`wrapIdx`), `deg^(-1/2)` per node (`dinv`), the per-edge weight (`normOf`), one
  graph convolution with its rectifier after the linear map `hw` (`conv`), the two endpoint rows of every edge side by
  side (`edgeFeat`), and the edge classifier with the logarithm of the softmax (`logSoftmaxOf`, `tail`).
-/
import proofs.«145413_j67551245631648_2_alg».proof.ReferenceIdeal
import proofs.«145413_j67551245631648_2_alg».proof.Proof.Gen.ReferenceIdeal

set_option maxRecDepth 16384

noncomputable section

open Idealize.ShloMosaic Idealize.ShloMosaic.TcCoe

namespace Cert.ReferenceIdeal.Hand

open Cert.ReferenceIdeal Cert.ReferenceIdeal.Gen

variable {F : FTy → Type} [FloatOps F]

/-- The source node of every edge. -/
def rowOf (e : (⟨S2x3200000, .i32⟩ : BufTy).Contents (Elt F)) : (⟨S3200000, .i32⟩ : BufTy).Contents (Elt F) :=
  shapeCast _ (extractStridedSlice S1x3200000 ![0, 0] e slices_S2x3200000_S1x3200000_0_0) shapeCasts_S1x3200000_S3200000

/-- The target node of every edge. -/
def colOf (e : (⟨S2x3200000, .i32⟩ : BufTy).Contents (Elt F)) : (⟨S3200000, .i32⟩ : BufTy).Contents (Elt F) :=
  shapeCast _ (extractStridedSlice S1x3200000 ![1, 0] e slices_S2x3200000_S1x3200000_1_0) shapeCasts_S1x3200000_S3200000

/-- A node index with a negative one wrapped by the number of nodes, as a column of start indices. -/
def wrapIdx (r : (⟨S3200000, .i32⟩ : BufTy).Contents (Elt F)) : (⟨S3200000x1, .i32⟩ : BufTy).Contents (Elt F) :=
  broadcastInDim S3200000x1 ![0] bcast_S3200000_S3200000x1_0
    (select (cmpi .slt r (broadcastInDim S3200000 ![] bcast_S_S3200000 (constantI S_ 32 0#32)))
      (addi r (broadcastInDim S3200000 ![] bcast_S_S3200000 (constantI S_ 32 100000#32))) r)

/-- Every node's `deg^(-1/2)`, the degree counting the edges that arrive at the node and one more. -/
def dinv (e : (⟨S2x3200000, .i32⟩ : BufTy).Contents (Elt F)) : (⟨S100000, .f32⟩ : BufTy).Contents (Elt F) :=
  Host.rsqrt (addf
    (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 (colOf e))
      (broadcastInDim S3200000 ![] bcast_S_S3200000 (constant (F := F) S_ .f32 0x3F800000#32)))
    (broadcastInDim S100000 ![] bcast_S_S100000 (constant (F := F) S_ .f32 0x3F800000#32)))

/-- The weight of every edge. -/
def normOf (e : (⟨S2x3200000, .i32⟩ : BufTy).Contents (Elt F)) : (⟨S3200000, .f32⟩ : BufTy).Contents (Elt F) :=
  mulf (Host.gather gather_S100000_S3200000x1_S3200000_n_0_n_n_0_1_1 (dinv e) (wrapIdx (rowOf e)))
    (Host.gather gather_S100000_S3200000x1_S3200000_n_0_n_n_0_1_1 (dinv e) (wrapIdx (colOf e)))

/-- One graph convolution after its linear map `hw`: the weighted rows of the edges' sources added up at their targets,
    the node's own row scaled by the squared normalisation, the bias, the rectifier. -/
def conv (e : (⟨S2x3200000, .i32⟩ : BufTy).Contents (Elt F)) (hw : (⟨S100000x16, .f32⟩ : BufTy).Contents (Elt F))
    (b : (⟨S16, .f32⟩ : BufTy).Contents (Elt F)) : (⟨S100000x16, .f32⟩ : BufTy).Contents (Elt F) :=
  maximumf
    (addf
      (addf
        (Host.scatterAdd scatter_S100000x16_S3200000x1_S3200000x16_1_0_0_1
          (broadcastInDim S100000x16 ![] bcast_S_S100000x16 (constant (F := F) S_ .f32 0x00000000#32))
          (broadcastInDim S3200000x1 ![0] bcast_S3200000_S3200000x1_0 (colOf e))
          (mulf (Host.gather gather_S100000x16_S3200000x1_S3200000x16_1_0_n_n_0_1_116 hw (wrapIdx (rowOf e)))
            (broadcastInDim S3200000x16 ![0, 1] bcast_S3200000x1_S3200000x16_0_1
              (broadcastInDim S3200000x1 ![0] bcast_S3200000_S3200000x1_0 (normOf e)))))
        (mulf hw (broadcastInDim S100000x16 ![0, 1] bcast_S100000x1_S100000x16_0_1
          (broadcastInDim S100000x1 ![0] bcast_S100000_S100000x1_0 (mulf (dinv e) (dinv e))))))
      (broadcastInDim S100000x16 ![0, 1] bcast_S1x16_S100000x16_0_1 (broadcastInDim S1x16 ![1] bcast_S16_S1x16_1 b)))
    (broadcastInDim S100000x16 ![] bcast_S_S100000x16 (constant (F := F) S_ .f32 0x00000000#32))

/-- The two endpoint rows of every edge, side by side. -/
def edgeFeat (e : (⟨S2x3200000, .i32⟩ : BufTy).Contents (Elt F)) (h : (⟨S100000x16, .f32⟩ : BufTy).Contents (Elt F)) :
    (⟨S3200000x32, .f32⟩ : BufTy).Contents (Elt F) :=
  concatenate S3200000x32 1
    [⟨S3200000x16, Host.gather gather_S100000x16_S3200000x1_S3200000x16_1_0_n_n_0_1_116 h (wrapIdx (rowOf e))⟩,
     ⟨S3200000x16, Host.gather gather_S100000x16_S3200000x1_S3200000x16_1_0_n_n_0_1_116 h (wrapIdx (colOf e))⟩]
    concatenates_S3200000x16_S3200000x16_S3200000x32_d1

/-- The row maximum taken from -∞, repeated along the row. -/
def rowMaxOf (x : (⟨S3200000x2, .f32⟩ : BufTy).Contents (Elt F)) : (⟨S3200000x2, .f32⟩ : BufTy).Contents (Elt F) :=
  broadcastInDim S3200000x2 ![0, 1] bcast_S3200000x1_S3200000x2_0_1
    (broadcastInDim S3200000x1 ![0] bcast_S3200000_S3200000x1_0
      (maximumf (broadcastInDim S3200000 ![] bcast_S_S3200000 (constant (F := F) S_ .f32 0xFF800000#32))
        (Host.reduce FloatOps.maximumf x (constant (F := F) S_ .f32 0xFF800000#32) reducesTo_S3200000x2_S3200000_d1 h_S_)))

/-- The logarithm of the softmax along each row. -/
def logSoftmaxOf (x : (⟨S3200000x2, .f32⟩ : BufTy).Contents (Elt F)) : (⟨S3200000x2, .f32⟩ : BufTy).Contents (Elt F) :=
  subf (subf x (rowMaxOf x))
    (broadcastInDim S3200000x2 ![0, 1] bcast_S3200000x1_S3200000x2_0_1
      (Host.log (broadcastInDim S3200000x1 ![0] bcast_S3200000_S3200000x1_0
        (Host.reduceAdd (Host.exp (subf x (rowMaxOf x))) (constant (F := F) S_ .f32 0x00000000#32)
          reducesTo_S3200000x2_S3200000_d1 h_S_))))

/-- The edge classifier: a hidden layer with bias and rectifier, the logits, the logarithm of their softmax. -/
def tail (ef : (⟨S3200000x32, .f32⟩ : BufTy).Contents (Elt F)) (f1w : (⟨S32x16, .f32⟩ : BufTy).Contents (Elt F))
    (f1b : (⟨S16, .f32⟩ : BufTy).Contents (Elt F)) (f2w : (⟨S16x2, .f32⟩ : BufTy).Contents (Elt F))
    (f2b : (⟨S2, .f32⟩ : BufTy).Contents (Elt F)) : (⟨S3200000x2, .f32⟩ : BufTy).Contents (Elt F) :=
  logSoftmaxOf
    (addf
      (Host.dotGeneral dot_S3200000x16_S16x2_S3200000x2_1_0_0_1_n_n none
        (maximumf
          (addf (Host.dotGeneral dot_S3200000x32_S32x16_S3200000x16_1_0_0_1_n_n none ef f1w)
            (broadcastInDim S3200000x16 ![0, 1] bcast_S1x16_S3200000x16_0_1 (broadcastInDim S1x16 ![1] bcast_S16_S1x16_1 f1b)))
          (broadcastInDim S3200000x16 ![] bcast_S_S3200000x16 (constant (F := F) S_ .f32 0x00000000#32)))
        f2w)
      (broadcastInDim S3200000x2 ![0, 1] bcast_S1x2_S3200000x2_0_1 (broadcastInDim S1x2 ![1] bcast_S2_S1x2_1 f2b)))

/-- The reference network: two graph convolutions, then the edge classifier. -/
def value (x : (⟨S100000x128, .f32⟩ : BufTy).Contents (Elt F)) (e : (⟨S2x3200000, .i32⟩ : BufTy).Contents (Elt F))
    (w1 : (⟨S128x16, .f32⟩ : BufTy).Contents (Elt F)) (b1 : (⟨S16, .f32⟩ : BufTy).Contents (Elt F))
    (w2 : (⟨S16x16, .f32⟩ : BufTy).Contents (Elt F)) (b2 : (⟨S16, .f32⟩ : BufTy).Contents (Elt F))
    (f1w : (⟨S32x16, .f32⟩ : BufTy).Contents (Elt F)) (f1b : (⟨S16, .f32⟩ : BufTy).Contents (Elt F))
    (f2w : (⟨S16x2, .f32⟩ : BufTy).Contents (Elt F)) (f2b : (⟨S2, .f32⟩ : BufTy).Contents (Elt F)) :
    (⟨S3200000x2, .f32⟩ : BufTy).Contents (Elt F) :=
  tail (edgeFeat e (conv e (Host.dotGeneral dot_S100000x16_S16x16_S100000x16_1_0_0_1_n_n none
      (conv e (Host.dotGeneral dot_S100000x128_S128x16_S100000x16_1_0_0_1_n_n none x w1) b1) w2) b2))
    f1w f1b f2w f2b

end Cert.ReferenceIdeal.Hand

end
-- ==== Proof.RefStages.lean ====
/-
  The idealized reference's run, read.

  @main is a straight line of 171 host operations, so every weakly fair execution terminates with each buffer at the fold
  of the operations over the launch contents. The fold is evaluated in three parts — the first graph convolution, the
  second, the edge classifier —: each part, run from any buffer contents, leaves its stage's function (RefDefs) of the
  buffers it reads in the buffer it ends with, and leaves the arguments it does not write as they were.
-/
import proofs.«145413_j67551245631648_2_alg».proof.Proof.RefRun
import proofs.«145413_j67551245631648_2_alg».proof.Proof.RefDefs
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.Hand

open Cert.ReferenceIdeal Cert.ReferenceIdeal.Gen Cert.ReferenceIdeal.Value

variable {F : FTy → Type} [FloatOps F]

/-- Every weakly fair execution of @main terminates with each TensorCore buffer at the fold of the operations' results
    over its launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after (ops (F := F)) (launchContents m c) (Proc.devRef .tc b) :=
  run_seq scopedRefs_eq scopedSems_eq defs main (fun _ => ops) main_eq (fun _ => ops_sub) m ρ

/-- Running one list of operations after another is running their concatenation. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- Contents carried to a buffer's type and back are the contents. -/
theorem ofBuf_toBuf' {T : BufTy} (x : TRef sig T) (v : T.Contents (Elt F)) : x.ofBuf (x.toBuf v) = v := by
  obtain ⟨r, h, _, _⟩ := x
  subst h
  rfl

/-! ## The parts of @main -/

/-- The first graph convolution: operations 1 … 61, ending with its rectifier's result. -/
abbrev partA : List (HloOp τ sig (Elt F)) :=
  [ binary main_arg0 main_arg2 main_v0 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    unary main_arg1 main_v3 ((extractStridedSlice S1x3200000 ![1, 0] · slices_S2x3200000_S1x3200000_1_0) : (⟨S2x3200000, .i32⟩ : BufTy).Contents (Elt F) → (⟨S1x3200000, .i32⟩ : BufTy).Contents (Elt F)),
    reshape main_v3 main_v4 rfl shapeCasts_S1x3200000_S3200000,
    nullary main_cst (constant S_ .f32 0x3F800000#32),
    unary main_cst main_v5 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v4 main_v7 (broadcastInDim S3200000x1 ![0] bcast_S3200000_S3200000x1_0 : (⟨S3200000, .i32⟩ : BufTy).Contents (Elt F) → (⟨S3200000x1, .i32⟩ : BufTy).Contents (Elt F)),
    ternary main_v6 main_v7 main_v5 main_v8 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)),
    nullary main_c (constantI S_ 32 0#32),
    unary main_c main_v12 (broadcastInDim S3200000 ![] bcast_S_S3200000 : (⟨S_, .i32⟩ : BufTy).Contents (Elt F) → (⟨S3200000, .i32⟩ : BufTy).Contents (Elt F)),
    binary main_v2 main_v12 main_v13 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v14 (broadcastInDim S3200000 ![] bcast_S_S3200000 : (⟨S_, .i32⟩ : BufTy).Contents (Elt F) → (⟨S3200000, .i32⟩ : BufTy).Contents (Elt F)),
    binary main_v2 main_v14 main_v15 (addi : (⟨S3200000, .i32⟩ : BufTy).Contents (Elt F) → (⟨S3200000, .i32⟩ : BufTy).Contents (Elt F) → (⟨S3200000, .i32⟩ : BufTy).Contents (Elt F)),
    ternary main_v13 main_v15 main_v2 main_v16 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v16 main_v17 (broadcastInDim S3200000x1 ![0] bcast_S3200000_S3200000x1_0 : (⟨S3200000, .i32⟩ : BufTy).Contents (Elt F) → (⟨S3200000x1, .i32⟩ : BufTy).Contents (Elt F)),
    binary main_v11 main_v17 main_v18 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_3 (constantI S_ 32 0#32),
    unary main_c_3 main_v19 (broadcastInDim S3200000 ![] bcast_S_S3200000 : (⟨S_, .i32⟩ : BufTy).Contents (Elt F) → (⟨S3200000, .i32⟩ : BufTy).Contents (Elt F)),
    binary main_v4 main_v19 main_v20 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v21 (broadcastInDim S3200000 ![] bcast_S_S3200000 : (⟨S_, .i32⟩ : BufTy).Contents (Elt F) → (⟨S3200000, .i32⟩ : BufTy).Contents (Elt F)),
    binary main_v4 main_v21 main_v22 (addi : (⟨S3200000, .i32⟩ : BufTy).Contents (Elt F) → (⟨S3200000, .i32⟩ : BufTy).Contents (Elt F) → (⟨S3200000, .i32⟩ : BufTy).Contents (Elt F)),
    ternary main_v20 main_v22 main_v4 main_v23 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v23 main_v24 (broadcastInDim S3200000x1 ![0] bcast_S3200000_S3200000x1_0 : (⟨S3200000, .i32⟩ : BufTy).Contents (Elt F) → (⟨S3200000x1, .i32⟩ : BufTy).Contents (Elt F)),
    binary main_v11 main_v24 main_v25 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v18 main_v25 main_v26 (mulf : (⟨S3200000, .f32⟩ : BufTy).Contents (Elt F) → (⟨S3200000, .f32⟩ : BufTy).Contents (Elt F) → (⟨S3200000, .f32⟩ : BufTy).Contents (Elt F)),
    nullary main_c_5 (constantI S_ 32 0#32),
    unary main_c_5 main_v27 (broadcastInDim S3200000 ![] bcast_S_S3200000 : (⟨S_, .i32⟩ : BufTy).Contents (Elt F) → (⟨S3200000, .i32⟩ : BufTy).Contents (Elt F)),
    binary main_v2 main_v27 main_v28 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v29 (broadcastInDim S3200000 ![] bcast_S_S3200000 : (⟨S_, .i32⟩ : BufTy).Contents (Elt F) → (⟨S3200000, .i32⟩ : BufTy).Contents (Elt F)),
    binary main_v2 main_v29 main_v30 (addi : (⟨S3200000, .i32⟩ : BufTy).Contents (Elt F) → (⟨S3200000, .i32⟩ : BufTy).Contents (Elt F) → (⟨S3200000, .i32⟩ : BufTy).Contents (Elt F)),
    ternary main_v28 main_v30 main_v2 main_v31 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v31 main_v32 (broadcastInDim S3200000x1 ![0] bcast_S3200000_S3200000x1_0 : (⟨S3200000, .i32⟩ : BufTy).Contents (Elt F) → (⟨S3200000x1, .i32⟩ : BufTy).Contents (Elt F)),
    binary main_v0 main_v32 main_v33 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v26 main_v34 (broadcastInDim S3200000x1 ![0] bcast_S3200000_S3200000x1_0 : (⟨S3200000, .f32⟩ : BufTy).Contents (Elt F) → (⟨S3200000x1, .f32⟩ : BufTy).Contents (Elt F)),
    unary main_v34 main_v35 (broadcastInDim S3200000x16 ![0, 1] bcast_S3200000x1_S3200000x16_0_1 : (⟨S3200000x1, .f32⟩ : BufTy).Contents (Elt F) → (⟨S3200000x16, .f32⟩ : BufTy).Contents (Elt F)),
    binary main_v33 main_v35 main_v36 (mulf : (⟨S3200000x16, .f32⟩ : BufTy).Contents (Elt F) → (⟨S3200000x16, .f32⟩ : BufTy).Contents (Elt F) → (⟨S3200000x16, .f32⟩ : BufTy).Contents (Elt F)),
    nullary main_cst_7 (constant S_ .f32 0x00000000#32),
    unary main_cst_7 main_v37 (broadcastInDim S100000x16 ![] bcast_S_S100000x16 : (⟨S_, .f32⟩ : BufTy).Contents (Elt F) → (⟨S100000x16, .f32⟩ : BufTy).Contents (Elt F)),
    unary main_v4 main_v38 (broadcastInDim S3200000x1 ![0] bcast_S3200000_S3200000x1_0 : (⟨S3200000, .i32⟩ : BufTy).Contents (Elt F) → (⟨S3200000x1, .i32⟩ : BufTy).Contents (Elt F)),
    ternary main_v37 main_v38 main_v36 main_v39 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x16 ![0, 1] bcast_S100000x1_S100000x16_0_1 : (⟨S100000x1, .f32⟩ : BufTy).Contents (Elt F) → (⟨S100000x16, .f32⟩ : BufTy).Contents (Elt F)),
    binary main_v0 main_v42 main_v43 (mulf : (⟨S100000x16, .f32⟩ : BufTy).Contents (Elt F) → (⟨S100000x16, .f32⟩ : BufTy).Contents (Elt F) → (⟨S100000x16, .f32⟩ : BufTy).Contents (Elt F)),
    binary main_v39 main_v43 main_v44 (addf : (⟨S100000x16, .f32⟩ : BufTy).Contents (Elt F) → (⟨S100000x16, .f32⟩ : BufTy).Contents (Elt F) → (⟨S100000x16, .f32⟩ : BufTy).Contents (Elt F)),
    unary main_arg3 main_v45 (broadcastInDim S1x16 ![1] bcast_S16_S1x16_1 : (⟨S16, .f32⟩ : BufTy).Contents (Elt F) → (⟨S1x16, .f32⟩ : BufTy).Contents (Elt F)),
    unary main_v45 main_v46 (broadcastInDim S100000x16 ![0, 1] bcast_S1x16_S100000x16_0_1 : (⟨S1x16, .f32⟩ : BufTy).Contents (Elt F) → (⟨S100000x16, .f32⟩ : BufTy).Contents (Elt F)),
    binary main_v44 main_v46 main_v47 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x16, .f32⟩) main_call0_v0) (broadcastInDim S100000x16 ![] bcast_S_S100000x16),
    TRef.binary (TRef.of (T := ⟨S100000x16, .f32⟩) main_v47) (TRef.of (T := ⟨S100000x16, .f32⟩) main_call0_v0) (TRef.of (T := ⟨S100000x16, .f32⟩) main_v48) maximumf ]

/-- The second graph convolution: operations 62 … 122. -/
abbrev partB : List (HloOp τ sig (Elt F)) :=
  [ binary main_v48 main_arg4 main_v49 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    unary main_arg1 main_v52 ((extractStridedSlice S1x3200000 ![1, 0] · slices_S2x3200000_S1x3200000_1_0) : (⟨S2x3200000, .i32⟩ : BufTy).Contents (Elt F) → (⟨S1x3200000, .i32⟩ : BufTy).Contents (Elt F)),
    reshape main_v52 main_v53 rfl shapeCasts_S1x3200000_S3200000,
    nullary main_cst_8 (constant S_ .f32 0x3F800000#32),
    unary main_cst_8 main_v54 (broadcastInDim S3200000 ![] bcast_S_S3200000 : (⟨S_, .f32⟩ : BufTy).Contents (Elt F) → (⟨S3200000, .f32⟩ : BufTy).Contents (Elt F)),
    nullary main_cst_9 (constant S_ .f32 0x00000000#32),
    unary main_cst_9 main_v55 (broadcastInDim S100000 ![] bcast_S_S100000 : (⟨S_, .f32⟩ : BufTy).Contents (Elt F) → (⟨S100000, .f32⟩ : BufTy).Contents (Elt F)),
    unary main_v53 main_v56 (broadcastInDim S3200000x1 ![0] bcast_S3200000_S3200000x1_0 : (⟨S3200000, .i32⟩ : BufTy).Contents (Elt F) → (⟨S3200000x1, .i32⟩ : BufTy).Contents (Elt F)),
    ternary main_v55 main_v56 main_v54 main_v57 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_10 (constant S_ .f32 0x3F800000#32),
    unary main_cst_10 main_v58 (broadcastInDim S100000 ![] bcast_S_S100000 : (⟨S_, .f32⟩ : BufTy).Contents (Elt F) → (⟨S100000, .f32⟩ : BufTy).Contents (Elt F)),
    binary main_v57 main_v58 main_v59 (addf : (⟨S100000, .f32⟩ : BufTy).Contents (Elt F) → (⟨S100000, .f32⟩ : BufTy).Contents (Elt F) → (⟨S100000, .f32⟩ : BufTy).Contents (Elt F)),
    unary main_v59 main_v60 (Host.rsqrt : (⟨S100000, .f32⟩ : BufTy).Contents (Elt F) → (⟨S100000, .f32⟩ : BufTy).Contents (Elt F)),
    nullary main_c_11 (constantI S_ 32 0#32),
    unary main_c_11 main_v61 (broadcastInDim S3200000 ![] bcast_S_S3200000 : (⟨S_, .i32⟩ : BufTy).Contents (Elt F) → (⟨S3200000, .i32⟩ : BufTy).Contents (Elt F)),
    binary main_v51 main_v61 main_v62 (cmpi .slt : (⟨S3200000, .i32⟩ : BufTy).Contents (Elt F) → (⟨S3200000, .i32⟩ : BufTy).Contents (Elt F) → (⟨S3200000, .i1⟩ : BufTy).Contents (Elt F)),
    nullary main_c_12 (constantI S_ 32 100000#32),
    unary main_c_12 main_v63 (broadcastInDim S3200000 ![] bcast_S_S3200000 : (⟨S_, .i32⟩ : BufTy).Contents (Elt F) → (⟨S3200000, .i32⟩ : BufTy).Contents (Elt F)),
    binary main_v51 main_v63 main_v64 (addi : (⟨S3200000, .i32⟩ : BufTy).Contents (Elt F) → (⟨S3200000, .i32⟩ : BufTy).Contents (Elt F) → (⟨S3200000, .i32⟩ : BufTy).Contents (Elt F)),
    ternary main_v62 main_v64 main_v51 main_v65 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v65 main_v66 (broadcastInDim S3200000x1 ![0] bcast_S3200000_S3200000x1_0 : (⟨S3200000, .i32⟩ : BufTy).Contents (Elt F) → (⟨S3200000x1, .i32⟩ : BufTy).Contents (Elt F)),
    binary main_v60 main_v66 main_v67 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_13 (constantI S_ 32 0#32),
    unary main_c_13 main_v68 (broadcastInDim S3200000 ![] bcast_S_S3200000 : (⟨S_, .i32⟩ : BufTy).Contents (Elt F) → (⟨S3200000, .i32⟩ : BufTy).Contents (Elt F)),
    binary main_v53 main_v68 main_v69 (cmpi .slt : (⟨S3200000, .i32⟩ : BufTy).Contents (Elt F) → (⟨S3200000, .i32⟩ : BufTy).Contents (Elt F) → (⟨S3200000, .i1⟩ : BufTy).Contents (Elt F)),
    nullary main_c_14 (constantI S_ 32 100000#32),
    unary main_c_14 main_v70 (broadcastInDim S3200000 ![] bcast_S_S3200000 : (⟨S_, .i32⟩ : BufTy).Contents (Elt F) → (⟨S3200000, .i32⟩ : BufTy).Contents (Elt F)),
    binary main_v53 main_v70 main_v71 (addi : (⟨S3200000, .i32⟩ : BufTy).Contents (Elt F) → (⟨S3200000, .i32⟩ : BufTy).Contents (Elt F) → (⟨S3200000, .i32⟩ : BufTy).Contents (Elt F)),
    ternary main_v69 main_v71 main_v53 main_v72 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v72 main_v73 (broadcastInDim S3200000x1 ![0] bcast_S3200000_S3200000x1_0 : (⟨S3200000, .i32⟩ : BufTy).Contents (Elt F) → (⟨S3200000x1, .i32⟩ : BufTy).Contents (Elt F)),
    binary main_v60 main_v73 main_v74 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v67 main_v74 main_v75 (mulf : (⟨S3200000, .f32⟩ : BufTy).Contents (Elt F) → (⟨S3200000, .f32⟩ : BufTy).Contents (Elt F) → (⟨S3200000, .f32⟩ : BufTy).Contents (Elt F)),
    nullary main_c_15 (constantI S_ 32 0#32),
    unary main_c_15 main_v76 (broadcastInDim S3200000 ![] bcast_S_S3200000 : (⟨S_, .i32⟩ : BufTy).Contents (Elt F) → (⟨S3200000, .i32⟩ : BufTy).Contents (Elt F)),
    binary main_v51 main_v76 main_v77 (cmpi .slt : (⟨S3200000, .i32⟩ : BufTy).Contents (Elt F) → (⟨S3200000, .i32⟩ : BufTy).Contents (Elt F) → (⟨S3200000, .i1⟩ : BufTy).Contents (Elt F)),
    nullary main_c_16 (constantI S_ 32 100000#32),
    unary main_c_16 main_v78 (broadcastInDim S3200000 ![] bcast_S_S3200000 : (⟨S_, .i32⟩ : BufTy).Contents (Elt F) → (⟨S3200000, .i32⟩ : BufTy).Contents (Elt F)),
    binary main_v51 main_v78 main_v79 (addi : (⟨S3200000, .i32⟩ : BufTy).Contents (Elt F) → (⟨S3200000, .i32⟩ : BufTy).Contents (Elt F) → (⟨S3200000, .i32⟩ : BufTy).Contents (Elt F)),
    ternary main_v77 main_v79 main_v51 main_v80 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v80 main_v81 (broadcastInDim S3200000x1 ![0] bcast_S3200000_S3200000x1_0 : (⟨S3200000, .i32⟩ : BufTy).Contents (Elt F) → (⟨S3200000x1, .i32⟩ : BufTy).Contents (Elt F)),
    binary main_v49 main_v81 main_v82 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    unary main_v75 main_v83 (broadcastInDim S3200000x1 ![0] bcast_S3200000_S3200000x1_0 : (⟨S3200000, .f32⟩ : BufTy).Contents (Elt F) → (⟨S3200000x1, .f32⟩ : BufTy).Contents (Elt F)),
    unary main_v83 main_v84 (broadcastInDim S3200000x16 ![0, 1] bcast_S3200000x1_S3200000x16_0_1 : (⟨S3200000x1, .f32⟩ : BufTy).Contents (Elt F) → (⟨S3200000x16, .f32⟩ : BufTy).Contents (Elt F)),
    binary main_v82 main_v84 main_v85 (mulf : (⟨S3200000x16, .f32⟩ : BufTy).Contents (Elt F) → (⟨S3200000x16, .f32⟩ : BufTy).Contents (Elt F) → (⟨S3200000x16, .f32⟩ : BufTy).Contents (Elt F)),
    nullary main_cst_17 (constant S_ .f32 0x00000000#32),
    unary main_cst_17 main_v86 (broadcastInDim S100000x16 ![] bcast_S_S100000x16 : (⟨S_, .f32⟩ : BufTy).Contents (Elt F) → (⟨S100000x16, .f32⟩ : BufTy).Contents (Elt F)),
    unary main_v53 main_v87 (broadcastInDim S3200000x1 ![0] bcast_S3200000_S3200000x1_0 : (⟨S3200000, .i32⟩ : BufTy).Contents (Elt F) → (⟨S3200000x1, .i32⟩ : BufTy).Contents (Elt F)),
    ternary main_v86 main_v87 main_v85 main_v88 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    binary main_v60 main_v60 main_v89 (mulf : (⟨S100000, .f32⟩ : BufTy).Contents (Elt F) → (⟨S100000, .f32⟩ : BufTy).Contents (Elt F) → (⟨S100000, .f32⟩ : BufTy).Contents (Elt F)),
    unary main_v89 main_v90 (broadcastInDim S100000x1 ![0] bcast_S100000_S100000x1_0 : (⟨S100000, .f32⟩ : BufTy).Contents (Elt F) → (⟨S100000x1, .f32⟩ : BufTy).Contents (Elt F)),
    unary main_v90 main_v91 (broadcastInDim S100000x16 ![0, 1] bcast_S100000x1_S100000x16_0_1 : (⟨S100000x1, .f32⟩ : BufTy).Contents (Elt F) → (⟨S100000x16, .f32⟩ : BufTy).Contents (Elt F)),
    binary main_v49 main_v91 main_v92 (mulf : (⟨S100000x16, .f32⟩ : BufTy).Contents (Elt F) → (⟨S100000x16, .f32⟩ : BufTy).Contents (Elt F) → (⟨S100000x16, .f32⟩ : BufTy).Contents (Elt F)),
    binary main_v88 main_v92 main_v93 (addf : (⟨S100000x16, .f32⟩ : BufTy).Contents (Elt F) → (⟨S100000x16, .f32⟩ : BufTy).Contents (Elt F) → (⟨S100000x16, .f32⟩ : BufTy).Contents (Elt F)),
    unary main_arg5 main_v94 (broadcastInDim S1x16 ![1] bcast_S16_S1x16_1 : (⟨S16, .f32⟩ : BufTy).Contents (Elt F) → (⟨S1x16, .f32⟩ : BufTy).Contents (Elt F)),
    unary main_v94 main_v95 (broadcastInDim S100000x16 ![0, 1] bcast_S1x16_S100000x16_0_1 : (⟨S1x16, .f32⟩ : BufTy).Contents (Elt F) → (⟨S100000x16, .f32⟩ : BufTy).Contents (Elt F)),
    binary main_v93 main_v95 main_v96 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v96) (TRef.of (T := ⟨S100000x16, .f32⟩) main_call1_v0) (TRef.of (T := ⟨S100000x16, .f32⟩) main_v97) maximumf ]

/-- The edge classifier's lookups: operations 123 … 144, the two endpoint rows of every edge. -/
abbrev partC1 : List (HloOp τ sig (Elt F)) :=
  [ unary main_arg1 main_v98 ((extractStridedSlice S1x3200000 ![0, 0] · slices_S2x3200000_S1x3200000_0_0) : (⟨S2x3200000, .i32⟩ : BufTy).Contents (Elt F) → (⟨S1x3200000, .i32⟩ : BufTy).Contents (Elt F)),
    reshape main_v98 main_v99 rfl shapeCasts_S1x3200000_S3200000,
    unary main_arg1 main_v100 ((extractStridedSlice S1x3200000 ![1, 0] · slices_S2x3200000_S1x3200000_1_0) : (⟨S2x3200000, .i32⟩ : BufTy).Contents (Elt F) → (⟨S1x3200000, .i32⟩ : BufTy).Contents (Elt F)),
    reshape main_v100 main_v101 rfl shapeCasts_S1x3200000_S3200000,
    nullary main_c_18 (constantI S_ 32 0#32),
    unary main_c_18 main_v102 (broadcastInDim S3200000 ![] bcast_S_S3200000 : (⟨S_, .i32⟩ : BufTy).Contents (Elt F) → (⟨S3200000, .i32⟩ : BufTy).Contents (Elt F)),
    binary main_v99 main_v102 main_v103 (cmpi .slt : (⟨S3200000, .i32⟩ : BufTy).Contents (Elt F) → (⟨S3200000, .i32⟩ : BufTy).Contents (Elt F) → (⟨S3200000, .i1⟩ : BufTy).Contents (Elt F)),
    nullary main_c_19 (constantI S_ 32 100000#32),
    unary main_c_19 main_v104 (broadcastInDim S3200000 ![] bcast_S_S3200000 : (⟨S_, .i32⟩ : BufTy).Contents (Elt F) → (⟨S3200000, .i32⟩ : BufTy).Contents (Elt F)),
    binary main_v99 main_v104 main_v105 (addi : (⟨S3200000, .i32⟩ : BufTy).Contents (Elt F) → (⟨S3200000, .i32⟩ : BufTy).Contents (Elt F) → (⟨S3200000, .i32⟩ : BufTy).Contents (Elt F)),
    ternary main_v103 main_v105 main_v99 main_v106 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v106 main_v107 (broadcastInDim S3200000x1 ![0] bcast_S3200000_S3200000x1_0 : (⟨S3200000, .i32⟩ : BufTy).Contents (Elt F) → (⟨S3200000x1, .i32⟩ : BufTy).Contents (Elt F)),
    binary main_v97 main_v107 main_v108 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    nullary main_c_20 (constantI S_ 32 0#32),
    unary main_c_20 main_v109 (broadcastInDim S3200000 ![] bcast_S_S3200000 : (⟨S_, .i32⟩ : BufTy).Contents (Elt F) → (⟨S3200000, .i32⟩ : BufTy).Contents (Elt F)),
    binary main_v101 main_v109 main_v110 (cmpi .slt : (⟨S3200000, .i32⟩ : BufTy).Contents (Elt F) → (⟨S3200000, .i32⟩ : BufTy).Contents (Elt F) → (⟨S3200000, .i1⟩ : BufTy).Contents (Elt F)),
    nullary main_c_21 (constantI S_ 32 100000#32),
    unary main_c_21 main_v111 (broadcastInDim S3200000 ![] bcast_S_S3200000 : (⟨S_, .i32⟩ : BufTy).Contents (Elt F) → (⟨S3200000, .i32⟩ : BufTy).Contents (Elt F)),
    binary main_v101 main_v111 main_v112 (addi : (⟨S3200000, .i32⟩ : BufTy).Contents (Elt F) → (⟨S3200000, .i32⟩ : BufTy).Contents (Elt F) → (⟨S3200000, .i32⟩ : BufTy).Contents (Elt F)),
    ternary main_v110 main_v112 main_v101 main_v113 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v113 main_v114 (broadcastInDim S3200000x1 ![0] bcast_S3200000_S3200000x1_0 : (⟨S3200000, .i32⟩ : BufTy).Contents (Elt F) → (⟨S3200000x1, .i32⟩ : BufTy).Contents (Elt F)),
    binary main_v97 main_v114 main_v115 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)) ]

/-- The edge classifier proper: operations 145 … 171, from joining the endpoint rows to the logarithm of the softmax. -/
abbrev partC2 : List (HloOp τ sig (Elt F)) :=
  [ binary main_v108 main_v115 main_v116 ((fun a b => concatenate S3200000x32 1 [⟨S3200000x16, a⟩, ⟨S3200000x16, b⟩] concatenates_S3200000x16_S3200000x16_S3200000x32_d1) : (⟨S3200000x16, .f32⟩ : BufTy).Contents (Elt F) → (⟨S3200000x16, .f32⟩ : BufTy).Contents (Elt F) → (⟨S3200000x32, .f32⟩ : BufTy).Contents (Elt F)),
    binary main_v116 main_arg6 main_v117 ((fun l r => Host.dotGeneral dot_S3200000x32_S32x16_S3200000x16_1_0_0_1_n_n none l r) : (⟨S3200000x32, .f32⟩ : BufTy).Contents (Elt F) → (⟨S32x16, .f32⟩ : BufTy).Contents (Elt F) → (⟨S3200000x16, .f32⟩ : BufTy).Contents (Elt F)),
    unary main_arg7 main_v118 (broadcastInDim S1x16 ![1] bcast_S16_S1x16_1 : (⟨S16, .f32⟩ : BufTy).Contents (Elt F) → (⟨S1x16, .f32⟩ : BufTy).Contents (Elt F)),
    unary main_v118 main_v119 (broadcastInDim S3200000x16 ![0, 1] bcast_S1x16_S3200000x16_0_1 : (⟨S1x16, .f32⟩ : BufTy).Contents (Elt F) → (⟨S3200000x16, .f32⟩ : BufTy).Contents (Elt F)),
    binary main_v117 main_v119 main_v120 (addf : (⟨S3200000x16, .f32⟩ : BufTy).Contents (Elt F) → (⟨S3200000x16, .f32⟩ : BufTy).Contents (Elt F) → (⟨S3200000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S3200000x16, .f32⟩) main_call2_v0) (broadcastInDim S3200000x16 ![] bcast_S_S3200000x16),
    TRef.binary (TRef.of (T := ⟨S3200000x16, .f32⟩) main_v120) (TRef.of (T := ⟨S3200000x16, .f32⟩) main_call2_v0) (TRef.of (T := ⟨S3200000x16, .f32⟩) main_v121) maximumf,
    binary main_v121 main_arg8 main_v122 ((fun l r => Host.dotGeneral dot_S3200000x16_S16x2_S3200000x2_1_0_0_1_n_n none l r) : (⟨S3200000x16, .f32⟩ : BufTy).Contents (Elt F) → (⟨S16x2, .f32⟩ : BufTy).Contents (Elt F) → (⟨S3200000x2, .f32⟩ : BufTy).Contents (Elt F)),
    unary main_arg9 main_v123 (broadcastInDim S1x2 ![1] bcast_S2_S1x2_1 : (⟨S2, .f32⟩ : BufTy).Contents (Elt F) → (⟨S1x2, .f32⟩ : BufTy).Contents (Elt F)),
    unary main_v123 main_v124 (broadcastInDim S3200000x2 ![0, 1] bcast_S1x2_S3200000x2_0_1 : (⟨S1x2, .f32⟩ : BufTy).Contents (Elt F) → (⟨S3200000x2, .f32⟩ : BufTy).Contents (Elt F)),
    binary main_v122 main_v124 main_v125 (addf : (⟨S3200000x2, .f32⟩ : BufTy).Contents (Elt F) → (⟨S3200000x2, .f32⟩ : BufTy).Contents (Elt F) → (⟨S3200000x2, .f32⟩ : BufTy).Contents (Elt F)),
    TRef.nullary (TRef.of (T := ⟨S_, .f32⟩) main_call3_cst) (constant S_ .f32 0xFF800000#32),
    TRef.binary (TRef.of (T := ⟨S3200000x2, .f32⟩) main_v125) (TRef.of (T := ⟨S_, .f32⟩) main_call3_cst) (TRef.of (T := ⟨S3200000, .f32⟩) main_call3_v0) (fun x v => Host.reduce FloatOps.maximumf x v reducesTo_S3200000x2_S3200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S3200000, .f32⟩) main_call3_v1) (broadcastInDim S3200000 ![] bcast_S_S3200000),
    TRef.binary (TRef.of (T := ⟨S3200000, .f32⟩) main_call3_v1) (TRef.of (T := ⟨S3200000, .f32⟩) main_call3_v0) (TRef.of (T := ⟨S3200000, .f32⟩) main_call3_v2) maximumf,
    TRef.unary (TRef.of (T := ⟨S3200000, .f32⟩) main_call3_v2) (TRef.of (T := ⟨S3200000x1, .f32⟩) main_call3_v3) (broadcastInDim S3200000x1 ![0] bcast_S3200000_S3200000x1_0),
    TRef.unary (TRef.of (T := ⟨S3200000x1, .f32⟩) main_call3_v3) (TRef.of (T := ⟨S3200000x2, .f32⟩) main_call3_v4) (broadcastInDim S3200000x2 ![0, 1] bcast_S3200000x1_S3200000x2_0_1),
    TRef.binary (TRef.of (T := ⟨S3200000x2, .f32⟩) main_v125) (TRef.of (T := ⟨S3200000x2, .f32⟩) main_call3_v4) (TRef.of (T := ⟨S3200000x2, .f32⟩) main_call3_v5) subf,
    TRef.unary (TRef.of (T := ⟨S3200000x2, .f32⟩) main_call3_v5) (TRef.of (T := ⟨S3200000x2, .f32⟩) main_call3_v6) Host.exp,
    TRef.nullary (TRef.of (T := ⟨S_, .f32⟩) main_call3_cst_1) (constant S_ .f32 0x00000000#32),
    TRef.binary (TRef.of (T := ⟨S3200000x2, .f32⟩) main_call3_v6) (TRef.of (T := ⟨S_, .f32⟩) main_call3_cst_1) (TRef.of (T := ⟨S3200000, .f32⟩) main_call3_v7) (fun x v => Host.reduceAdd x v reducesTo_S3200000x2_S3200000_d1 h_S_),
    TRef.unary (TRef.of (T := ⟨S3200000, .f32⟩) main_call3_v7) (TRef.of (T := ⟨S3200000x1, .f32⟩) main_call3_v8) (broadcastInDim S3200000x1 ![0] bcast_S3200000_S3200000x1_0),
    TRef.unary (TRef.of (T := ⟨S3200000x1, .f32⟩) main_call3_v8) (TRef.of (T := ⟨S3200000x1, .f32⟩) main_call3_v9) Host.log,
    TRef.unary (TRef.of (T := ⟨S3200000x1, .f32⟩) main_call3_v9) (TRef.of (T := ⟨S3200000x2, .f32⟩) main_call3_v10) (broadcastInDim S3200000x2 ![0, 1] bcast_S3200000x1_S3200000x2_0_1),
    TRef.binary (TRef.of (T := ⟨S3200000x2, .f32⟩) main_call3_v5) (TRef.of (T := ⟨S3200000x2, .f32⟩) main_call3_v10) (TRef.of (T := ⟨S3200000x2, .f32⟩) main_v126) subf ]
/-- @main's operations are the four parts in order. -/
theorem ops_parts : (ops : List (HloOp τ sig (Elt F))) = partA ++ (partB ++ (partC1 ++ partC2)) := rfl

/-- Joining the endpoint rows, the hidden layer and the logits: operations 145 … 156. -/
abbrev partC2a : List (HloOp τ sig (Elt F)) :=
  [ binary main_v108 main_v115 main_v116 ((fun a b => concatenate S3200000x32 1 [⟨S3200000x16, a⟩, ⟨S3200000x16, b⟩] concatenates_S3200000x16_S3200000x16_S3200000x32_d1) : (⟨S3200000x16, .f32⟩ : BufTy).Contents (Elt F) → (⟨S3200000x16, .f32⟩ : BufTy).Contents (Elt F) → (⟨S3200000x32, .f32⟩ : BufTy).Contents (Elt F)),
    binary main_v116 main_arg6 main_v117 ((fun l r => Host.dotGeneral dot_S3200000x32_S32x16_S3200000x16_1_0_0_1_n_n none l r) : (⟨S3200000x32, .f32⟩ : BufTy).Contents (Elt F) → (⟨S32x16, .f32⟩ : BufTy).Contents (Elt F) → (⟨S3200000x16, .f32⟩ : BufTy).Contents (Elt F)),
    unary main_arg7 main_v118 (broadcastInDim S1x16 ![1] bcast_S16_S1x16_1 : (⟨S16, .f32⟩ : BufTy).Contents (Elt F) → (⟨S1x16, .f32⟩ : BufTy).Contents (Elt F)),
    unary main_v118 main_v119 (broadcastInDim S3200000x16 ![0, 1] bcast_S1x16_S3200000x16_0_1 : (⟨S1x16, .f32⟩ : BufTy).Contents (Elt F) → (⟨S3200000x16, .f32⟩ : BufTy).Contents (Elt F)),
    binary main_v117 main_v119 main_v120 (addf : (⟨S3200000x16, .f32⟩ : BufTy).Contents (Elt F) → (⟨S3200000x16, .f32⟩ : BufTy).Contents (Elt F) → (⟨S3200000x16, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S3200000x16, .f32⟩) main_call2_v0) (broadcastInDim S3200000x16 ![] bcast_S_S3200000x16),
    TRef.binary (TRef.of (T := ⟨S3200000x16, .f32⟩) main_v120) (TRef.of (T := ⟨S3200000x16, .f32⟩) main_call2_v0) (TRef.of (T := ⟨S3200000x16, .f32⟩) main_v121) maximumf,
    binary main_v121 main_arg8 main_v122 ((fun l r => Host.dotGeneral dot_S3200000x16_S16x2_S3200000x2_1_0_0_1_n_n none l r) : (⟨S3200000x16, .f32⟩ : BufTy).Contents (Elt F) → (⟨S16x2, .f32⟩ : BufTy).Contents (Elt F) → (⟨S3200000x2, .f32⟩ : BufTy).Contents (Elt F)),
    unary main_arg9 main_v123 (broadcastInDim S1x2 ![1] bcast_S2_S1x2_1 : (⟨S2, .f32⟩ : BufTy).Contents (Elt F) → (⟨S1x2, .f32⟩ : BufTy).Contents (Elt F)),
    unary main_v123 main_v124 (broadcastInDim S3200000x2 ![0, 1] bcast_S1x2_S3200000x2_0_1 : (⟨S1x2, .f32⟩ : BufTy).Contents (Elt F) → (⟨S3200000x2, .f32⟩ : BufTy).Contents (Elt F)),
    binary main_v122 main_v124 main_v125 (addf : (⟨S3200000x2, .f32⟩ : BufTy).Contents (Elt F) → (⟨S3200000x2, .f32⟩ : BufTy).Contents (Elt F) → (⟨S3200000x2, .f32⟩ : BufTy).Contents (Elt F)) ]

/-- The logits less their row maximum: operations 157 … 164. -/
abbrev partC2b : List (HloOp τ sig (Elt F)) :=
  [ TRef.nullary (TRef.of (T := ⟨S_, .f32⟩) main_call3_cst) (constant S_ .f32 0xFF800000#32),
    TRef.binary (TRef.of (T := ⟨S3200000x2, .f32⟩) main_v125) (TRef.of (T := ⟨S_, .f32⟩) main_call3_cst) (TRef.of (T := ⟨S3200000, .f32⟩) main_call3_v0) (fun x v => Host.reduce FloatOps.maximumf x v reducesTo_S3200000x2_S3200000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S3200000, .f32⟩) main_call3_v1) (broadcastInDim S3200000 ![] bcast_S_S3200000),
    TRef.binary (TRef.of (T := ⟨S3200000, .f32⟩) main_call3_v1) (TRef.of (T := ⟨S3200000, .f32⟩) main_call3_v0) (TRef.of (T := ⟨S3200000, .f32⟩) main_call3_v2) maximumf,
    TRef.unary (TRef.of (T := ⟨S3200000, .f32⟩) main_call3_v2) (TRef.of (T := ⟨S3200000x1, .f32⟩) main_call3_v3) (broadcastInDim S3200000x1 ![0] bcast_S3200000_S3200000x1_0),
    TRef.unary (TRef.of (T := ⟨S3200000x1, .f32⟩) main_call3_v3) (TRef.of (T := ⟨S3200000x2, .f32⟩) main_call3_v4) (broadcastInDim S3200000x2 ![0, 1] bcast_S3200000x1_S3200000x2_0_1),
    TRef.binary (TRef.of (T := ⟨S3200000x2, .f32⟩) main_v125) (TRef.of (T := ⟨S3200000x2, .f32⟩) main_call3_v4) (TRef.of (T := ⟨S3200000x2, .f32⟩) main_call3_v5) subf ]

/-- The logarithm of the row sums of the exponentials, subtracted: operations 165 … 171. -/
abbrev partC2c : List (HloOp τ sig (Elt F)) :=
  [ TRef.unary (TRef.of (T := ⟨S3200000x2, .f32⟩) main_call3_v5) (TRef.of (T := ⟨S3200000x2, .f32⟩) main_call3_v6) Host.exp,
    TRef.nullary (TRef.of (T := ⟨S_, .f32⟩) main_call3_cst_1) (constant S_ .f32 0x00000000#32),
    TRef.binary (TRef.of (T := ⟨S3200000x2, .f32⟩) main_call3_v6) (TRef.of (T := ⟨S_, .f32⟩) main_call3_cst_1) (TRef.of (T := ⟨S3200000, .f32⟩) main_call3_v7) (fun x v => Host.reduceAdd x v reducesTo_S3200000x2_S3200000_d1 h_S_),
    TRef.unary (TRef.of (T := ⟨S3200000, .f32⟩) main_call3_v7) (TRef.of (T := ⟨S3200000x1, .f32⟩) main_call3_v8) (broadcastInDim S3200000x1 ![0] bcast_S3200000_S3200000x1_0),
    TRef.unary (TRef.of (T := ⟨S3200000x1, .f32⟩) main_call3_v8) (TRef.of (T := ⟨S3200000x1, .f32⟩) main_call3_v9) Host.log,
    TRef.unary (TRef.of (T := ⟨S3200000x1, .f32⟩) main_call3_v9) (TRef.of (T := ⟨S3200000x2, .f32⟩) main_call3_v10) (broadcastInDim S3200000x2 ![0, 1] bcast_S3200000x1_S3200000x2_0_1),
    TRef.binary (TRef.of (T := ⟨S3200000x2, .f32⟩) main_call3_v5) (TRef.of (T := ⟨S3200000x2, .f32⟩) main_call3_v10) (TRef.of (T := ⟨S3200000x2, .f32⟩) main_v126) subf ]
/-- The edge classifier proper is its three steps in order. -/
theorem partC2_parts : (partC2 : List (HloOp τ sig (Elt F))) = partC2a ++ (partC2b ++ partC2c) := rfl

variable (W : Valuation τ sig (Elt F))

/-! ## What each part leaves -/

theorem partA_v48 : after partA W (Proc.devRef .tc main_v48) = conv (W (Proc.devRef .tc main_arg1)) (Host.dotGeneral dot_S100000x128_S128x16_S100000x16_1_0_0_1_n_n none (W (Proc.devRef .tc main_arg0)) (W (Proc.devRef .tc main_arg2))) (W (Proc.devRef .tc main_arg3)) := by
  after_results_simp <;> rfl

theorem partB_v97 : after partB W (Proc.devRef .tc main_v97) = conv (W (Proc.devRef .tc main_arg1)) (Host.dotGeneral dot_S100000x16_S16x16_S100000x16_1_0_0_1_n_n none (W (Proc.devRef .tc main_v48)) (W (Proc.devRef .tc main_arg4))) (W (Proc.devRef .tc main_arg5)) := by
  after_results_simp <;> rfl

theorem partC1_v108 : after partC1 W (Proc.devRef .tc main_v108) = Host.gather gather_S100000x16_S3200000x1_S3200000x16_1_0_n_n_0_1_116 (W (Proc.devRef .tc main_v97)) (wrapIdx (rowOf (W (Proc.devRef .tc main_arg1)))) := by
  after_results_simp <;> rfl

theorem partC1_v115 : after partC1 W (Proc.devRef .tc main_v115) = Host.gather gather_S100000x16_S3200000x1_S3200000x16_1_0_n_n_0_1_116 (W (Proc.devRef .tc main_v97)) (wrapIdx (colOf (W (Proc.devRef .tc main_arg1)))) := by
  after_results_simp <;> rfl

theorem partC2a_v125 : after partC2a W (Proc.devRef .tc main_v125) = (addf
      (Host.dotGeneral dot_S3200000x16_S16x2_S3200000x2_1_0_0_1_n_n none
        (maximumf
          (addf (Host.dotGeneral dot_S3200000x32_S32x16_S3200000x16_1_0_0_1_n_n none
              (concatenate S3200000x32 1 [⟨S3200000x16, (W (Proc.devRef .tc main_v108))⟩, ⟨S3200000x16, (W (Proc.devRef .tc main_v115))⟩] concatenates_S3200000x16_S3200000x16_S3200000x32_d1) (W (Proc.devRef .tc main_arg6)))
            (broadcastInDim S3200000x16 ![0, 1] bcast_S1x16_S3200000x16_0_1 (broadcastInDim S1x16 ![1] bcast_S16_S1x16_1 (W (Proc.devRef .tc main_arg7)))))
          (broadcastInDim S3200000x16 ![] bcast_S_S3200000x16 (constant (F := F) S_ .f32 0x00000000#32)))
        (W (Proc.devRef .tc main_arg8)))
      (broadcastInDim S3200000x2 ![0, 1] bcast_S1x2_S3200000x2_0_1 (broadcastInDim S1x2 ![1] bcast_S2_S1x2_1 (W (Proc.devRef .tc main_arg9))))) := by
  after_results_simp <;> rfl

theorem partC2b_v5 : after partC2b W (Proc.devRef .tc main_call3_v5) = subf (W (Proc.devRef .tc main_v125)) (rowMaxOf (W (Proc.devRef .tc main_v125))) := by
  after_results_simp <;> (try simp only [ofBuf_toBuf']) <;> rfl

theorem partC2c_v126 : after partC2c W (Proc.devRef .tc main_v126)
    = subf (W (Proc.devRef .tc main_call3_v5))
      (broadcastInDim S3200000x2 ![0, 1] bcast_S3200000x1_S3200000x2_0_1
        (Host.log (broadcastInDim S3200000x1 ![0] bcast_S3200000_S3200000x1_0
          (Host.reduceAdd (Host.exp (W (Proc.devRef .tc main_call3_v5))) (constant (F := F) S_ .f32 0x00000000#32)
            reducesTo_S3200000x2_S3200000_d1 h_S_)))) := by
  after_results_simp <;> rfl

theorem partC2_v126 : after partC2 W (Proc.devRef .tc main_v126) = tail (concatenate S3200000x32 1 [⟨S3200000x16, (W (Proc.devRef .tc main_v108))⟩, ⟨S3200000x16, (W (Proc.devRef .tc main_v115))⟩] concatenates_S3200000x16_S3200000x16_S3200000x32_d1) (W (Proc.devRef .tc main_arg6)) (W (Proc.devRef .tc main_arg7)) (W (Proc.devRef .tc main_arg8)) (W (Proc.devRef .tc main_arg9)) := by
  rw [partC2_parts, after_append', after_append', partC2c_v126, partC2b_v5, partC2a_v125]
  rfl

/-! ## No part writes an argument -/

theorem partA_arg0 : after partA W (Proc.devRef .tc main_arg0) = (W (Proc.devRef .tc main_arg0)) := by
  after_results_simp <;> rfl
theorem partA_arg1 : after partA W (Proc.devRef .tc main_arg1) = (W (Proc.devRef .tc main_arg1)) := by
  after_results_simp <;> rfl
theorem partA_arg2 : after partA W (Proc.devRef .tc main_arg2) = (W (Proc.devRef .tc main_arg2)) := by
  after_results_simp <;> rfl
theorem partA_arg3 : after partA W (Proc.devRef .tc main_arg3) = (W (Proc.devRef .tc main_arg3)) := by
  after_results_simp <;> rfl
theorem partA_arg4 : after partA W (Proc.devRef .tc main_arg4) = (W (Proc.devRef .tc main_arg4)) := by
  after_results_simp <;> rfl
theorem partA_arg5 : after partA W (Proc.devRef .tc main_arg5) = (W (Proc.devRef .tc main_arg5)) := by
  after_results_simp <;> rfl
theorem partA_arg6 : after partA W (Proc.devRef .tc main_arg6) = (W (Proc.devRef .tc main_arg6)) := by
  after_results_simp <;> rfl
theorem partA_arg7 : after partA W (Proc.devRef .tc main_arg7) = (W (Proc.devRef .tc main_arg7)) := by
  after_results_simp <;> rfl
theorem partA_arg8 : after partA W (Proc.devRef .tc main_arg8) = (W (Proc.devRef .tc main_arg8)) := by
  after_results_simp <;> rfl
theorem partA_arg9 : after partA W (Proc.devRef .tc main_arg9) = (W (Proc.devRef .tc main_arg9)) := by
  after_results_simp <;> rfl

theorem partB_arg0 : after partB W (Proc.devRef .tc main_arg0) = (W (Proc.devRef .tc main_arg0)) := by
  after_results_simp <;> rfl
theorem partB_arg1 : after partB W (Proc.devRef .tc main_arg1) = (W (Proc.devRef .tc main_arg1)) := by
  after_results_simp <;> rfl
theorem partB_arg2 : after partB W (Proc.devRef .tc main_arg2) = (W (Proc.devRef .tc main_arg2)) := by
  after_results_simp <;> rfl
theorem partB_arg3 : after partB W (Proc.devRef .tc main_arg3) = (W (Proc.devRef .tc main_arg3)) := by
  after_results_simp <;> rfl
theorem partB_arg4 : after partB W (Proc.devRef .tc main_arg4) = (W (Proc.devRef .tc main_arg4)) := by
  after_results_simp <;> rfl
theorem partB_arg5 : after partB W (Proc.devRef .tc main_arg5) = (W (Proc.devRef .tc main_arg5)) := by
  after_results_simp <;> rfl
theorem partB_arg6 : after partB W (Proc.devRef .tc main_arg6) = (W (Proc.devRef .tc main_arg6)) := by
  after_results_simp <;> rfl
theorem partB_arg7 : after partB W (Proc.devRef .tc main_arg7) = (W (Proc.devRef .tc main_arg7)) := by
  after_results_simp <;> rfl
theorem partB_arg8 : after partB W (Proc.devRef .tc main_arg8) = (W (Proc.devRef .tc main_arg8)) := by
  after_results_simp <;> rfl
theorem partB_arg9 : after partB W (Proc.devRef .tc main_arg9) = (W (Proc.devRef .tc main_arg9)) := by
  after_results_simp <;> rfl

theorem partC1_arg0 : after partC1 W (Proc.devRef .tc main_arg0) = (W (Proc.devRef .tc main_arg0)) := by
  after_results_simp <;> rfl
theorem partC1_arg1 : after partC1 W (Proc.devRef .tc main_arg1) = (W (Proc.devRef .tc main_arg1)) := by
  after_results_simp <;> rfl
theorem partC1_arg2 : after partC1 W (Proc.devRef .tc main_arg2) = (W (Proc.devRef .tc main_arg2)) := by
  after_results_simp <;> rfl
theorem partC1_arg3 : after partC1 W (Proc.devRef .tc main_arg3) = (W (Proc.devRef .tc main_arg3)) := by
  after_results_simp <;> rfl
theorem partC1_arg4 : after partC1 W (Proc.devRef .tc main_arg4) = (W (Proc.devRef .tc main_arg4)) := by
  after_results_simp <;> rfl
theorem partC1_arg5 : after partC1 W (Proc.devRef .tc main_arg5) = (W (Proc.devRef .tc main_arg5)) := by
  after_results_simp <;> rfl
theorem partC1_arg6 : after partC1 W (Proc.devRef .tc main_arg6) = (W (Proc.devRef .tc main_arg6)) := by
  after_results_simp <;> rfl
theorem partC1_arg7 : after partC1 W (Proc.devRef .tc main_arg7) = (W (Proc.devRef .tc main_arg7)) := by
  after_results_simp <;> rfl
theorem partC1_arg8 : after partC1 W (Proc.devRef .tc main_arg8) = (W (Proc.devRef .tc main_arg8)) := by
  after_results_simp <;> rfl
theorem partC1_arg9 : after partC1 W (Proc.devRef .tc main_arg9) = (W (Proc.devRef .tc main_arg9)) := by
  after_results_simp <;> rfl

theorem partC2_arg0 : after partC2 W (Proc.devRef .tc main_arg0) = (W (Proc.devRef .tc main_arg0)) := by
  after_results_simp <;> rfl
theorem partC2_arg1 : after partC2 W (Proc.devRef .tc main_arg1) = (W (Proc.devRef .tc main_arg1)) := by
  after_results_simp <;> rfl
theorem partC2_arg2 : after partC2 W (Proc.devRef .tc main_arg2) = (W (Proc.devRef .tc main_arg2)) := by
  after_results_simp <;> rfl
theorem partC2_arg3 : after partC2 W (Proc.devRef .tc main_arg3) = (W (Proc.devRef .tc main_arg3)) := by
  after_results_simp <;> rfl
theorem partC2_arg4 : after partC2 W (Proc.devRef .tc main_arg4) = (W (Proc.devRef .tc main_arg4)) := by
  after_results_simp <;> rfl
theorem partC2_arg5 : after partC2 W (Proc.devRef .tc main_arg5) = (W (Proc.devRef .tc main_arg5)) := by
  after_results_simp <;> rfl
theorem partC2_arg6 : after partC2 W (Proc.devRef .tc main_arg6) = (W (Proc.devRef .tc main_arg6)) := by
  after_results_simp <;> rfl
theorem partC2_arg7 : after partC2 W (Proc.devRef .tc main_arg7) = (W (Proc.devRef .tc main_arg7)) := by
  after_results_simp <;> rfl
theorem partC2_arg8 : after partC2 W (Proc.devRef .tc main_arg8) = (W (Proc.devRef .tc main_arg8)) := by
  after_results_simp <;> rfl
theorem partC2_arg9 : after partC2 W (Proc.devRef .tc main_arg9) = (W (Proc.devRef .tc main_arg9)) := by
  after_results_simp <;> rfl

theorem after_ops_arg0 : after (ops (F := F)) W (Proc.devRef .tc main_arg0) = W (Proc.devRef .tc main_arg0) := by
  rw [ops_parts, after_append', after_append', after_append', partC2_arg0, partC1_arg0, partB_arg0, partA_arg0]
theorem after_ops_arg1 : after (ops (F := F)) W (Proc.devRef .tc main_arg1) = W (Proc.devRef .tc main_arg1) := by
  rw [ops_parts, after_append', after_append', after_append', partC2_arg1, partC1_arg1, partB_arg1, partA_arg1]
theorem after_ops_arg2 : after (ops (F := F)) W (Proc.devRef .tc main_arg2) = W (Proc.devRef .tc main_arg2) := by
  rw [ops_parts, after_append', after_append', after_append', partC2_arg2, partC1_arg2, partB_arg2, partA_arg2]
theorem after_ops_arg3 : after (ops (F := F)) W (Proc.devRef .tc main_arg3) = W (Proc.devRef .tc main_arg3) := by
  rw [ops_parts, after_append', after_append', after_append', partC2_arg3, partC1_arg3, partB_arg3, partA_arg3]
theorem after_ops_arg4 : after (ops (F := F)) W (Proc.devRef .tc main_arg4) = W (Proc.devRef .tc main_arg4) := by
  rw [ops_parts, after_append', after_append', after_append', partC2_arg4, partC1_arg4, partB_arg4, partA_arg4]
theorem after_ops_arg5 : after (ops (F := F)) W (Proc.devRef .tc main_arg5) = W (Proc.devRef .tc main_arg5) := by
  rw [ops_parts, after_append', after_append', after_append', partC2_arg5, partC1_arg5, partB_arg5, partA_arg5]
theorem after_ops_arg6 : after (ops (F := F)) W (Proc.devRef .tc main_arg6) = W (Proc.devRef .tc main_arg6) := by
  rw [ops_parts, after_append', after_append', after_append', partC2_arg6, partC1_arg6, partB_arg6, partA_arg6]
theorem after_ops_arg7 : after (ops (F := F)) W (Proc.devRef .tc main_arg7) = W (Proc.devRef .tc main_arg7) := by
  rw [ops_parts, after_append', after_append', after_append', partC2_arg7, partC1_arg7, partB_arg7, partA_arg7]
theorem after_ops_arg8 : after (ops (F := F)) W (Proc.devRef .tc main_arg8) = W (Proc.devRef .tc main_arg8) := by
  rw [ops_parts, after_append', after_append', after_append', partC2_arg8, partC1_arg8, partB_arg8, partA_arg8]
theorem after_ops_arg9 : after (ops (F := F)) W (Proc.devRef .tc main_arg9) = W (Proc.devRef .tc main_arg9) := by
  rw [ops_parts, after_append', after_append', after_append', partC2_arg9, partC1_arg9, partB_arg9, partA_arg9]

/-- The whole fold at the result buffer: the reference network of the contents it was run from. -/
theorem after_ops_result : after (ops (F := F)) W (Proc.devRef .tc main_v126)
    = value (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) := by
  rw [ops_parts, after_append', after_append', after_append', partC2_v126, partC1_v108, partC1_v115,
    partC1_arg6, partC1_arg7, partC1_arg8, partC1_arg9, partB_v97, partB_arg1, partB_arg6, partB_arg7, partB_arg8, partB_arg9,
    partA_v48, partA_arg1, partA_arg4, partA_arg5, partA_arg6, partA_arg7, partA_arg8, partA_arg9]
  rfl

/-- The idealized reference's run: it terminates without a fault, the result at the reference network's value of the
    arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v126) = value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c main_v126).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _),
      (h c main_arg8).trans (after_ops_arg8 _),
      (h c main_arg9).trans (after_ops_arg9 _)⟩)
    (run_after m ρ)

end Cert.ReferenceIdeal.Hand

end
-- ==== Proof.RefForms.lean ====
/-
  The host program's forms of the three computations, as whole arrays, at the ideal values.

  * a product of an `a × b` by a `b × c` array contracting the one shared axis is the matrix product `mm`;
  * aggregate plus own row times its normalisation, plus the bias row, then the maximum with zero, is `comb`;
  * a product plus a bias row is `affine`, and its maximum with zero is `hidden`;
  * the row maximum taken from -∞, the shifted entries, the logarithm of the row sum of their exponentials, is
    `logSoftmax`;
  * a vector viewed as a column, or as a row, is the same array as the vector broadcast into that column, or row.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.PureOps.Reduce
import proofs.«145413_j67551245631648_2_alg».proof.Proof.Spec
import proofs.«145413_j67551245631648_2_alg».proof.Proof.LibRowOps
import proofs.«145413_j67551245631648_2_alg».proof.Proof.LibColumn

noncomputable section

namespace Cert.RefForms

open Idealize.ShloMosaic Idealize.ShloMosaic.ValueIdx

variable {a b c : ℕ}

/-! ## The product -/

/-- The dimension numbers of an `a × b` by `b × c` product over the shared axis. -/
abbrev plainDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- The host's product at `(p, n)`, for the record `plainDims`: the sum over the shared axis. -/
theorem plainDims_dot_apply (wf : DotDims.WF ⟨2, ![a, b]⟩ ⟨2, ![b, c]⟩ ⟨2, ![a, c]⟩ [1] [0] [0] [1] [] [])
    (A : FVec Ideal ⟨2, ![a, b]⟩ .f32) (B : FVec Ideal ⟨2, ![b, c]⟩ .f32) (p : Fin a) (n : Fin c) :
    Host.dotGeneral (F := Ideal) (plainDims wf) none A B (ix2 p n) = ∑ k : Fin b, A (ix2 p k) * B (ix2 k n) := by
  refine (Ideal.dotGeneral_apply (plainDims wf) none .single A B (ix2 p n)).trans ?_
  refine Cert.LibRowOps.sum_contr (plainDims wf) rfl rfl ?_ ?_ ?_ ?_ A B p n
  · intro j k
    unfold DotDims.lhsIdx
    rw [dif_neg (show ¬(0 : Fin 2) ∈ (plainDims wf).lhsBatch from List.not_mem_nil),
      dif_pos (show (0 : Fin 2) ∈ (plainDims wf).lhsNonContracting from List.mem_singleton.mpr rfl)]
    rfl
  · intro j k
    exact (plainDims wf).lhsIdx_val_of_single rfl j k
  · intro j k
    exact (plainDims wf).rhsIdx_val_of_single rfl j k
  · intro j k
    unfold DotDims.rhsIdx
    rw [dif_neg (show ¬(1 : Fin 2) ∈ (plainDims wf).rhsBatch from List.not_mem_nil),
      dif_pos (show (1 : Fin 2) ∈ (plainDims wf).rhsNonContracting from List.mem_singleton.mpr rfl)]
    rfl

/-- The host's product of an `a × b` by a `b × c` array over the shared axis is the matrix product (each list
    hypothesis is `rfl` for a record written with those literal fields). -/
theorem hostDot_eq_mm (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ .f32) (B : FVec Ideal ⟨2, ![b, c]⟩ .f32) :
    Host.dotGeneral (F := Ideal) d none A B = Cert.Spec.mm A B := by
  obtain ⟨lc, rc, ln, rn, lb, rb, wf⟩ := d
  dsimp only at hlc hrc hln hrn hlb hrb
  subst hlc hrc hln hrn hlb hrb
  funext j
  obtain ⟨p, n, rfl⟩ : ∃ p n, j = ix2 p n := ⟨j 0, j 1, eq_ix2 j⟩
  exact plainDims_dot_apply wf A B p n

/-! ## The combine -/

/-- Aggregate plus own row times its normalisation column, plus the bias row, then the maximum with the zero word
    broadcast: the combine followed by the rectifier. -/
theorem hostComb_eq_comb (agg h : FVec Ideal ⟨2, ![a, b]⟩ .f32) (d : FVec Ideal ⟨2, ![a, 1]⟩ .f32)
    (bias : FVec Ideal ⟨2, ![1, b]⟩ .f32)
    (h1 : (⟨2, ![a, 1]⟩ : Shape).BroadcastsInDim ⟨2, ![a, b]⟩ (![0, 1] : Fin 2 → Fin 2))
    (h2 : (⟨2, ![1, b]⟩ : Shape).BroadcastsInDim ⟨2, ![a, b]⟩ (![0, 1] : Fin 2 → Fin 2))
    (h0 : (⟨0, ![]⟩ : Shape).BroadcastsInDim ⟨2, ![a, b]⟩ (![] : Fin 0 → Fin 2)) :
    maximumf (addf (addf agg (mulf h (broadcastInDim ⟨2, ![a, b]⟩ ![0, 1] h1 d)))
        (broadcastInDim ⟨2, ![a, b]⟩ ![0, 1] h2 bias))
      (broadcastInDim ⟨2, ![a, b]⟩ ![] h0 (constant (F := Ideal) ⟨0, ![]⟩ .f32 0x00000000#32))
      = Cert.Spec.comb agg h d bias := by
  funext j
  obtain ⟨p, q, rfl⟩ : ∃ p q, j = ix2 p q := ⟨j 0, j 1, eq_ix2 j⟩
  rw [maximumf_apply, addf_apply, addf_apply, mulf_apply,
    Cert.LibRowOps.broadcastInDim_a1_ab_apply h1 d p q, Cert.LibRowOps.broadcastInDim_1b_ab_apply h2 bias p q,
    Cert.LibRowOps.broadcastInDim_scalar_apply h0 _ (ix2 p q), constant_apply, Ideal.ofBits_zero_f32]
  rfl

/-! ## A vector viewed as a column or as a row -/

section
variable {α : Type}

/-- A vector viewed as an `a × 1` column is the vector broadcast into that column. -/
theorem cast_eq_bcast_col (x : (⟨1, ![a]⟩ : Shape).Idx → α) (hc : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hc = broadcastInDim ⟨2, ![a, 1]⟩ ![0] hb x := by
  funext j
  obtain ⟨p, u, rfl⟩ : ∃ p u, j = ix2 p u := ⟨j 0, j 1, eq_ix2 j⟩
  exact (Cert.LibColumn.shapeCast_a_a1_apply x hc p u).trans (Cert.LibRowOps.broadcastInDim_a_a1_apply hb x p u).symm

/-- A vector viewed as a `1 × b` row is the vector broadcast into that row. -/
theorem cast_eq_bcast_row (x : (⟨1, ![b]⟩ : Shape).Idx → α) (hc : (⟨1, ![b]⟩ : Shape).ShapeCasts ⟨2, ![1, b]⟩)
    (hb : (⟨1, ![b]⟩ : Shape).BroadcastsInDim ⟨2, ![1, b]⟩ (![1] : Fin 1 → Fin 2)) :
    shapeCast ⟨2, ![1, b]⟩ x hc = broadcastInDim ⟨2, ![1, b]⟩ ![1] hb x := by
  funext j
  obtain ⟨u, q, rfl⟩ : ∃ u q, j = ix2 u q := ⟨j 0, j 1, eq_ix2 j⟩
  exact (shapeCast_a_1a_apply x hc u q).trans (Cert.LibRowOps.broadcastInDim_b_1b_apply hb x u q).symm

end

/-! ## The dense layers -/

/-- A product plus the bias row broadcast along the rows: the dense layer with bias. -/
theorem hostAffine_eq (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![a, b]⟩ .f32) (w : FVec Ideal ⟨2, ![b, c]⟩ .f32) (bias : FVec Ideal ⟨2, ![1, c]⟩ .f32)
    (h2 : (⟨2, ![1, c]⟩ : Shape).BroadcastsInDim ⟨2, ![a, c]⟩ (![0, 1] : Fin 2 → Fin 2)) :
    addf (Host.dotGeneral (F := Ideal) d none x w) (broadcastInDim ⟨2, ![a, c]⟩ ![0, 1] h2 bias)
      = Cert.Spec.affine x w bias := by
  rw [hostDot_eq_mm d hlc hrc hln hrn hlb hrb x w]
  funext j
  obtain ⟨p, q, rfl⟩ : ∃ p q, j = ix2 p q := ⟨j 0, j 1, eq_ix2 j⟩
  rw [addf_apply, Cert.LibRowOps.broadcastInDim_1b_ab_apply h2 bias p q]
  rfl

/-- A product plus the bias row, then the maximum with the zero word broadcast: the dense layer with bias and
    rectifier. -/
theorem hostHidden_eq (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (x : FVec Ideal ⟨2, ![a, b]⟩ .f32) (w : FVec Ideal ⟨2, ![b, c]⟩ .f32) (bias : FVec Ideal ⟨2, ![1, c]⟩ .f32)
    (h2 : (⟨2, ![1, c]⟩ : Shape).BroadcastsInDim ⟨2, ![a, c]⟩ (![0, 1] : Fin 2 → Fin 2))
    (h0 : (⟨0, ![]⟩ : Shape).BroadcastsInDim ⟨2, ![a, c]⟩ (![] : Fin 0 → Fin 2)) :
    maximumf (addf (Host.dotGeneral (F := Ideal) d none x w) (broadcastInDim ⟨2, ![a, c]⟩ ![0, 1] h2 bias))
      (broadcastInDim ⟨2, ![a, c]⟩ ![] h0 (constant (F := Ideal) ⟨0, ![]⟩ .f32 0x00000000#32))
      = Cert.Spec.hidden x w bias := by
  rw [hostAffine_eq d hlc hrc hln hrn hlb hrb x w bias h2]
  funext j
  rw [maximumf_apply, Cert.LibRowOps.broadcastInDim_scalar_apply h0 _ j, constant_apply, Ideal.ofBits_zero_f32]
  rfl

/-! ## The logarithm of the softmax -/

/-- The host's logarithm at an index is the logarithm of the entry. -/
theorem hostLog_apply {s : Shape} {φ : FTy} (v : FVec Ideal s φ) (i : s.Idx) : Host.log v i = Ideal.log (v i) := rfl

/-- The host's exponential at an index is the exponential of the entry. -/
theorem hostExp_apply {s : Shape} {φ : FTy} (v : FVec Ideal s φ) (i : s.Idx) : Host.exp v i = Ideal.exp (v i) := rfl

/-- The host's row maximum from the word of -∞, at row `p`: the fold of the maximum over the row's entries. -/
theorem hostRowMax_apply (x : FVec Ideal ⟨2, ![a, b]⟩ .f32) (hr' : (⟨2, ![a, b]⟩ : Shape).ReducesTo [1] ⟨1, ![a]⟩)
    (hu : 0 < (⟨0, ![]⟩ : Shape).numel) (p : Fin a) :
    Host.reduce (FloatOps.maximumf (F := Ideal) (φ := .f32)) x (constant (F := Ideal) ⟨0, ![]⟩ .f32 0xFF800000#32) hr' hu (ix1 p)
      = Cert.Spec.rowMax x p := by
  have hr : (⟨2, ![a, b]⟩ : Shape).Reduces [1] ⟨1, ![a]⟩ := ⟨hr'.1, Nat.one_pos, hr'.2⟩
  refine (Host.reduce_eq_fold_single (FloatOps.maximumf (F := Ideal) (φ := .f32)) x _ hr' hr hu (ix1 p)).trans ?_
  unfold Cert.Spec.rowMax
  exact congrArg (fun f => Finset.fold max Cert.Spec.negInf f (Finset.univ : Finset (Fin b)))
    (funext fun k => congrArg x (Cert.LibRowOps.lift_row hr p k))

/-- The body of the host's log-softmax: the row maximum from -∞ (joined once more with -∞), broadcast back; the
    entries less it; the logarithm of the row sum of their exponentials, broadcast back, taken off. -/
theorem hostLogSoftmax_eq (x : FVec Ideal ⟨2, ![a, b]⟩ .f32) (hr' : (⟨2, ![a, b]⟩ : Shape).ReducesTo [1] ⟨1, ![a]⟩)
    (hu : 0 < (⟨0, ![]⟩ : Shape).numel)
    (hs : (⟨0, ![]⟩ : Shape).BroadcastsInDim ⟨1, ![a]⟩ (![] : Fin 0 → Fin 1))
    (hc : (⟨1, ![a]⟩ : Shape).BroadcastsInDim ⟨2, ![a, 1]⟩ (![0] : Fin 1 → Fin 2))
    (hab : (⟨2, ![a, 1]⟩ : Shape).BroadcastsInDim ⟨2, ![a, b]⟩ (![0, 1] : Fin 2 → Fin 2)) :
    subf
      (subf x (broadcastInDim ⟨2, ![a, b]⟩ ![0, 1] hab (broadcastInDim ⟨2, ![a, 1]⟩ ![0] hc
        (maximumf (broadcastInDim ⟨1, ![a]⟩ ![] hs (constant (F := Ideal) ⟨0, ![]⟩ .f32 0xFF800000#32))
          (Host.reduce (FloatOps.maximumf (F := Ideal) (φ := .f32)) x (constant (F := Ideal) ⟨0, ![]⟩ .f32 0xFF800000#32) hr' hu)))))
      (broadcastInDim ⟨2, ![a, b]⟩ ![0, 1] hab (Host.log (broadcastInDim ⟨2, ![a, 1]⟩ ![0] hc
        (Host.reduceAdd
          (Host.exp (subf x (broadcastInDim ⟨2, ![a, b]⟩ ![0, 1] hab (broadcastInDim ⟨2, ![a, 1]⟩ ![0] hc
            (maximumf (broadcastInDim ⟨1, ![a]⟩ ![] hs (constant (F := Ideal) ⟨0, ![]⟩ .f32 0xFF800000#32))
              (Host.reduce (FloatOps.maximumf (F := Ideal) (φ := .f32)) x (constant (F := Ideal) ⟨0, ![]⟩ .f32 0xFF800000#32) hr' hu))))))
          (constant (F := Ideal) ⟨0, ![]⟩ .f32 0x00000000#32) hr' hu))))
      = Cert.Spec.logSoftmax x := by
  have hr : (⟨2, ![a, b]⟩ : Shape).Reduces [1] ⟨1, ![a]⟩ := ⟨hr'.1, Nat.one_pos, hr'.2⟩
  -- the shift, at any entry of row `p`
  have hM : ∀ (p : Fin a) (k : Fin b),
      broadcastInDim ⟨2, ![a, b]⟩ ![0, 1] hab (broadcastInDim ⟨2, ![a, 1]⟩ ![0] hc
        (maximumf (broadcastInDim ⟨1, ![a]⟩ ![] hs (constant (F := Ideal) ⟨0, ![]⟩ .f32 0xFF800000#32))
          (Host.reduce (FloatOps.maximumf (F := Ideal) (φ := .f32)) x (constant (F := Ideal) ⟨0, ![]⟩ .f32 0xFF800000#32) hr' hu)))
        (ix2 p k) = max Cert.Spec.negInf (Cert.Spec.rowMax x p) := by
    intro p k
    rw [Cert.LibRowOps.broadcastInDim_a1_ab_apply hab _ p k, Cert.LibRowOps.broadcastInDim_a_a1_apply hc _ p (0 : Fin 1),
      maximumf_apply, Cert.LibRowOps.broadcastInDim_scalar_apply hs _ (ix1 p), constant_apply, hostRowMax_apply x hr' hu p]
  funext j
  obtain ⟨p, q, rfl⟩ : ∃ p q, j = ix2 p q := ⟨j 0, j 1, eq_ix2 j⟩
  rw [subf_apply, subf_apply, hM p q, Cert.LibRowOps.broadcastInDim_a1_ab_apply hab _ p q, hostLog_apply,
    Cert.LibRowOps.broadcastInDim_a_a1_apply hc _ p (0 : Fin 1), hostReduceAdd_apply,
    Cert.LibRowOps.hostReduceAdd_row_apply hr' hr _ _ p, constant_apply, Ideal.ofBits_zero_f32, zero_add]
  unfold Cert.Spec.logSoftmax
  refine congrArg (fun s => x (ix2 p q) - max Cert.Spec.negInf (Cert.Spec.rowMax x p) - Ideal.log s)
    (Finset.sum_congr rfl fun k _ => ?_)
  rw [hostExp_apply, subf_apply, hM p k]
  rfl

end Cert.RefForms

end
-- ==== Proof.RefValue.lean ====
/-
  The reference network and the kernel program's network are the same function of the inputs, at the ideal values.

  Both programs read the edge list the same way (endpoints, wrapped indices, degrees, normalisation), so those stages
  agree term for term.  A graph convolution of the reference is the combine `comb` of the same aggregate, the same
  node rows, the squared normalisation as a column and the bias as a row: a vector viewed as a column (or a row) is
  the vector broadcast into it.  The reference's edge classifier is `mlp`: a dense layer with rectifier, a dense
  layer, the logarithm of the softmax.  The linear maps before the convolutions are the matrix product `mm`.
-/
import Idealize.ShloMosaic.Lib.ValueIdx
import proofs.«145413_j67551245631648_2_alg».proof.Proof.RefDefs
import proofs.«145413_j67551245631648_2_alg».proof.Proof.Stages
import proofs.«145413_j67551245631648_2_alg».proof.Proof.RefForms

set_option maxRecDepth 16384

noncomputable section

namespace Cert.Bridge

open Idealize.ShloMosaic Idealize.ShloMosaic.TcCoe

/-! ## The two programs' records and edge-list stages agree -/

theorem gather1_eq : Cert.ReferenceIdeal.gather_S100000_S3200000x1_S3200000_n_0_n_n_0_1_1
    = Cert.KernelIdeal.gather_S100000_S3200000x1_S3200000_n_0_n_n_0_1_1 := rfl

theorem gather116_eq : Cert.ReferenceIdeal.gather_S100000x16_S3200000x1_S3200000x16_1_0_n_n_0_1_116
    = Cert.KernelIdeal.gather_S100000x16_S3200000x1_S3200000x16_1_0_n_n_0_1_116 := rfl

theorem scatter1_eq : Cert.ReferenceIdeal.scatter_S100000_S3200000x1_S3200000_n_0_0_1
    = Cert.KernelIdeal.scatter_S100000_S3200000x1_S3200000_n_0_0_1 := rfl

theorem scatter16_eq : Cert.ReferenceIdeal.scatter_S100000x16_S3200000x1_S3200000x16_1_0_0_1
    = Cert.KernelIdeal.scatter_S100000x16_S3200000x1_S3200000x16_1_0_0_1 := rfl

theorem rowOf_eq (e : (⟨Cert.ReferenceIdeal.S2x3200000, .i32⟩ : BufTy).Contents (Elt Ideal)) :
    Cert.ReferenceIdeal.Hand.rowOf (F := Ideal) e = Cert.KernelIdeal.Hand.rowOf (F := Ideal) e := rfl

theorem colOf_eq (e : (⟨Cert.ReferenceIdeal.S2x3200000, .i32⟩ : BufTy).Contents (Elt Ideal)) :
    Cert.ReferenceIdeal.Hand.colOf (F := Ideal) e = Cert.KernelIdeal.Hand.colOf (F := Ideal) e := rfl

theorem wrapIdx_eq (r : (⟨Cert.ReferenceIdeal.S3200000, .i32⟩ : BufTy).Contents (Elt Ideal)) :
    Cert.ReferenceIdeal.Hand.wrapIdx (F := Ideal) r = Cert.KernelIdeal.Hand.wrapIdx (F := Ideal) r := rfl

theorem dinv_eq (e : (⟨Cert.ReferenceIdeal.S2x3200000, .i32⟩ : BufTy).Contents (Elt Ideal)) :
    Cert.ReferenceIdeal.Hand.dinv (F := Ideal) e = Cert.KernelIdeal.Hand.dinv (F := Ideal) e := rfl

theorem edgeFeat_eq (e : (⟨Cert.ReferenceIdeal.S2x3200000, .i32⟩ : BufTy).Contents (Elt Ideal)) (h : (⟨Cert.ReferenceIdeal.S100000x16, .f32⟩ : BufTy).Contents (Elt Ideal)) :
    Cert.ReferenceIdeal.Hand.edgeFeat (F := Ideal) e h
      = Cert.KernelIdeal.Hand.edgeFeat (F := Ideal) (Cert.KernelIdeal.Hand.rowOf e) (Cert.KernelIdeal.Hand.colOf e) h := rfl

/-! ## One graph convolution -/

/-- The reference's per-edge weight broadcast into a column is the kernel program's weight column. -/
theorem norm_eq (e : (⟨Cert.ReferenceIdeal.S2x3200000, .i32⟩ : BufTy).Contents (Elt Ideal)) :
    broadcastInDim Cert.ReferenceIdeal.S3200000x1 ![0] Cert.ReferenceIdeal.Facts₀.bcast_S3200000_S3200000x1_0 (Cert.ReferenceIdeal.Hand.normOf (F := Ideal) e)
      = Cert.KernelIdeal.Hand.norm (F := Ideal) e :=
  (Cert.RefForms.cast_eq_bcast_col _ Cert.KernelIdeal.Facts₀.shapeCasts_S3200000_S3200000x1 _).symm

/-- The reference's squared normalisation broadcast into a column is the kernel program's column. -/
theorem dinv2_eq (e : (⟨Cert.ReferenceIdeal.S2x3200000, .i32⟩ : BufTy).Contents (Elt Ideal)) :
    broadcastInDim Cert.ReferenceIdeal.S100000x1 ![0] Cert.ReferenceIdeal.Facts₀.bcast_S100000_S100000x1_0
        (mulf (F := Ideal) (s := Cert.ReferenceIdeal.S100000) (φ := .f32)
          (Cert.ReferenceIdeal.Hand.dinv (F := Ideal) e) (Cert.ReferenceIdeal.Hand.dinv (F := Ideal) e))
      = Cert.KernelIdeal.Hand.dinv2 (F := Ideal) e :=
  (Cert.RefForms.cast_eq_bcast_col _ Cert.KernelIdeal.Facts₀.shapeCasts_S100000_S100000x1 _).symm

/-- A bias vector broadcast into a row is the vector viewed as a row. -/
theorem bias16_eq (b : (⟨Cert.ReferenceIdeal.S16, .f32⟩ : BufTy).Contents (Elt Ideal)) :
    broadcastInDim Cert.ReferenceIdeal.S1x16 ![1] Cert.ReferenceIdeal.Facts₀.bcast_S16_S1x16_1 b
      = shapeCast Cert.KernelIdeal.S1x16 b Cert.KernelIdeal.Facts₀.shapeCasts_S16_S1x16 :=
  (Cert.RefForms.cast_eq_bcast_row b Cert.KernelIdeal.Facts₀.shapeCasts_S16_S1x16 _).symm

theorem bias2_eq (b : (⟨Cert.ReferenceIdeal.S2, .f32⟩ : BufTy).Contents (Elt Ideal)) :
    broadcastInDim Cert.ReferenceIdeal.S1x2 ![1] Cert.ReferenceIdeal.Facts₀.bcast_S2_S1x2_1 b
      = shapeCast Cert.KernelIdeal.S1x2 b Cert.KernelIdeal.Facts₀.shapeCasts_S2_S1x2 :=
  (Cert.RefForms.cast_eq_bcast_row b Cert.KernelIdeal.Facts₀.shapeCasts_S2_S1x2 _).symm

/-- The reference's graph convolution is the combine of the kernel program's aggregate, node rows, squared
    normalisation column and bias row. -/
theorem conv_eq (e : (⟨Cert.ReferenceIdeal.S2x3200000, .i32⟩ : BufTy).Contents (Elt Ideal)) (hw : (⟨Cert.ReferenceIdeal.S100000x16, .f32⟩ : BufTy).Contents (Elt Ideal)) (b : (⟨Cert.ReferenceIdeal.S16, .f32⟩ : BufTy).Contents (Elt Ideal)) :
    Cert.ReferenceIdeal.Hand.conv (F := Ideal) e hw b = Cert.KernelIdeal.Hand.conv e hw b := by
  unfold Cert.ReferenceIdeal.Hand.conv
  refine (Cert.RefForms.hostComb_eq_comb _ hw _ _ Cert.ReferenceIdeal.Facts₀.bcast_S100000x1_S100000x16_0_1
    Cert.ReferenceIdeal.Facts₀.bcast_S1x16_S100000x16_0_1 Cert.ReferenceIdeal.Facts₀.bcast_S_S100000x16).trans ?_
  rw [norm_eq e, dinv2_eq e, bias16_eq b]
  rfl

/-! ## The edge classifier -/

/-- The reference's log-softmax stage is the logarithm of the softmax along each row. -/
theorem logSoftmaxOf_eq (x : (⟨Cert.ReferenceIdeal.S3200000x2, .f32⟩ : BufTy).Contents (Elt Ideal)) :
    Cert.ReferenceIdeal.Hand.logSoftmaxOf (F := Ideal) x = Cert.Spec.logSoftmax x := by
  unfold Cert.ReferenceIdeal.Hand.logSoftmaxOf Cert.ReferenceIdeal.Hand.rowMaxOf
  exact Cert.RefForms.hostLogSoftmax_eq x Cert.ReferenceIdeal.Facts₀.reducesTo_S3200000x2_S3200000_d1 Cert.ReferenceIdeal.Facts₀.h_S_
    Cert.ReferenceIdeal.Facts₀.bcast_S_S3200000 Cert.ReferenceIdeal.Facts₀.bcast_S3200000_S3200000x1_0 Cert.ReferenceIdeal.Facts₀.bcast_S3200000x1_S3200000x2_0_1

/-- The reference's edge classifier is the hidden layer, the logits and the logarithm of their softmax, with the
    bias vectors viewed as rows. -/
theorem tail_eq (ef : (⟨Cert.ReferenceIdeal.S3200000x32, .f32⟩ : BufTy).Contents (Elt Ideal)) (f1w : (⟨Cert.ReferenceIdeal.S32x16, .f32⟩ : BufTy).Contents (Elt Ideal)) (f1b : (⟨Cert.ReferenceIdeal.S16, .f32⟩ : BufTy).Contents (Elt Ideal))
    (f2w : (⟨Cert.ReferenceIdeal.S16x2, .f32⟩ : BufTy).Contents (Elt Ideal)) (f2b : (⟨Cert.ReferenceIdeal.S2, .f32⟩ : BufTy).Contents (Elt Ideal)) :
    Cert.ReferenceIdeal.Hand.tail (F := Ideal) ef f1w f1b f2w f2b
      = Cert.Spec.mlp ef f1w (shapeCast Cert.KernelIdeal.S1x16 f1b Cert.KernelIdeal.Facts₀.shapeCasts_S16_S1x16) f2w
          (shapeCast Cert.KernelIdeal.S1x2 f2b Cert.KernelIdeal.Facts₀.shapeCasts_S2_S1x2) := by
  unfold Cert.ReferenceIdeal.Hand.tail
  rw [logSoftmaxOf_eq,
    Cert.RefForms.hostHidden_eq Cert.ReferenceIdeal.dot_S3200000x32_S32x16_S3200000x16_1_0_0_1_n_n rfl rfl rfl rfl rfl rfl ef f1w _
      Cert.ReferenceIdeal.Facts₀.bcast_S1x16_S3200000x16_0_1 Cert.ReferenceIdeal.Facts₀.bcast_S_S3200000x16,
    Cert.RefForms.hostAffine_eq Cert.ReferenceIdeal.dot_S3200000x16_S16x2_S3200000x2_1_0_0_1_n_n rfl rfl rfl rfl rfl rfl _ f2w _
      Cert.ReferenceIdeal.Facts₀.bcast_S1x2_S3200000x2_0_1,
    bias16_eq f1b, bias2_eq f2b]
  rfl

/-! ## The whole network -/

/-- The reference network is the kernel program's network. -/
theorem value_eq (x : (⟨Cert.ReferenceIdeal.S100000x128, .f32⟩ : BufTy).Contents (Elt Ideal)) (e : (⟨Cert.ReferenceIdeal.S2x3200000, .i32⟩ : BufTy).Contents (Elt Ideal))
    (w1 : (⟨Cert.ReferenceIdeal.S128x16, .f32⟩ : BufTy).Contents (Elt Ideal)) (b1 : (⟨Cert.ReferenceIdeal.S16, .f32⟩ : BufTy).Contents (Elt Ideal))
    (w2 : (⟨Cert.ReferenceIdeal.S16x16, .f32⟩ : BufTy).Contents (Elt Ideal)) (b2 : (⟨Cert.ReferenceIdeal.S16, .f32⟩ : BufTy).Contents (Elt Ideal))
    (f1w : (⟨Cert.ReferenceIdeal.S32x16, .f32⟩ : BufTy).Contents (Elt Ideal)) (f1b : (⟨Cert.ReferenceIdeal.S16, .f32⟩ : BufTy).Contents (Elt Ideal))
    (f2w : (⟨Cert.ReferenceIdeal.S16x2, .f32⟩ : BufTy).Contents (Elt Ideal)) (f2b : (⟨Cert.ReferenceIdeal.S2, .f32⟩ : BufTy).Contents (Elt Ideal)) :
    Cert.ReferenceIdeal.Hand.value (F := Ideal) x e w1 b1 w2 b2 f1w f1b f2w f2b
      = Cert.KernelIdeal.Hand.value x e w1 b1 w2 b2 f1w f1b f2w f2b := by
  have e1 : Host.dotGeneral (F := Ideal) (φ₁ := .f32) (φ₂ := .f32) Cert.ReferenceIdeal.dot_S100000x128_S128x16_S100000x16_1_0_0_1_n_n none x w1 = Cert.Spec.mm x w1 :=
    Cert.RefForms.hostDot_eq_mm _ rfl rfl rfl rfl rfl rfl x w1
  have c1 : Cert.ReferenceIdeal.Hand.conv (F := Ideal) e
      (Host.dotGeneral (F := Ideal) (φ₁ := .f32) (φ₂ := .f32) Cert.ReferenceIdeal.dot_S100000x128_S128x16_S100000x16_1_0_0_1_n_n none x w1) b1
      = Cert.KernelIdeal.Hand.conv e (Cert.Spec.mm x w1) b1 := by
    rw [e1]; exact conv_eq e _ b1
  have e2 : Host.dotGeneral (F := Ideal) (φ₁ := .f32) (φ₂ := .f32) Cert.ReferenceIdeal.dot_S100000x16_S16x16_S100000x16_1_0_0_1_n_n none
      (Cert.ReferenceIdeal.Hand.conv (F := Ideal) e
        (Host.dotGeneral (F := Ideal) (φ₁ := .f32) (φ₂ := .f32) Cert.ReferenceIdeal.dot_S100000x128_S128x16_S100000x16_1_0_0_1_n_n none x w1) b1) w2
      = Cert.Spec.mm (Cert.KernelIdeal.Hand.conv e (Cert.Spec.mm x w1) b1) w2 := by
    rw [c1]; exact Cert.RefForms.hostDot_eq_mm _ rfl rfl rfl rfl rfl rfl _ w2
  unfold Cert.ReferenceIdeal.Hand.value Cert.KernelIdeal.Hand.value
  rw [tail_eq, e2, conv_eq, edgeFeat_eq]

end Cert.Bridge

end
-- ==== Proof.lean ====
/-
  The certificate of a two-layer graph convolution network with an edge classifier: the Pallas kernels' program against
  the plain reference.

  The kernel program keeps the gathers and scatter-adds on the host and runs five kernel regions: the two linear maps
  `h · W` (blocks of 10000 rows), the two combines `max(agg + h · dinv² + b, 0)` (the same blocks), and the edge
  classifier — a hidden layer, the logits and the logarithm of their softmax — on blocks of 8000 edges. At the ideal
  values a change of float format is the identity and a matrix product into a zero accumulator is the plain sum, so each
  region computes, row by row, the function the reference computes with whole-array host operations, and the two
  programs compute one function of the arguments (`Bridge.value_eq`): no algebraic law beyond reading each operation at
  an index is used, so the precondition is never opened.

  The three frames: the two kernel programs' are the generated frame certificates; the reference's is its run with the
  result dropped. `preserves` is trivial: the ideal pass rewrote nothing.
-/
import proofs.«145413_j67551245631648_2_alg».proof.Defs
import proofs.«145413_j67551245631648_2_alg».proof.Proof.Gen.Kernel
import proofs.«145413_j67551245631648_2_alg».proof.Proof.Gen.Kernel.Skeleton
import proofs.«145413_j67551245631648_2_alg».proof.Proof.Gen.Kernel.Launch
import proofs.«145413_j67551245631648_2_alg».proof.Proof.Gen.Kernel.Points
import proofs.«145413_j67551245631648_2_alg».proof.Proof.Gen.Kernel.Frame
import proofs.«145413_j67551245631648_2_alg».proof.Proof.Gen.KernelIdeal
import proofs.«145413_j67551245631648_2_alg».proof.Proof.Gen.KernelIdeal.Skeleton
import proofs.«145413_j67551245631648_2_alg».proof.Proof.Gen.KernelIdeal.Launch
import proofs.«145413_j67551245631648_2_alg».proof.Proof.Gen.KernelIdeal.Points
import proofs.«145413_j67551245631648_2_alg».proof.Proof.Gen.KernelIdeal.Frame
import proofs.«145413_j67551245631648_2_alg».proof.Proof.Gen.ReferenceIdeal
import proofs.«145413_j67551245631648_2_alg».proof.Proof.Gen.Pre_finite_inputs
import proofs.«145413_j67551245631648_2_alg».proof.Proof.KernelValue
import proofs.«145413_j67551245631648_2_alg».proof.Proof.RefStages
import proofs.«145413_j67551245631648_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories that agree on the arguments both programs end with the network's value of the arguments in their
    result buffers: the kernel program's run read through its regions, the reference's through its operations, and
    the two values one function. -/
theorem algebraic : Cert.algebraic_KernelIdeal_ReferenceIdeal := by
  intro m ρ m' ρ' _ hagree
  refine ⟨fun c => Cert.KernelIdeal.Hand.value (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7, e8, e9⟩ := hagree c
  rw [e0, e1, e2, e3, e4, e5, e6, e7, e8, e9]
  exact Cert.Bridge.value_eq _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
